-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S4x4096 : Shape := ⟨2, ![4, 4096]⟩
abbrev S4x512 : Shape := ⟨2, ![4, 512]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x4096 : S_.BroadcastsInDim S4x4096 (![] : Fin 0 → Fin S4x4096.rank)
  reducesTo_S4x4096_S_d0_1 : S4x4096.ReducesTo [0, 1] S_
  bcast_S_S4x512 : S_.BroadcastsInDim S4x512 (![] : Fin 0 → Fin S4x512.rank)
  reducesTo_S4x512_S_d0_1 : S4x512.ReducesTo [0, 1] S_

variable [Facts]

def fn_part1 {F : FTy → Type} [FloatOps F] (main_arg4 : FVec F S4x512 .f32) (main_arg5 : FVec F S4x512 .f32) (main_v13 : IVec S_ 1) (main_v16 : IVec S4x4096 1) : IVec S_ 1 :=
  let main_c_5 : IVec S_ 1 := constantI S_ 1 1#1
  let main_v17 : IVec S_ 1 := (fun x v => Host.reduce IntOp.andi x v reducesTo_S4x4096_S_d0_1 h_S_) main_v16 main_c_5
  let main_v18 : IVec S_ 1 := andi main_v13 main_v17
  let main_v19 : FVec F S4x512 .f32 := Host.absf main_arg4
  let main_cst_6 : FVec F S_ .f32 := constant S_ .f32 0x7F800000#32
  let main_v20 : FVec F S4x512 .f32 := broadcastInDim S4x512 ![] bcast_S_S4x512 main_cst_6
  let main_v21 : IVec S4x512 1 := cmpf .olt main_v19 main_v20
  let main_c_7 : IVec S_ 1 := constantI S_ 1 1#1
  let main_v22 : IVec S_ 1 := (fun x v => Host.reduce IntOp.andi x v reducesTo_S4x512_S_d0_1 h_S_) main_v21 main_c_7
  let main_v23 : IVec S_ 1 := andi main_v18 main_v22
  let main_v24 : FVec F S4x512 .f32 := Host.absf main_arg5
  let main_cst_8 : FVec F S_ .f32 := constant S_ .f32 0x7F800000#32
  let main_v25 : FVec F S4x512 .f32 := broadcastInDim S4x512 ![] bcast_S_S4x512 main_cst_8
  let main_v26 : IVec S4x512 1 := cmpf .olt main_v24 main_v25
  let main_c_9 : IVec S_ 1 := constantI S_ 1 1#1
  let main_v27 : IVec S_ 1 := (fun x v => Host.reduce IntOp.andi x v reducesTo_S4x512_S_d0_1 h_S_) main_v26 main_c_9
  let main_v28 : IVec S_ 1 := andi main_v23 main_v27
  main_v28

def fn {F : FTy → Type} [FloatOps F] (main_arg0 : FVec F S4x4096x3 .f32) (main_arg1 : FVec F S4x4096 .f32) (main_arg2 : FVec F S4x4096x3 .f32) (main_arg3 : FVec F S4x4096 .f32) (main_arg4 : FVec F S4x512 .f32) (main_arg5 : FVec F S4x512 .f32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x4096 .f32 := Host.absf main_arg1
  let main_cst_0 : FVec F S_ .f32 := constant S_ .f32 0x7F800000#32
  let main_v5 : FVec F S4x4096 .f32 := broadcastInDim S4x4096 ![] bcast_S_S4x4096 main_cst_0
  let main_v6 : IVec S4x4096 1 := cmpf .olt main_v4 main_v5
  let main_c_1 : IVec S_ 1 := constantI S_ 1 1#1
  let main_v7 : IVec S_ 1 := (fun x v => Host.reduce IntOp.andi x v reducesTo_S4x4096_S_d0_1 h_S_) main_v6 main_c_1
  let main_v8 : IVec S_ 1 := andi main_v3 main_v7
  let main_v9 : FVec F S4x4096x3 .f32 := Host.absf main_arg2
  let main_cst_2 : FVec F S_ .f32 := constant S_ .f32 0x7F800000#32
  let main_v10 : FVec F S4x4096x3 .f32 := broadcastInDim S4x4096x3 ![] bcast_S_S4x4096x3 main_cst_2
  let main_v11 : IVec S4x4096x3 1 := cmpf .olt main_v9 main_v10
  let main_c_3 : IVec S_ 1 := constantI S_ 1 1#1
  let main_v12 : IVec S_ 1 := (fun x v => Host.reduce IntOp.andi x v reducesTo_S4x4096x3_S_d0_1_2 h_S_) main_v11 main_c_3
  let main_v13 : IVec S_ 1 := andi main_v8 main_v12
  let main_v14 : FVec F S4x4096 .f32 := Host.absf main_arg3
  let main_cst_4 : FVec F S_ .f32 := constant S_ .f32 0x7F800000#32
  let main_v15 : FVec F S4x4096 .f32 := broadcastInDim S4x4096 ![] bcast_S_S4x4096 main_cst_4
  let main_v16 : IVec S4x4096 1 := cmpf .olt main_v14 main_v15
  fn_part1 (F := F) main_arg4 main_arg5 main_v13 main_v16
-- ==== Kernel.lean ====
abbrev S4x4096x3 : Shape := ⟨3, ![4, 4096, 3]⟩
abbrev S4x4096 : Shape := ⟨2, ![4, 4096]⟩
abbrev S4x512 : Shape := ⟨2, ![4, 512]⟩
abbrev S2x4x4096 : Shape := ⟨3, ![2, 4, 4096]⟩
abbrev S4x128x3 : Shape := ⟨3, ![4, 128, 3]⟩
abbrev S4x128 : Shape := ⟨2, ![4, 128]⟩
abbrev S1x4x4096 : Shape := ⟨3, ![1, 4, 4096]⟩
abbrev S4x128x1 : Shape := ⟨3, ![4, 128, 1]⟩
abbrev S4x4096x1 : Shape := ⟨3, ![4, 4096, 1]⟩
abbrev S4x1x4096 : Shape := ⟨3, ![4, 1, 4096]⟩
abbrev S4x128x4096 : Shape := ⟨3, ![4, 128, 4096]⟩
abbrev S128x4096 : Shape := ⟨2, ![128, 4096]⟩
abbrev S1x128x4096 : Shape := ⟨3, ![1, 128, 4096]⟩
abbrev S_ : Shape := ⟨0, ![]⟩
abbrev S4 : Shape := ⟨1, ![4]⟩
abbrev S4x1 : Shape := ⟨2, ![4, 1]⟩

abbrev nBuf : Space → Nat
  | .hbm => 85
  | .vmem => 13
  | .smem => 0
  | _ => 0

abbrev bufTy : (tb : Table) → Fin (tcTables nBuf tb) → BufTy
  | .hbm, ⟨0, _⟩ => ⟨S4x4096x3, .f32⟩
  | .hbm, ⟨1, _⟩ => ⟨S4x4096, .f32⟩
  | .hbm, ⟨2, _⟩ => ⟨S4x4096x3, .f32⟩
  | .hbm, ⟨3, _⟩ => ⟨S4x4096, .f32⟩
  | .hbm, ⟨4, _⟩ => ⟨S4x512, .f32⟩
  | .hbm, ⟨5, _⟩ => ⟨S4x512, .f32⟩
  | .hbm, ⟨6, _⟩ => ⟨S4x4096, .f32⟩
  | .hbm, ⟨7, _⟩ => ⟨S2x4x4096, .f32⟩
  | .hbm, ⟨8, _⟩ => ⟨S1x4x4096, .f32⟩
  | .hbm, ⟨9, _⟩ => ⟨S4x4096, .f32⟩
  | .hbm, ⟨10, _⟩ => ⟨S1x4x4096, .f32⟩
  | .hbm, ⟨11, _⟩ => ⟨S4x4096, .f32⟩
  | .hbm, ⟨12, _⟩ => ⟨S4x4096, .f32⟩
  | .hbm, ⟨13, _⟩ => ⟨S4x4096, .f32⟩
  | .hbm, ⟨14, _⟩ => ⟨S_, .f32⟩
  | .hbm, ⟨15, _⟩ => ⟨S4, .f32⟩
  | .hbm, ⟨16, _⟩ => ⟨S_, .f32⟩
  | .hbm, ⟨17, _⟩ => ⟨S4, .f32⟩
  | .hbm, ⟨18, _⟩ => ⟨S4, .f32⟩
  | .hbm, ⟨19, _⟩ => ⟨S_, .f32⟩
  | .hbm, ⟨20, _⟩ => ⟨S4, .f32⟩
  | .hbm, ⟨21, _⟩ => ⟨S_, .f32⟩
  | .hbm, ⟨22, _⟩ => ⟨S4, .f32⟩
  | .hbm, ⟨23, _⟩ => ⟨S4, .f32⟩
  | .hbm, ⟨24, _⟩ => ⟨S4, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S4x512, .f32⟩
  | .hbm, ⟨31, _⟩ => ⟨S4x512, .f32⟩
  | .hbm, ⟨32, _⟩ => ⟨S4x512, .f32⟩
  | .hbm, ⟨33, _⟩ => ⟨S4x512, .f32⟩
  | .hbm, ⟨34, _⟩ => ⟨S4x512, .f32⟩
  | .hbm, ⟨35, _⟩ => ⟨S4x512, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .i32⟩
  | .hbm, ⟨43, _⟩ => ⟨S_, .f32⟩
  | .hbm, ⟨44, _⟩ => ⟨S4, .f32⟩
  | .hbm, ⟨45, _⟩ => ⟨S4x1, .f32⟩
  | .hbm, ⟨46, _⟩ => ⟨S_, .f32⟩
  | .hbm, ⟨47, _⟩ => ⟨S4x1, .f32⟩
  | .hbm, ⟨48, _⟩ => ⟨S4x1, .f32⟩
  | .hbm, ⟨49, _⟩ => ⟨S4x4096, .f32⟩
  | .hbm, ⟨50, _⟩ => ⟨S4x4096, .f32⟩
  | .hbm, ⟨51, _⟩ => ⟨S4x4096, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S4, .f32⟩
  | .hbm, ⟨57, _⟩ => ⟨S4, .f32⟩
  | .hbm, ⟨58, _⟩ => ⟨S4, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S4, .f32⟩
  | .hbm, ⟨64, _⟩ => ⟨S4, .f32⟩
  | .hbm, ⟨65, _⟩ => ⟨S4, .f32⟩
  | .hbm, ⟨66, _⟩ => ⟨S_, .f32⟩
  | .hbm, ⟨67, _⟩ => ⟨S_, .f32⟩
  | .hbm, ⟨68, _⟩ => ⟨S_, .f32⟩
  | .hbm, ⟨69, _⟩ => ⟨S_, .f32⟩
  | .hbm, ⟨70, _⟩ => ⟨S4x4096, .f32⟩
  | .hbm, ⟨71, _⟩ => ⟨S4x4096, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .local _ .vmem, ⟨0, _⟩ => ⟨S4x128x3, .f32⟩
  | .local _ .vmem, ⟨1, _⟩ => ⟨S4x128x3, .f32⟩
  | .local _ .vmem, ⟨2, _⟩ => ⟨S4x4096x3, .f32⟩
  | .local _ .vmem, ⟨3, _⟩ => ⟨S4x128, .f32⟩
  | .local _ .vmem, ⟨4, _⟩ => ⟨S4x128, .f32⟩
  | .local _ .vmem, ⟨5, _⟩ => ⟨S1x4x4096, .f32⟩
  | .local _ .vmem, ⟨6, _⟩ => ⟨S1x4x4096, .f32⟩
  | .local _ .vmem, ⟨7, _⟩ => ⟨S4x4096, .f32⟩
  | .local _ .vmem, ⟨8, _⟩ => ⟨S4x128x3, .f32⟩
  | .local _ .vmem, ⟨9, _⟩ => ⟨S4x128x3, .f32⟩
  | .local _ .vmem, ⟨10, _⟩ => ⟨S4x4096x3, .f32⟩
  | .local _ .vmem, ⟨11, _⟩ => ⟨S4x128, .f32⟩
  | .local _ .vmem, ⟨12, _⟩ => ⟨S4x128, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_cst_4 : Ref sig .tc := ⟨.hbm, 27, rfl⟩
abbrev main_v15 : Ref sig .tc := ⟨.hbm, 28, rfl⟩
abbrev main_cst_5 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_cst_7 : Ref sig .tc := ⟨.hbm, 38, rfl⟩
abbrev main_v23 : Ref sig .tc := ⟨.hbm, 39, rfl⟩
abbrev main_cst_8 : Ref sig .tc := ⟨.hbm, 40, rfl⟩
abbrev main_v24 : Ref sig .tc := ⟨.hbm, 41, rfl⟩
abbrev main_c : Ref sig .tc := ⟨.hbm, 42, rfl⟩
abbrev main_call0_call0_cst : Ref sig .tc := ⟨.hbm, 43, rfl⟩
abbrev main_call0_call0_v0 : Ref sig .tc := ⟨.hbm, 44, rfl⟩
abbrev main_call0_call0_v1 : Ref sig .tc := ⟨.hbm, 45, rfl⟩
abbrev main_call0_call0_cst_0 : Ref sig .tc := ⟨.hbm, 46, rfl⟩
abbrev main_call0_call0_v2 : Ref sig .tc := ⟨.hbm, 47, rfl⟩
abbrev main_call0_call0_v3 : Ref sig .tc := ⟨.hbm, 48, rfl⟩
abbrev main_call0_call0_v4 : Ref sig .tc := ⟨.hbm, 49, rfl⟩
abbrev main_call0_call0_v5 : Ref sig .tc := ⟨.hbm, 50, rfl⟩
abbrev main_call0_call0_v6 : Ref sig .tc := ⟨.hbm, 51, rfl⟩
abbrev main_call0_call0_v7 : Ref sig .tc := ⟨.hbm, 52, rfl⟩
abbrev main_call0_call0_cst_1 : Ref sig .tc := ⟨.hbm, 53, rfl⟩
abbrev main_call0_call0_v8 : Ref sig .tc := ⟨.hbm, 54, rfl⟩
abbrev main_call0_call0_cst_2 : Ref sig .tc := ⟨.hbm, 55, rfl⟩
abbrev main_call0_call0_v9 : Ref sig .tc := ⟨.hbm, 56, rfl⟩
abbrev main_call0_call0_v10 : Ref sig .tc := ⟨.hbm, 57, rfl⟩
abbrev main_call0_call0_v11 : Ref sig .tc := ⟨.hbm, 58, rfl⟩
abbrev main_call0_call0_cst_3 : Ref sig .tc := ⟨.hbm, 59, rfl⟩
abbrev main_call0_call0_v12 : Ref sig .tc := ⟨.hbm, 60, rfl⟩
abbrev main_call0_call0_cst_4 : Ref sig .tc := ⟨.hbm, 61, rfl⟩
abbrev main_call0_call0_call0_v0 : Ref sig .tc := ⟨.hbm, 62, rfl⟩
abbrev main_call0_call0_call0_v1 : Ref sig .tc := ⟨.hbm, 63, rfl⟩
abbrev main_call0_v0 : Ref sig .tc := ⟨.hbm, 64, rfl⟩
abbrev main_v25 : Ref sig .tc := ⟨.hbm, 65, rfl⟩
abbrev main_cst_9 : Ref sig .tc := ⟨.hbm, 66, rfl⟩
abbrev main_v26 : Ref sig .tc := ⟨.hbm, 67, rfl⟩
abbrev main_cst_10 : Ref sig .tc := ⟨.hbm, 68, rfl⟩
abbrev main_v27 : Ref sig .tc := ⟨.hbm, 69, rfl⟩
abbrev main_v28 : Ref sig .tc := ⟨.hbm, 70, rfl⟩
abbrev main_v29 : Ref sig .tc := ⟨.hbm, 71, rfl⟩
abbrev main_cst_11 : Ref sig .tc := ⟨.hbm, 72, rfl⟩
abbrev main_v30 : Ref sig .tc := ⟨.hbm, 73, rfl⟩
abbrev main_cst_12 : Ref sig .tc := ⟨.hbm, 74, rfl⟩
abbrev main_v31 : Ref sig .tc := ⟨.hbm, 75, rfl⟩
abbrev main_cst_13 : Ref sig .tc := ⟨.hbm, 76, rfl⟩
abbrev main_v32 : Ref sig .tc := ⟨.hbm, 77, rfl⟩
abbrev main_v33 : Ref sig .tc := ⟨.hbm, 78, rfl⟩
abbrev main_cst_14 : Ref sig .tc := ⟨.hbm, 79, rfl⟩
abbrev main_v34 : Ref sig .tc := ⟨.hbm, 80, rfl⟩
abbrev main_v35 : Ref sig .tc := ⟨.hbm, 81, rfl⟩
abbrev main_cst_15 : Ref sig .tc := ⟨.hbm, 82, rfl⟩
abbrev main_v36 : Ref sig .tc := ⟨.hbm, 83, rfl⟩
abbrev main_v37 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg2_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem2_1 : DmaSem sig := 11

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg1 : BitVec 32 := BitVec.ofNat 32 (i 1).val
  let c15_i32 : BitVec 32 := 15#32
  let v43 : BitVec 1 := Scalar.cmpi .eq arg1 c15_i32
  let v44 : BitVec 32 := Scalar.extui v43
  let c0_i32_11 : BitVec 32 := 0#32
  let v45 : BitVec 1 := Scalar.cmpi .ne v44 c0_i32_11
  v45

def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  let c0_i32_1 : BitVec 32 := 0#32
  ![c0_i32.toNat, v1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x128x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4x4096x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S4x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S4x128x3 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S4x4096x3 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  inb_S4x128x3_S4x128x3_0_0_0 : ∀ a, (![0, 0, 0] : Fin 3 → Nat) a + S4x128x3.size a ≤ S4x128x3.size a
  h_S4x128x3 : 0 < S4x128x3.numel
  inb_S4x4096x3_S4x4096x3_0_0_0 : ∀ a, (![0, 0, 0] : Fin 3 → Nat) a + S4x4096x3.size a ≤ S4x4096x3.size a
  h_S4x4096x3 : 0 < S4x4096x3.numel
  slices_S4x128x3_o0_0_0_S4x128x1 : S4x128x3.Slices ![0, 0, 0] S4x128x1
  shapeCasts_S4x128x1_S4x128 : S4x128x1.ShapeCasts S4x128
  slices_S4x128x3_o0_0_1_S4x128x1 : S4x128x3.Slices ![0, 0, 1] S4x128x1
  slices_S4x128x3_o0_0_2_S4x128x1 : S4x128x3.Slices ![0, 0, 2] S4x128x1
  slices_S4x4096x3_o0_0_0_S4x4096x1 : S4x4096x3.Slices ![0, 0, 0] S4x4096x1
  shapeCasts_S4x4096x1_S4x4096 : S4x4096x1.ShapeCasts S4x4096
  slices_S4x4096x3_o0_0_1_S4x4096x1 : S4x4096x3.Slices ![0, 0, 1] S4x4096x1
  slices_S4x4096x3_o0_0_2_S4x4096x1 : S4x4096x3.Slices ![0, 0, 2] S4x4096x1
  shapeCasts_S4x128_S4x128x1 : S4x128.ShapeCasts S4x128x1
  shapeCasts_S4x4096_S4x1x4096 : S4x4096.ShapeCasts S4x1x4096
  broadcasts_S4x128x1_S4x128x4096 : S4x128x1.Broadcasts S4x128x4096
  broadcasts_S4x1x4096_S4x128x4096 : S4x1x4096.Broadcasts S4x128x4096
  reduces_S4x128x4096_S4x128 : S4x128x4096.Reduces [2] S4x128
  inb_S4x128_S4x128_0_0 : ∀ a, (![0, 0] : Fin 2 → Nat) a + S4x128.size a ≤ S4x128.size a
  h_S4x128 : 0 < S4x128.numel
  reduces_S4x128x4096_S4x4096 : S4x128x4096.Reduces [1] S4x4096
  inb_S4x4096_S4x4096_0_0 : ∀ a, (![0, 0] : Fin 2 → Nat) a + S4x4096.size a ≤ S4x4096.size a
  h_S4x4096 : 0 < S4x4096.numel
  shapeCasts_S4x4096_S4x4096 : S4x4096.ShapeCasts S4x4096
  inb_S1x4x4096_S1x4x4096_0_0_0 : ∀ a, (![0, 0, 0] : Fin 3 → Nat) a + S1x4x4096.size a ≤ S1x4x4096.size a
  h_S1x4x4096 : 0 < S1x4x4096.numel
  shapeCasts_S1x4x4096_S4x4096 : S1x4x4096.ShapeCasts S4x4096
  shapeCasts_S4x4096_S1x4x4096 : S4x4096.ShapeCasts S1x4x4096
  slices_S2x4x4096_S1x4x4096_0_0_0 : S2x4x4096.Slices ![0, 0, 0] S1x4x4096
  slices_S2x4x4096_S1x4x4096_1_0_0 : S2x4x4096.Slices ![1, 0, 0] S1x4x4096
  iota_S128x4096_d0_w32 : S128x4096.Iotas .tc 32 [0]
  iota_S128x4096_d1_w32 : S128x4096.Iotas .tc 32 [1]
  shapeCasts_S128x4096_S1x128x4096 : S128x4096.ShapeCasts S1x128x4096
  broadcasts_S1x128x4096_S4x128x4096 : S1x128x4096.Broadcasts S4x128x4096
  reducesTo_S4x4096_S4_d1 : S4x4096.ReducesTo [1] S4
  h_S_ : 0 < S_.numel
  bcast_S_S4 : S_.BroadcastsInDim S4 (![] : Fin 0 → Fin S4.rank)
  reducesTo_S4_S_d0 : S4.ReducesTo [0] S_
  bcast_S_S4x512 : S_.BroadcastsInDim S4x512 (![] : Fin 0 → Fin S4x512.rank)
  reducesTo_S4x512_S_d0_1 : S4x512.ReducesTo [0, 1] S_
  bcast_S4_S4x1_0 : S4.BroadcastsInDim S4x1 (![0] : Fin 1 → Fin S4x1.rank)
  bcast_S_S4x1 : S_.BroadcastsInDim S4x1 (![] : Fin 0 → Fin S4x1.rank)
  bcast_S4x1_S4x4096_0_1 : S4x1.BroadcastsInDim S4x4096 (![0, 1] : Fin 2 → Fin S4x4096.rank)
  reducesTo_S4x4096_S_d0_1 : S4x4096.ReducesTo [0, 1] S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x128x3.size a ≤ S4x4096x3.size a
  hwx0_0 : ∀ i : grid0.Coords, EltTy.bits .f32 = 32 ∨ (Rect.block (s := S4x4096x3) S4x128x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x4096x3.size a ≤ S4x4096x3.size a
  hwx0_1 : ∀ i : grid0.Coords, EltTy.bits .f32 = 32 ∨ (Rect.block (s := S4x4096x3) S4x4096x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x128.size a ≤ S4x4096.size a
  hwx0_2 : ∀ i : grid0.Coords, EltTy.bits .f32 = 32 ∨ (Rect.block (s := S4x4096) S4x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x4x4096.size a ≤ S2x4x4096.size a
  hwx0_3 : ∀ i : grid0.Coords, EltTy.bits .f32 = 32 ∨ (Rect.block (s := S2x4x4096) S1x4x4096.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4x128x3.size a ≤ S4x4096x3.size a
  hwx1_0 : ∀ i : grid1.Coords, EltTy.bits .f32 = 32 ∨ (Rect.block (s := S4x4096x3) S4x128x3.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S4x4096x3.size a ≤ S4x4096x3.size a
  hwx1_1 : ∀ i : grid1.Coords, EltTy.bits .f32 = 32 ∨ (Rect.block (s := S4x4096x3) S4x4096x3.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4x128.size a ≤ S4x4096.size a
  hwx1_2 : ∀ i : grid1.Coords, EltTy.bits .f32 = 32 ∨ (Rect.block (s := S4x4096) S4x128.size (cc1_transform_2 i) (hinb1_2 i)).WholeWords (EltTy.packing .f32)

variable [Facts₀]

abbrev win0_0 : Pipeline.Window sig grid0 :=
  Pipeline.Window.ofSpec (Memref.whole main_arg0) S4x128x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S4x4096x3.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0_0) S4x128.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0_1) S1x4x4096.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond3 i == 1#1) | ⟨_ + 4, h⟩ => absurd h (Nat.not_lt.2 (Nat.le_add_left _ _))

abbrev win1_0 : Pipeline.Window sig grid1 :=
  Pipeline.Window.ofSpec (Memref.whole main_arg0) S4x128x3.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S4x4096x3.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v6) S4x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S4x4096x3 : Shape := ⟨3, ![4, 4096, 3]⟩
abbrev S4x4096 : Shape := ⟨2, ![4, 4096]⟩
abbrev S4x512 : Shape := ⟨2, ![4, 512]⟩
abbrev S_ : Shape := ⟨0, ![]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S4 : Shape := ⟨1, ![4]⟩
abbrev S4096x4096 : Shape := ⟨2, ![4096, 4096]⟩
abbrev S1x4096x4096 : Shape := ⟨3, ![1, 4096, 4096]⟩
abbrev S4x1 : Shape := ⟨2, ![4, 1]⟩

abbrev nBuf : Space → Nat
  | .hbm => 128
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x4096, .f32⟩
  | .hbm, ⟨2, _⟩ => ⟨S4x4096x3, .f32⟩
  | .hbm, ⟨3, _⟩ => ⟨S4x4096, .f32⟩
  | .hbm, ⟨4, _⟩ => ⟨S4x512, .f32⟩
  | .hbm, ⟨5, _⟩ => ⟨S4x512, .f32⟩
  | .hbm, ⟨6, _⟩ => ⟨S4x4096x3, .f32⟩
  | .hbm, ⟨7, _⟩ => ⟨S_, .f32⟩
  | .hbm, ⟨8, _⟩ => ⟨S4x4096, .f32⟩
  | .hbm, ⟨9, _⟩ => ⟨S4x4096x3, .f32⟩
  | .hbm, ⟨10, _⟩ => ⟨S_, .f32⟩
  | .hbm, ⟨11, _⟩ => ⟨S4x4096, .f32⟩
  | .hbm, ⟨12, _⟩ => ⟨S4x4096x4096, .f32⟩
  | .hbm, ⟨13, _⟩ => ⟨S4x4096x1, .f32⟩
  | .hbm, ⟨14, _⟩ => ⟨S4x1x4096, .f32⟩
  | .hbm, ⟨15, _⟩ => ⟨S4x4096x4096, .f32⟩
  | .hbm, ⟨16, _⟩ => ⟨S4x4096x4096, .f32⟩
  | .hbm, ⟨17, _⟩ => ⟨S4x4096x4096, .f32⟩
  | .hbm, ⟨18, _⟩ => ⟨S_, .f32⟩
  | .hbm, ⟨19, _⟩ => ⟨S4x4096x4096, .f32⟩
  | .hbm, ⟨20, _⟩ => ⟨S4x4096x4096, .f32⟩
  | .hbm, ⟨21, _⟩ => ⟨S4x4096x4096, .f32⟩
  | .hbm, ⟨22, _⟩ => ⟨S_, .f32⟩
  | .hbm, ⟨23, _⟩ => ⟨S4x4096, .f32⟩
  | .hbm, ⟨24, _⟩ => ⟨S_, .f32⟩
  | .hbm, ⟨25, _⟩ => ⟨S4, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S_, .f32⟩
  | .hbm, ⟨30, _⟩ => ⟨S4x4096, .f32⟩
  | .hbm, ⟨31, _⟩ => ⟨S_, .f32⟩
  | .hbm, ⟨32, _⟩ => ⟨S4, .f32⟩
  | .hbm, ⟨33, _⟩ => ⟨S_, .f32⟩
  | .hbm, ⟨34, _⟩ => ⟨S4, .f32⟩
  | .hbm, ⟨35, _⟩ => ⟨S4, .f32⟩
  | .hbm, ⟨36, _⟩ => ⟨S4, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4x512, .f32⟩
  | .hbm, ⟨43, _⟩ => ⟨S4x512, .f32⟩
  | .hbm, ⟨44, _⟩ => ⟨S4x512, .f32⟩
  | .hbm, ⟨45, _⟩ => ⟨S4x512, .f32⟩
  | .hbm, ⟨46, _⟩ => ⟨S4x512, .f32⟩
  | .hbm, ⟨47, _⟩ => ⟨S4x512, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S4x4096x3, .f32⟩
  | .hbm, ⟨55, _⟩ => ⟨S_, .f32⟩
  | .hbm, ⟨56, _⟩ => ⟨S4x4096, .f32⟩
  | .hbm, ⟨57, _⟩ => ⟨S4x4096x3, .f32⟩
  | .hbm, ⟨58, _⟩ => ⟨S_, .f32⟩
  | .hbm, ⟨59, _⟩ => ⟨S4x4096, .f32⟩
  | .hbm, ⟨60, _⟩ => ⟨S4x4096x4096, .f32⟩
  | .hbm, ⟨61, _⟩ => ⟨S4x4096x1, .f32⟩
  | .hbm, ⟨62, _⟩ => ⟨S4x1x4096, .f32⟩
  | .hbm, ⟨63, _⟩ => ⟨S4x4096x4096, .f32⟩
  | .hbm, ⟨64, _⟩ => ⟨S4x4096x4096, .f32⟩
  | .hbm, ⟨65, _⟩ => ⟨S4x4096x4096, .f32⟩
  | .hbm, ⟨66, _⟩ => ⟨S_, .f32⟩
  | .hbm, ⟨67, _⟩ => ⟨S4x4096x4096, .f32⟩
  | .hbm, ⟨68, _⟩ => ⟨S4x4096x4096, .f32⟩
  | .hbm, ⟨69, _⟩ => ⟨S4x4096x4096, .f32⟩
  | .hbm, ⟨70, _⟩ => ⟨S4096x4096, .i32⟩
  | .hbm, ⟨71, _⟩ => ⟨S4096x4096, .i32⟩
  | .hbm, ⟨72, _⟩ => ⟨S_, .i32⟩
  | .hbm, ⟨73, _⟩ => ⟨S4096x4096, .i32⟩
  | .hbm, ⟨74, _⟩ => ⟨S4096x4096, .i32⟩
  | .hbm, ⟨75, _⟩ => ⟨S4096x4096, .i1⟩
  | .hbm, ⟨76, _⟩ => ⟨S4096x4096, .f32⟩
  | .hbm, ⟨77, _⟩ => ⟨S1x4096x4096, .f32⟩
  | .hbm, ⟨78, _⟩ => ⟨S_, .f32⟩
  | .hbm, ⟨79, _⟩ => ⟨S1x4096x4096, .f32⟩
  | .hbm, ⟨80, _⟩ => ⟨S1x4096x4096, .f32⟩
  | .hbm, ⟨81, _⟩ => ⟨S4x4096x4096, .f32⟩
  | .hbm, ⟨82, _⟩ => ⟨S4x4096x4096, .f32⟩
  | .hbm, ⟨83, _⟩ => ⟨S_, .f32⟩
  | .hbm, ⟨84, _⟩ => ⟨S4x4096, .f32⟩
  | .hbm, ⟨85, _⟩ => ⟨S_, .i32⟩
  | .hbm, ⟨86, _⟩ => ⟨S_, .f32⟩
  | .hbm, ⟨87, _⟩ => ⟨S4, .f32⟩
  | .hbm, ⟨88, _⟩ => ⟨S4x1, .f32⟩
  | .hbm, ⟨89, _⟩ => ⟨S_, .f32⟩
  | .hbm, ⟨90, _⟩ => ⟨S4x1, .f32⟩
  | .hbm, ⟨91, _⟩ => ⟨S4x1, .f32⟩
  | .hbm, ⟨92, _⟩ => ⟨S4x4096, .f32⟩
  | .hbm, ⟨93, _⟩ => ⟨S4x4096, .f32⟩
  | .hbm, ⟨94, _⟩ => ⟨S4x4096, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S4, .f32⟩
  | .hbm, ⟨100, _⟩ => ⟨S4, .f32⟩
  | .hbm, ⟨101, _⟩ => ⟨S4, .f32⟩
  | .hbm, ⟨102, _⟩ => ⟨S_, .f32⟩
  | .hbm, ⟨103, _⟩ => ⟨S_, .i1⟩
  | .hbm, ⟨104, _⟩ => ⟨S_, .f32⟩
  | .hbm, ⟨105, _⟩ => ⟨S_, .f32⟩
  | .hbm, ⟨106, _⟩ => ⟨S4, .f32⟩
  | .hbm, ⟨107, _⟩ => ⟨S4, .f32⟩
  | .hbm, ⟨108, _⟩ => ⟨S4, .f32⟩
  | .hbm, ⟨109, _⟩ => ⟨S_, .f32⟩
  | .hbm, ⟨110, _⟩ => ⟨S_, .f32⟩
  | .hbm, ⟨111, _⟩ => ⟨S_, .f32⟩
  | .hbm, ⟨112, _⟩ => ⟨S_, .f32⟩
  | .hbm, ⟨113, _⟩ => ⟨S4x4096, .f32⟩
  | .hbm, ⟨114, _⟩ => ⟨S4x4096, .f32⟩
  | .hbm, ⟨115, _⟩ => ⟨S_, .f32⟩
  | .hbm, ⟨116, _⟩ => ⟨S_, .f32⟩
  | .hbm, ⟨117, _⟩ => ⟨S_, .f32⟩
  | .hbm, ⟨118, _⟩ => ⟨S_, .f32⟩
  | .hbm, ⟨119, _⟩ => ⟨S_, .f32⟩
  | .hbm, ⟨120, _⟩ => ⟨S_, .f32⟩
  | .hbm, ⟨121, _⟩ => ⟨S_, .f32⟩
  | .hbm, ⟨122, _⟩ => ⟨S_, .f32⟩
  | .hbm, ⟨123, _⟩ => ⟨S_, .f32⟩
  | .hbm, ⟨124, _⟩ => ⟨S_, .f32⟩
  | .hbm, ⟨125, _⟩ => ⟨S_, .f32⟩
  | .hbm, ⟨126, _⟩ => ⟨S_, .f32⟩
  | .hbm, ⟨127, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_cst_4 : Ref sig .tc := ⟨.hbm, 26, rfl⟩
abbrev main_v15 : Ref sig .tc := ⟨.hbm, 27, rfl⟩
abbrev main_v16 : Ref sig .tc := ⟨.hbm, 28, rfl⟩
abbrev main_cst_5 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_cst_7 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_8 : Ref sig .tc := ⟨.hbm, 37, rfl⟩
abbrev main_v22 : Ref sig .tc := ⟨.hbm, 38, rfl⟩
abbrev main_cst_9 : Ref sig .tc := ⟨.hbm, 39, rfl⟩
abbrev main_v23 : Ref sig .tc := ⟨.hbm, 40, rfl⟩
abbrev main_cst_10 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_11 : Ref sig .tc := ⟨.hbm, 48, rfl⟩
abbrev main_v30 : Ref sig .tc := ⟨.hbm, 49, rfl⟩
abbrev main_cst_12 : Ref sig .tc := ⟨.hbm, 50, rfl⟩
abbrev main_v31 : Ref sig .tc := ⟨.hbm, 51, rfl⟩
abbrev main_cst_13 : Ref sig .tc := ⟨.hbm, 52, rfl⟩
abbrev main_v32 : Ref sig .tc := ⟨.hbm, 53, rfl⟩
abbrev main_v33 : Ref sig .tc := ⟨.hbm, 54, rfl⟩
abbrev main_cst_14 : Ref sig .tc := ⟨.hbm, 55, rfl⟩
abbrev main_v34 : Ref sig .tc := ⟨.hbm, 56, rfl⟩
abbrev main_v35 : Ref sig .tc := ⟨.hbm, 57, rfl⟩
abbrev main_cst_15 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_16 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_c : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_17 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_cst_18 : Ref sig .tc := ⟨.hbm, 83, rfl⟩
abbrev main_v57 : Ref sig .tc := ⟨.hbm, 84, rfl⟩
abbrev main_c_19 : Ref sig .tc := ⟨.hbm, 85, rfl⟩
abbrev main_call0_call0_cst : Ref sig .tc := ⟨.hbm, 86, rfl⟩
abbrev main_call0_call0_v0 : Ref sig .tc := ⟨.hbm, 87, rfl⟩
abbrev main_call0_call0_v1 : Ref sig .tc := ⟨.hbm, 88, rfl⟩
abbrev main_call0_call0_cst_0 : Ref sig .tc := ⟨.hbm, 89, rfl⟩
abbrev main_call0_call0_v2 : Ref sig .tc := ⟨.hbm, 90, rfl⟩
abbrev main_call0_call0_v3 : Ref sig .tc := ⟨.hbm, 91, rfl⟩
abbrev main_call0_call0_v4 : Ref sig .tc := ⟨.hbm, 92, rfl⟩
abbrev main_call0_call0_v5 : Ref sig .tc := ⟨.hbm, 93, rfl⟩
abbrev main_call0_call0_v6 : Ref sig .tc := ⟨.hbm, 94, rfl⟩
abbrev main_call0_call0_v7 : Ref sig .tc := ⟨.hbm, 95, rfl⟩
abbrev main_call0_call0_cst_1 : Ref sig .tc := ⟨.hbm, 96, rfl⟩
abbrev main_call0_call0_v8 : Ref sig .tc := ⟨.hbm, 97, rfl⟩
abbrev main_call0_call0_cst_2 : Ref sig .tc := ⟨.hbm, 98, rfl⟩
abbrev main_call0_call0_v9 : Ref sig .tc := ⟨.hbm, 99, rfl⟩
abbrev main_call0_call0_v10 : Ref sig .tc := ⟨.hbm, 100, rfl⟩
abbrev main_call0_call0_v11 : Ref sig .tc := ⟨.hbm, 101, rfl⟩
abbrev main_call0_call0_cst_3 : Ref sig .tc := ⟨.hbm, 102, rfl⟩
abbrev main_call0_call0_v12 : Ref sig .tc := ⟨.hbm, 103, rfl⟩
abbrev main_call0_call0_cst_4 : Ref sig .tc := ⟨.hbm, 104, rfl⟩
abbrev main_call0_call0_call0_v0 : Ref sig .tc := ⟨.hbm, 105, rfl⟩
abbrev main_call0_call0_call0_v1 : Ref sig .tc := ⟨.hbm, 106, rfl⟩
abbrev main_call0_v0 : Ref sig .tc := ⟨.hbm, 107, rfl⟩
abbrev main_v58 : Ref sig .tc := ⟨.hbm, 108, rfl⟩
abbrev main_cst_20 : Ref sig .tc := ⟨.hbm, 109, rfl⟩
abbrev main_v59 : Ref sig .tc := ⟨.hbm, 110, rfl⟩
abbrev main_cst_21 : Ref sig .tc := ⟨.hbm, 111, rfl⟩
abbrev main_v60 : Ref sig .tc := ⟨.hbm, 112, rfl⟩
abbrev main_v61 : Ref sig .tc := ⟨.hbm, 113, rfl⟩
abbrev main_v62 : Ref sig .tc := ⟨.hbm, 114, rfl⟩
abbrev main_cst_22 : Ref sig .tc := ⟨.hbm, 115, rfl⟩
abbrev main_v63 : Ref sig .tc := ⟨.hbm, 116, rfl⟩
abbrev main_cst_23 : Ref sig .tc := ⟨.hbm, 117, rfl⟩
abbrev main_v64 : Ref sig .tc := ⟨.hbm, 118, rfl⟩
abbrev main_cst_24 : Ref sig .tc := ⟨.hbm, 119, rfl⟩
abbrev main_v65 : Ref sig .tc := ⟨.hbm, 120, rfl⟩
abbrev main_v66 : Ref sig .tc := ⟨.hbm, 121, rfl⟩
abbrev main_cst_25 : Ref sig .tc := ⟨.hbm, 122, rfl⟩
abbrev main_v67 : Ref sig .tc := ⟨.hbm, 123, rfl⟩
abbrev main_v68 : Ref sig .tc := ⟨.hbm, 124, rfl⟩
abbrev main_cst_26 : Ref sig .tc := ⟨.hbm, 125, rfl⟩
abbrev main_v69 : Ref sig .tc := ⟨.hbm, 126, rfl⟩
abbrev main_v70 : Ref sig .tc := ⟨.hbm, 127, rfl⟩

abbrev nD : Nat := 1
abbrev τ : Topo := Topo.v7x

variable {F : FTy → Type} [FloatOps F]

class Facts₀ : Prop where
  reducesTo_S4x4096x3_S4x4096_d2 : S4x4096x3.ReducesTo [2] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  reducesTo_S4x4096x4096_S4x4096_d2 : S4x4096x4096.ReducesTo [2] S4x4096
  reducesTo_S4x4096_S4_d1 : S4x4096.ReducesTo [1] S4
  bcast_S_S4 : S_.BroadcastsInDim S4 (![] : Fin 0 → Fin S4.rank)
  reducesTo_S4x4096x4096_S4x4096_d1 : S4x4096x4096.ReducesTo [1] S4x4096
  reducesTo_S4_S_d0 : S4.ReducesTo [0] S_
  bcast_S_S4x512 : S_.BroadcastsInDim S4x512 (![] : Fin 0 → Fin S4x512.rank)
  reducesTo_S4x512_S_d0_1 : S4x512.ReducesTo [0, 1] S_
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S_S1x4096x4096 : S_.BroadcastsInDim S1x4096x4096 (![] : Fin 0 → Fin S1x4096x4096.rank)
  bcast_S1x4096x4096_S4x4096x4096_0_1_2 : S1x4096x4096.BroadcastsInDim S4x4096x4096 (![0, 1, 2] : Fin 3 → Fin S4x4096x4096.rank)
  bcast_S4_S4x1_0 : S4.BroadcastsInDim S4x1 (![0] : Fin 1 → Fin S4x1.rank)
  bcast_S_S4x1 : S_.BroadcastsInDim S4x1 (![] : Fin 0 → Fin S4x1.rank)
  bcast_S4x1_S4x4096_0_1 : S4x1.BroadcastsInDim S4x4096 (![0, 1] : Fin 2 → Fin S4x4096.rank)
  reducesTo_S4x4096_S_d0_1 : S4x4096.ReducesTo [0, 1] S_
  dot_S4x4096x3_S4x4096x3_S4x4096x4096_2_2_1_1_0_0_wf : DotDims.WF S4x4096x3 S4x4096x3 S4x4096x4096 [2] [2] [1] [1] [0] [0]

variable [Facts₀]

def dot_S4x4096x3_S4x4096x3_S4x4096x4096_2_2_1_1_0_0 : DotDims S4x4096x3 S4x4096x3 S4x4096x4096 where
  lhsContracting := [2]
  rhsContracting := [2]
  lhsNonContracting := [1]
  rhsNonContracting := [1]
  lhsBatch := [0]
  rhsBatch := [0]
  wf := dot_S4x4096x3_S4x4096x3_S4x4096x4096_2_2_1_1_0_0_wf

class Facts : Prop extends Facts₀ where

variable [Facts]
-- ==== Proof.Reg0DataK.lean ====
/-
  The first kernel region: the pairwise squared distances of a tile of 128 rows of the first point
  cloud against all 4096 points of the second, reduced two ways. Its proof data: at a grid point
  (o, a), o < 2 the half and a < 16 the tile within the half, the row-minimum output holds the
  minimum over all columns of the tile's distances; the scratch holds the running column-minimum over
  the tiles 0..a of the half (started afresh at a = 0, the elementwise minimum with the previous
  contents afterwards); the column-minimum output is written from the scratch at a = 15 only and is
  left untouched elsewhere.
-/
import proofs.«113848_j55319178772943_2_alg».proof.Proof.Gen.Kernel.Launch
import proofs.«113848_j55319178772943_2_alg».proof.Proof.Gen.Kernel.Skeleton
import proofs.«113848_j55319178772943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile index within the half is the point's number modulo 16. -/
theorem inner0 : ∀ t : Fin cfg0.N, ((grid0.coords t) 1).val = t.val % 16 :=
  (by decide +kernel : ∀ t : Fin grid0.N, ((grid0.coords t) 1).val = t.val % 16)

/-- The scratch after point `n`: the column-minimum of the tile at the first tile of a half, else its
    elementwise minimum with what the point before left. -/
def acc0 (c : Dev nD) : (n : ℕ) → n < cfg0.N → Vec F S4x4096 .f32
  | 0, h => k0_pay6 (iblk0 V c 0 ⟨0, h⟩) (iblk0 V c 1 ⟨0, h⟩)
  | n + 1, h =>
    if (n + 1) % 16 = 0 then k0_pay6 (iblk0 V c 0 ⟨n + 1, h⟩) (iblk0 V c 1 ⟨n + 1, h⟩)
    else k0_pay1 (k0_pay5 (iblk0 V c 0 ⟨n + 1, h⟩) (iblk0 V c 1 ⟨n + 1, h⟩)) (acc0 c n (Nat.lt_of_succ_lt h))

theorem acc0_first (c : Dev nD) (t : Fin cfg0.N) (h : t.val % 16 = 0) :
    acc0 V c t.val t.isLt = k0_pay6 (iblk0 V c 0 t) (iblk0 V c 1 t) := by
  obtain ⟨n, hn⟩ := t
  cases n with
  | zero => rfl
  | succ n => exact if_pos h

theorem acc0_next (c : Dev nD) (t : Fin cfg0.N) (h : t.val % 16 ≠ 0) :
    acc0 V c t.val t.isLt = k0_pay1 (k0_pay5 (iblk0 V c 0 t) (iblk0 V c 1 t))
      (acc0 V c (t.val - 1) (Nat.lt_of_le_of_lt (Nat.sub_le _ _) t.isLt)) := by
  obtain ⟨n, hn⟩ := t
  cases n with
  | zero => exact absurd (Nat.zero_mod _) h
  | succ n => exact if_neg h

/-- The scratch operand as a memref. -/
abbrev scM0 : Memref sig .tc .vmem S4x4096 .f32 := Memref.whole cc0_scratch0

/-- The scoped buffers the region neither stages nor uses (the second region's staging buffers), each at
    some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the scratch named: the scratch at some contents, the other scoped buffers, the
    generator register. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0; rw [scopedRest0_eq]; simp only [scM0, owns_whole]; try rfl

/-- The region invariant before position `n`: before the first point the class's; afterwards the scratch at
    what the point before left. -/
def Phi0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scM0 fullShare (acc0 V c n hn) ∗ rest0 c) ∗ (∃ r, prngReg c r)) := rfl

theorem Phi0_pos (c : Dev nD) (n : ℕ) (h : n ≤ cfg0.N) (hz : n ≠ 0) :
    Phi0 V c n h = iprop((owns (c : Thread nD τ) scM0 fullShare (acc0 V c (n - 1) (by omega)) ∗ rest0 c) ∗ (∃ r, prngReg c r)) := by
  cases n with
  | zero => exact absurd rfl hz
  | succ n => rfl

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (iblk0 V c 0 t) (iblk0 V c 1 t)
    | ⟨3, _⟩ => k0_pay2 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (iblk0 V c 0 t) (iblk0 V c 1 t) := by dsimp only [dat0]
theorem after0_3 (c : Dev nD) (t : Fin cfg0.N) : (dat0 V c).after 3 t = k0_pay2 (acc0 V c t.val t.isLt) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), PhiA0_eq]
  iintro ⟨⟨HS0, Hr⟩, Hg⟩
  isplitl [HS0 Hr]
  · isplitl [HS0]
    · iexists _; iexact HS0
    iexact Hr
  iexact Hg

end

end Cert.Kernel.Hand

end
-- ==== Proof.Body0K.lean ====
import proofs.«113848_j55319178772943_2_alg».proof.Proof.Gen.Kernel.Launch
import proofs.«113848_j55319178772943_2_alg».proof.Proof.Gen.Kernel.Skeleton
import proofs.«113848_j55319178772943_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Body0

/-! # The fused body: the row minimum of the squared distances, and the running column minimum

The body reads its two input buffers whole and writes the row-minimum output whole. The second
grid coordinate `a = (i 1).val` (`a < 16`) decides three conditionals: at `a = 0` the scratch
buffer is initialised with the column minimum of this tile; at `a ≠ 0` it is replaced by the
pointwise minimum of itself and the column minimum of this tile; at `a = 15` the scratch buffer
is copied to the second output. -/

/-- The first conditional's condition, as a function of the second grid coordinate. -/
abbrev cond1 (a : Fin 16) : Prop :=
  Scalar.cmpi .ne (Scalar.extui (Scalar.cmpi .eq (BitVec.ofNat 32 a.val) 0#32)) 0#32 = 1#1
/-- The second conditional's condition. -/
abbrev cond2 (a : Fin 16) : Prop :=
  Scalar.cmpi .ne (Scalar.extui (Scalar.cmpi .ne (BitVec.ofNat 32 a.val) 0#32)) 0#32 = 1#1
/-- The third conditional's condition. -/
abbrev cond3 (a : Fin 16) : Prop :=
  Scalar.cmpi .ne (Scalar.extui (Scalar.cmpi .eq (BitVec.ofNat 32 a.val) 15#32)) 0#32 = 1#1

/-- The first holds exactly at coordinate 0, -/
theorem cond1_iff : ∀ a : Fin 16, cond1 a ↔ a.val = 0 := by decide +kernel
/-- the second exactly off coordinate 0, -/
theorem cond2_iff : ∀ a : Fin 16, cond2 a ↔ a.val ≠ 0 := by decide +kernel
/-- the third exactly at coordinate 15. -/
theorem cond3_iff : ∀ a : Fin 16, cond3 a ↔ a.val = 15 := by decide +kernel

/-! ## Whole-buffer accesses at zero offsets -/

theorem hz_S4x128 : (![0, 0] : Fin S4x128.rank → Nat) = fun _ => 0 := funext fun a => by fin_cases a <;> rfl
theorem hz_S4x4096 : (![0, 0] : Fin S4x4096.rank → Nat) = fun _ => 0 := funext fun a => by fin_cases a <;> rfl
theorem hz_S1x4x4096 : (![0, 0, 0] : Fin S1x4x4096.rank → Nat) = fun _ => 0 := funext fun a => by fin_cases a <;> rfl
theorem hz_S4x128x3 : (![0, 0, 0] : Fin S4x128x3.rank → Nat) = fun _ => 0 := funext fun a => by fin_cases a <;> rfl
theorem hz_S4x4096x3 : (![0, 0, 0] : Fin S4x4096x3.rank → Nat) = fun _ => 0 := funext fun a => by fin_cases a <;> rfl

/-- A load through the whole-shape rectangle at zero offsets reads what the view reads. -/
theorem readAt_unit_zero {sg : RefSig} {κ : Kind} {sp : Space} {S : Shape} {e : EltTy} (v : View sg κ sp S e)
    (f : v.ty.Contents (Elt F)) {off : Fin S.rank → Nat} (hz : off = fun _ => 0)
    (inb : ∀ a, off a + S.size a ≤ S.size a) :
    v.readAt (Elt F) (Rect.unit off S.size inb).toLoadRect f = v.read (Elt F) f :=
  (View.readAt_eq_ld v f _).trans (View.ld_unit_zero hz inb _)

/-- One store through it, over any contents, reads back as its payload. -/
theorem read_writes_unit_zero {sg : RefSig} {κ : Kind} {sp : Space} {S : Shape} {e : EltTy} (v : View sg κ sp S e)
    (f : v.ty.Contents (Elt F)) {off : Fin S.rank → Nat} (hz : off = fun _ => 0)
    (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

end Body0

open Body0

set_option maxHeartbeats 1000000 in
/-- At the first inner point: the scratch buffer, whatever it held, is left at the column minimum
    of this tile; the second output is untouched. -/
theorem sound_kernel0_first (c : Dev nD) (E : Set ℕ) (i : grid0.Coords) (hi : (i 1).val = 0)
    (arg2 : Memref sig .tc .vmem S4x128x3 .f32) (harg2 : arg2.IsWhole)
    (arg3 : Memref sig .tc .vmem S4x4096x3 .f32) (harg3 : arg3.IsWhole)
    (arg4 : Memref sig .tc .vmem S4x128 .f32) (harg4 : arg4.IsWhole)
    (arg5 : Memref sig .tc .vmem S1x4x4096 .f32) (harg5 : arg5.IsWhole)
    (arg6 : Memref sig .tc .vmem S4x4096 .f32) (harg6 : arg6.IsWhole)
    (x0 : Vec F S4x128x3 .f32) (x1 : Vec F S4x4096x3 .f32) (d5 : Vec F S1x4x4096 .f32) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare d5
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (k0_pay4 x0 x1)
            ∗ owns (c : Thread nD τ) arg5 fullShare d5
            ∗ owns (c : Thread nD τ) arg6 fullShare (k0_pay6 x0 x1)) -∗ K ⟨⟩))
      ⊢ wp frame (wpE (defs₀ (F := F)) Variants.none c none) E
          (cc0__fused_chamfer_kernel i arg2 harg2 arg3 harg3 arg4 harg4 arg5 harg5 arg6 harg6) K := by
  have h1 : cond1 (i 1) := (cond1_iff (i 1)).2 hi
  have h2 : ¬ cond2 (i 1) := fun h => (cond2_iff (i 1)).1 h hi
  have h3 : ¬ (k0_cond3 i = 1#1) := fun h => absurd ((cond3_iff (i 1)).1 h) (by omega)
  simp only [cc0__fused_chamfer_kernel_eq_skeleton]; unfold cc0__fused_chamfer_kernel_skel
  unfold owns
  iintro ⟨⟨%f2, %hf2, H2⟩, ⟨%f3, %hf3, H3⟩, ⟨%d4, %f4, -, H4⟩, ⟨%f5, %hf5, H5⟩, ⟨%d6, %f6, -, H6⟩, Hk⟩
  subst hf2; subst hf3; subst hf5
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_unit_zero _ _ hz_S4x128, readAt_unit_zero _ _ hz_S4x128x3, readAt_unit_zero _ _ hz_S4x4096x3]
  isplitl [H5]
  · iexists f5; isplitr; · ipureintro; rfl
    iexact H5
  iexists _; isplitr
  swap; · iexact H6
  ipureintro
  rw [read_writes_unit_zero _ _ hz_S4x4096, readAt_unit_zero _ _ hz_S4x128x3, readAt_unit_zero _ _ hz_S4x4096x3]

set_option maxHeartbeats 1000000 in
/-- At an inner point that is neither the first nor the last: the scratch buffer at `s` is left at
    the pointwise minimum of `s` and the column minimum of this tile; the second output is untouched. -/
theorem sound_kernel0_mid (c : Dev nD) (E : Set ℕ) (i : grid0.Coords) (h0 : (i 1).val ≠ 0) (h15 : (i 1).val ≠ 15)
    (arg2 : Memref sig .tc .vmem S4x128x3 .f32) (harg2 : arg2.IsWhole)
    (arg3 : Memref sig .tc .vmem S4x4096x3 .f32) (harg3 : arg3.IsWhole)
    (arg4 : Memref sig .tc .vmem S4x128 .f32) (harg4 : arg4.IsWhole)
    (arg5 : Memref sig .tc .vmem S1x4x4096 .f32) (harg5 : arg5.IsWhole)
    (arg6 : Memref sig .tc .vmem S4x4096 .f32) (harg6 : arg6.IsWhole)
    (x0 : Vec F S4x128x3 .f32) (x1 : Vec F S4x4096x3 .f32) (s : Vec F S4x4096 .f32) (d5 : Vec F S1x4x4096 .f32) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare d5
        ∗ owns (c : Thread nD τ) arg6 fullShare s
        ∗ (iprop(owns (c : Thread nD τ) arg2 fullShare x0 ∗ owns (c : Thread nD τ) arg3 fullShare x1
            ∗ owns (c : Thread nD τ) arg4 fullShare (k0_pay4 x0 x1)
            ∗ owns (c : Thread nD τ) arg5 fullShare d5
            ∗ owns (c : Thread nD τ) arg6 fullShare (k0_pay1 (k0_pay5 x0 x1) s)) -∗ K ⟨⟩))
      ⊢ wp frame (wpE (defs₀ (F := F)) Variants.none c none) E
          (cc0__fused_chamfer_kernel i arg2 harg2 arg3 harg3 arg4 harg4 arg5 harg5 arg6 harg6) K := by
  have h1 : ¬ cond1 (i 1) := fun h => h0 ((cond1_iff (i 1)).1 h)
  have h2 : cond2 (i 1) := (cond2_iff (i 1)).2 h0
  have h3 : ¬ (k0_cond3 i = 1#1) := fun h => h15 ((cond3_iff (i 1)).1 h)
  simp only [cc0__fused_chamfer_kernel_eq_skeleton]; unfold cc0__fused_chamfer_kernel_skel
  unfold owns
  iintro ⟨⟨%f2, %hf2, H2⟩, ⟨%f3, %hf3, H3⟩, ⟨%d4, %f4, -, H4⟩, ⟨%f5, %hf5, H5⟩, ⟨%f6, %hf6, H6⟩, Hk⟩
  subst hf2; subst hf3; subst hf5; subst hf6
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_unit_zero _ _ hz_S4x128, readAt_unit_zero _ _ hz_S4x128x3, readAt_unit_zero _ _ hz_S4x4096x3]
  isplitl [H5]
  · iexists f5; isplitr; · ipureintro; rfl
    iexact H5
  iexists _; isplitr
  swap; · iexact H6
  ipureintro
  sl_unfold_run_names
  rw [read_writes_unit_zero _ _ hz_S4x4096, readAt_unit_zero _ _ hz_S4x128x3, readAt_unit_zero _ _ hz_S4x4096x3, readAt_unit_zero _ _ hz_S4x4096]

set_option maxHeartbeats 1000000 in
/-- At the last inner point: the scratch buffer at `s` is left at the pointwise minimum of `s` and
    the column minimum of this tile, and the second output, whatever it held, at that minimum. -/
theorem sound_kernel0_last (c : Dev nD) (E : Set ℕ) (i : grid0.Coords) (h15 : (i 1).val = 15)
    (arg2 : Memref sig .tc .vmem S4x128x3 .f32) (harg2 : arg2.IsWhole)
    (arg3 : Memref sig .tc .vmem S4x4096x3 .f32) (harg3 : arg3.IsWhole)
    (arg4 : Memref sig .tc .vmem S4x128 .f32) (harg4 : arg4.IsWhole)
    (arg5 : Memref sig .tc .vmem S1x4x4096 .f32) (harg5 : arg5.IsWhole)
    (arg6 : Memref sig .tc .vmem S4x4096 .f32) (harg6 : arg6.IsWhole)
    (x0 : Vec F S4x128x3 .f32) (x1 : Vec F S4x4096x3 .f32) (s : Vec F S4x4096 .f32) (K : PUnit → sProp 𝕄) :
    iprop(owns (c : Thread nD τ) arg2 fullShare x0 ∗ owns (c : Thread nD τ) arg3 fullShare x1
        ∗ (∃ d, owns (c : Thread nD τ) arg4 fullShare d)
        ∗ (∃ d, owns (c : Thread nD τ) arg5 fullShare d)
        ∗ owns (c : Thread nD τ) arg6 fullShare s
        ∗ (iprop(owns (c : Thread nD τ) arg2 fullShare x0 ∗ owns (c : Thread nD τ) arg3 fullShare x1
            ∗ owns (c : Thread nD τ) arg4 fullShare (k0_pay4 x0 x1)
            ∗ owns (c : Thread nD τ) arg5 fullShare (k0_pay2 (k0_pay1 (k0_pay5 x0 x1) s))
            ∗ owns (c : Thread nD τ) arg6 fullShare (k0_pay1 (k0_pay5 x0 x1) s)) -∗ K ⟨⟩))
      ⊢ wp frame (wpE (defs₀ (F := F)) Variants.none c none) E
          (cc0__fused_chamfer_kernel i arg2 harg2 arg3 harg3 arg4 harg4 arg5 harg5 arg6 harg6) K := by
  have h1 : ¬ cond1 (i 1) := fun h => absurd ((cond1_iff (i 1)).1 h) (by omega)
  have h2 : cond2 (i 1) := (cond2_iff (i 1)).2 (by omega)
  have h3 : k0_cond3 i = 1#1 := (cond3_iff (i 1)).2 h15
  simp only [cc0__fused_chamfer_kernel_eq_skeleton]; unfold cc0__fused_chamfer_kernel_skel
  unfold owns
  iintro ⟨⟨%f2, %hf2, H2⟩, ⟨%f3, %hf3, H3⟩, ⟨%d4, %f4, -, H4⟩, ⟨%d5, %f5, -, H5⟩, ⟨%f6, %hf6, H6⟩, Hk⟩
  subst hf2; subst hf3; subst hf6
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_unit_zero _ _ hz_S4x128, readAt_unit_zero _ _ hz_S4x128x3, readAt_unit_zero _ _ hz_S4x4096x3]
  isplitl [H5]
  · iexists _; isplitr
    swap; · iexact H5
    ipureintro
    sl_unfold_run_names
    rw [read_writes_unit_zero _ _ hz_S1x4x4096, View.readCov_unit_zero _ hz_S4x4096, readAt_unit_zero _ _ hz_S4x128x3, readAt_unit_zero _ _ hz_S4x4096x3, readAt_unit_zero _ _ hz_S4x4096]
  iexists _; isplitr
  swap; · iexact H6
  ipureintro
  sl_unfold_run_names
  rw [read_writes_unit_zero _ _ hz_S4x4096, readAt_unit_zero _ _ hz_S4x128x3, readAt_unit_zero _ _ hz_S4x4096x3, readAt_unit_zero _ _ hz_S4x4096]

end Cert.Kernel.Hand

end
-- ==== Proof.Reg0BodyK.lean ====
/-
  The first region's body obligation. At a grid point the body finds the tile of the first cloud and
  the whole second cloud in their staging buffers. It stores the row minimum into the row output's
  buffer; at the first tile of a half it starts the scratch at the tile's column minimum, at a later
  tile it replaces the scratch by its elementwise minimum with the tile's; at the last tile of a half it
  copies the scratch into the column output's buffer, which it leaves untouched at every other point.
-/
import proofs.«113848_j55319178772943_2_alg».proof.Proof.Gen.Kernel.Launch
import proofs.«113848_j55319178772943_2_alg».proof.Proof.Gen.Kernel.Skeleton
import proofs.«113848_j55319178772943_2_alg».proof.Proof.Gen.Kernel.Points
import proofs.«113848_j55319178772943_2_alg».proof.Proof.Reg0DataK
import proofs.«113848_j55319178772943_2_alg».proof.Proof.Body0K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The column output's window is idle at every point but the last tile of a half, -/
theorem idle0_3 : ∀ t : Fin cfg0.N, t.val % 16 ≠ 15 → cfg0.idle 3 (grid0.coords t) = true := by decide +kernel
/-- where it is live, -/
theorem live0_3 : ∀ t : Fin cfg0.N, t.val % 16 = 15 → cfg0.idle 3 (grid0.coords t) = false := by decide +kernel
/-- and it is not written back at the idle points. -/
theorem noflush0_3 (t : Fin cfg0.N) (h : t.val % 16 ≠ 15) : (cfg0.win 3).flush t = false := by
  cases hf : (cfg0.win 3).flush t with
  | false => rfl
  | true => exact absurd ((flush0_3 t).mp hf) h

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem lv0_0 (c : Dev nD) (t : Fin cfg0.N) :
    (dat0 V c).leavesExact 0 t = owns (c : Thread nD τ) (st0_0 t) fullShare (iblk0 V c 0 t) := by
  unfold Dat.leavesExact; rw [show cfg0.idle 0 (cfg0.grid.coords t) = false from rfl, after0_0]
theorem lv0_1 (c : Dev nD) (t : Fin cfg0.N) :
    (dat0 V c).leavesExact 1 t = owns (c : Thread nD τ) (st0_1 t) fullShare (iblk0 V c 1 t) := by
  unfold Dat.leavesExact; rw [show cfg0.idle 1 (cfg0.grid.coords t) = false from rfl, after0_1]
theorem lv0_2 (c : Dev nD) (t : Fin cfg0.N) :
    (dat0 V c).leavesExact 2 t = owns (c : Thread nD τ) (st0_2 t) fullShare (k0_pay4 (iblk0 V c 0 t) (iblk0 V c 1 t)) := by
  unfold Dat.leavesExact; rw [show cfg0.idle 2 (cfg0.grid.coords t) = false from rfl, after0_2]
theorem lv0_3 (c : Dev nD) (t : Fin cfg0.N) (h : t.val % 16 = 15) :
    (dat0 V c).leavesExact 3 t = owns (c : Thread nD τ) (st0_3 t) fullShare (k0_pay2 (acc0 V c t.val t.isLt)) := by
  unfold Dat.leavesExact; rw [live0_3 t h, after0_3]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [lv0_0, lv0_1, lv0_2]
  have hN : t.val < 32 := lt_of_lt_of_eq t.isLt (show cfg0.N = 32 from N_0)
  by_cases h0 : t.val % 16 = 0
  · have hi : ((grid0.coords t) 1).val = 0 := (inner0 t).trans h0
    have h15 : t.val % 16 ≠ 15 := by omega
    rw [Dat.leavesExact_idle (dat0 V c) 3 t (idle0_3 t h15) (noflush0_3 t h15), acc0_first V c t h0]
    by_cases hz : t.val = 0
    · rw [Phi0_castSucc V c t, Phi0_zero V c _ _ hz, PhiA0_eq]
      iintro ⟨⟨⟨⟨%ds, HS⟩, Hrest⟩, Hg⟩, Ho, ⟨%d0, H0⟩, ⟨%d1, H1⟩, ⟨%d2, H2⟩, ⟨%d3, H3⟩⟩
      iapply (sound_kernel0_first c Set.univ (grid0.coords t) hi _ _ _ _ _ _ _ _ _ _ (iblk0 V c 0 t) (iblk0 V c 1 t) ((dat0 V c).before 3 t d3) _)
      isplitl [H0]; · iexact H0
      isplitl [H1]; · iexact H1
      isplitl [H2]; · iexists _; iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨⟨HS, Hrest⟩, Hg⟩, Ho, ⟨%d0, H0⟩, ⟨%d1, H1⟩, ⟨%d2, H2⟩, ⟨%d3, H3⟩⟩
      iapply (sound_kernel0_first c Set.univ (grid0.coords t) hi _ _ _ _ _ _ _ _ _ _ (iblk0 V c 0 t) (iblk0 V c 1 t) ((dat0 V c).before 3 t d3) _)
      isplitl [H0]; · iexact H0
      isplitl [H1]; · iexact H1
      isplitl [H2]; · iexists _; iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hi0 : ((grid0.coords t) 1).val ≠ 0 := fun e => h0 ((inner0 t).symm.trans e)
    rw [acc0_next V c t h0, Phi0_castSucc V c t, Phi0_pos V c _ _ hz]
    by_cases h15 : t.val % 16 = 15
    · have hi15 : ((grid0.coords t) 1).val = 15 := (inner0 t).trans h15
      rw [lv0_3 V c t h15, acc0_next V c t h0]
      iintro ⟨⟨⟨HS, Hrest⟩, Hg⟩, Ho, ⟨%d0, H0⟩, ⟨%d1, H1⟩, ⟨%d2, H2⟩, ⟨%d3, H3⟩⟩
      iapply (sound_kernel0_last c Set.univ (grid0.coords t) hi15 _ _ _ _ _ _ _ _ _ _ (iblk0 V c 0 t) (iblk0 V c 1 t)
        (acc0 V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · have hi15 : ((grid0.coords t) 1).val ≠ 15 := fun e => h15 ((inner0 t).symm.trans e)
      rw [Dat.leavesExact_idle (dat0 V c) 3 t (idle0_3 t h15) (noflush0_3 t h15)]
      iintro ⟨⟨⟨HS, Hrest⟩, Hg⟩, Ho, ⟨%d0, H0⟩, ⟨%d1, H1⟩, ⟨%d2, H2⟩, ⟨%d3, H3⟩⟩
      iapply (sound_kernel0_mid c Set.univ (grid0.coords t) hi0 hi15 _ _ _ _ _ _ _ _ _ _ (iblk0 V c 0 t) (iblk0 V c 1 t)
        (acc0 V c (t.val - 1) (Nat.lt_of_le_of_lt (Nat.sub_le _ _) t.isLt)) ((dat0 V c).before 3 t d3) _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.Kernel.Hand

end
-- ==== Proof.Reg1DataK.lean ====
/-
  The second kernel region: the pairwise squared distances of a tile of 128 rows of the first point
  cloud against all 4096 points of the SAME cloud, the diagonal raised by a constant, reduced to the
  row minimum. Both input windows are cut from one array: the buffer behind it, whole at entry, is held
  by the two windows at the two halves of the full share, and put together again at exit.
-/
import proofs.«113848_j55319178772943_2_alg».proof.Proof.Gen.Kernel.Launch
import proofs.«113848_j55319178772943_2_alg».proof.Proof.Gen.Kernel.Skeleton
import proofs.«113848_j55319178772943_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second region on core `c`: the two windows of the shared array at the two halves
    of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (grid1.coords t) (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (grid1.coords t) (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- The region's arrays at contents `G`, window by window: the shared array at its two half shares, the
    output array at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg0) ↦{fullShare.left} G 0) ∗ (((c : Thread nD τ).loc main_arg0) ↦{fullShare.right} G 1)
          ∗ (((c : Thread nD τ).loc main_v6) ↦{fullShare} G 2)) := by
  unfold Dat.arrays; rw [bigSep_W1]
  rw [(arr_whole1 0).set_eq_univ]
  rw [(arr_whole1 2).set_eq_univ]
  rfl

/-- The distinct buffers behind the region's arrays. -/
theorem arrBufs1_eq (c : Dev nD) (W : (b : Ref sig .tc) → Buf (Elt F) ((c : Thread nD τ).loc b)) :
    (Pipeline.arrBufs spec1 c W : sProp 𝕄)
      = iprop((((c : Thread nD τ).loc main_arg0) ↦{fullShare} W main_arg0) ∗ (((c : Thread nD τ).loc main_v6) ↦{fullShare} W main_v6)) := by
  unfold Pipeline.arrBufs
  rw [show Finset.univ.image (Pipeline.arrRef spec1) = insert main_arg0 {main_v6} from by decide,
    bigSep_insert (by decide), bigSep_singleton]
  rfl

/-- ENTRY: the buffers behind the arrays, whole, are the windows' arrays at the same contents: the shared
    buffer's full share splits into its halves. -/
theorem split1 (c : Dev nD) (W : (b : Ref sig .tc) → Buf (Elt F) ((c : Thread nD τ).loc b))
    (G : (w : Fin cfg1.W) → Buf (Elt F) ((cfg1.win w).arr.view.loc (c : Thread nD τ)))
    (h0 : G 0 = W main_arg0) (h1 : G 1 = W main_arg0) (h2 : G 2 = W main_v6) :
    (Pipeline.arrBufs spec1 c W : sProp 𝕄) ⊢ (dat1 V c).arrays G := by
  rw [arrays1_eq, arrBufs1_eq, h0, h1, h2]
  iintro ⟨Ha, Hv⟩
  ihave H := (pointsTo_share (PosShare.mem_left_op_right fullShare)).1 $$ Ha
  icases H with ⟨Hl, Hr⟩
  isplitl [Hl]; · iexact Hl
  isplitl [Hr]; · iexact Hr
  iexact Hv

/-- EXIT: the windows' arrays, the two halves at one contents, are the buffers behind them, whole. -/
theorem join1 (c : Dev nD) (W : (b : Ref sig .tc) → Buf (Elt F) ((c : Thread nD τ).loc b))
    (G : (w : Fin cfg1.W) → Buf (Elt F) ((cfg1.win w).arr.view.loc (c : Thread nD τ)))
    (h0 : G 0 = W main_arg0) (h1 : G 1 = W main_arg0) (h2 : G 2 = W main_v6) :
    ((dat1 V c).arrays G : sProp 𝕄) ⊢ Pipeline.arrBufs spec1 c W := by
  rw [arrays1_eq, arrBufs1_eq, h0, h1, h2]
  iintro ⟨Hl, Hr, Hv⟩
  isplitl [Hl Hr]
  · iapply (pointsTo_share (PosShare.mem_left_op_right fullShare)).2
    isplitl [Hl]; · iexact Hl
    iexact Hr
  iexact Hv

end

end Cert.Kernel.Hand

end
-- ==== Proof.Body1K.lean ====
import proofs.«113848_j55319178772943_2_alg».proof.Proof.Gen.Kernel.Launch
import proofs.«113848_j55319178772943_2_alg».proof.Proof.Gen.Kernel.Skeleton
import proofs.«113848_j55319178772943_2_alg».proof.Proof.Gen.Kernel.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The self-distance body: the row minimum of the diagonal-shifted squared distances

The body reads its two input buffers whole, and writes the output buffer whole with the
payload `k1_pay1 i x0 x1`; nothing else is touched. -/

set_option maxHeartbeats 1000000 in
/-- On whole buffers, the inputs at `x0`, `x1` and the output at anything, the body runs to the
    continuation holding the inputs unchanged and the output at `k1_pay1 i x0 x1`. -/
theorem sound_kernel1 (c : Dev nD) (E : Set ℕ) (i : grid1.Coords)
    (arg1 : Memref sig .tc .vmem S4x128x3 .f32) (harg1 : arg1.IsWhole)
    (arg2 : Memref sig .tc .vmem S4x4096x3 .f32) (harg2 : arg2.IsWhole)
    (arg3 : Memref sig .tc .vmem S4x128 .f32) (harg3 : arg3.IsWhole)
    (x0 : Vec F S4x128x3 .f32) (x1 : Vec F S4x4096x3 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 i x0 x1)) -∗ K ⟨⟩))
      ⊢ wp frame (wpE (defs₀ (F := F)) Variants.none c none) E (cc1__self_min_kernel i arg1 harg1 arg2 harg2 arg3 harg3) K := by
  simp only [cc1__self_min_kernel_eq_skeleton]; unfold cc1__self_min_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz2 : (![0, 0] : Fin S4x128.rank → Nat) = fun _ => 0 := funext fun a => by fin_cases a <;> rfl
  have hz3 : (![0, 0, 0] : Fin S4x128x3.rank → Nat) = fun _ => 0 := funext fun a => by fin_cases a <;> rfl
  have hz3' : (![0, 0, 0] : Fin S4x4096x3.rank → Nat) = fun _ => 0 := funext fun a => by fin_cases a <;> rfl
  rw [View.read_writes_eq_canon _ _ _ (fun y => ⟨_, List.mem_singleton_self _, View.mem_set_unit_zero hz2 inb_S4x128_S4x128_0_0 y⟩)]
  rw [View.canon_unit_zero hz2]
  sl_unfold_run_names
  simp only [View.readAt_eq_ld, View.ld_unit_zero (S := S4x128x3) hz3, View.ld_unit_zero (S := S4x4096x3) hz3']

end Cert.Kernel.Hand

end
-- ==== Proof.Reg1BodyK.lean ====
/-
  The second region's body obligation: at every grid point the two input tiles are in their staging
  buffers, the body stores the row minimum of the raised distances into the output's buffer, and the
  class invariant passes through untouched.
-/
import proofs.«113848_j55319178772943_2_alg».proof.Proof.Gen.Kernel.Launch
import proofs.«113848_j55319178772943_2_alg».proof.Proof.Gen.Kernel.Skeleton
import proofs.«113848_j55319178772943_2_alg».proof.Proof.Gen.Kernel.Points
import proofs.«113848_j55319178772943_2_alg».proof.Proof.Reg1DataK
import proofs.«113848_j55319178772943_2_alg».proof.Proof.Body1K
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.Kernel.Hand

end
-- ==== Proof.RunK.lean ====
/-
  The run of the whole program at any float instance: the first region, the host lines that join its
  two column-minimum halves, the second region, and the host lines that take the means, the spread and
  the weighted total. The contents of every unscoped buffer are named at each boundary; the two regions
  are entered from them and left at them.
-/
import proofs.«113848_j55319178772943_2_alg».proof.Proof.Gen.Kernel.Launch
import proofs.«113848_j55319178772943_2_alg».proof.Proof.Gen.Kernel.Skeleton
import proofs.«113848_j55319178772943_2_alg».proof.Proof.Gen.Kernel.Points
import proofs.«113848_j55319178772943_2_alg».proof.Proof.Reg0BodyK
import proofs.«113848_j55319178772943_2_alg».proof.Proof.Reg1BodyK
import proofs.«113848_j55319178772943_2_alg».proof.Proof.Gen.Kernel.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section
variable (m : (ℓ : Loc nD τ sig) → Buf (Elt F) ℓ) (ρ : Dev nD → PrngReg)

/-! ## The buffers' contents at each boundary -/

/-- At launch. -/
abbrev W0 (c : Dev nD) : Valuation τ sig (Elt F) := fun b => m (c, b)
abbrev U0 : (c : Dev nD) → (b : Ref sig .tc) → Buf (Elt F) ((c : Thread nD τ).loc b) := fun c b => W0 m c b
/-- After the first region: its arrays at what its write-backs leave, every other buffer as entered. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)
/-- After the host lines joining the two halves of the column minimum. -/
abbrev W2 (c : Dev nD) : Valuation τ sig (Elt F) := StableHlo.after hostOps1 (W1 m c)
abbrev U2 : (c : Dev nD) → (b : Ref sig .tc) → Buf (Elt F) ((c : Thread nD τ).loc b) := fun c b => W2 m c b
/-- After the second region: its output array at what its write-backs leave. -/
def W3 (c : Dev nD) : Valuation τ sig (Elt F) :=
  Function.update (W2 m c) (Proc.devRef .tc main_v6) ((dat1 (U2 m) c).arrAt 2 cfg1.N)
abbrev U3 : (c : Dev nD) → (b : Ref sig .tc) → Buf (Elt F) ((c : Thread nD τ).loc b) := fun c b => W3 m c b
theorem U3_v6 (c : Dev nD) : U3 m c main_v6 = (dat1 (U2 m) c).arrAt 2 cfg1.N := by
  show W3 m c (Proc.devRef .tc main_v6) = _
  unfold W3; exact Function.update_self ..
theorem U3_of_ne (c : Dev nD) (b : Ref sig .tc) (hb : b ≠ main_v6) : U3 m c b = U2 m c b := by
  show W3 m c (Proc.devRef .tc b) = _
  unfold W3; exact Function.update_of_ne (StableHlo.devRef_ne_of_ne hb) ..
/-- After the remaining host lines. -/
abbrev W4 (c : Dev nD) : Valuation τ sig (Elt F) := StableHlo.after hostOps2 (W3 m c)
abbrev W5 (c : Dev nD) : Valuation τ sig (Elt F) := StableHlo.after hostOps2_1 (W4 m c)
abbrev W6 (c : Dev nD) : Valuation τ sig (Elt F) := StableHlo.after hostOps2_2 (W5 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (hout0 (U0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hs := Pipeline.unscopedBufs_split₀ (Ix := Unit) (Name := ℕ) (U := UR sig nD τ) (Lvl := ℕ) (Val := Elt F) (cfgs := cfgs) (p := (1 : Fin 2)) (by decide) c (U2 m c)
    rw [Pipeline.unscopedBufs_held] at hs
    iintro ⟨⟨Hub, Hp, HO⟩, -, -⟩
    ihave H := (Entails.of_eq hs) $$ Hub
    icases H with ⟨Ha, Hrest⟩
    ihave Ha' := (split1 (U2 m) c (U2 m c) ((pdats m 1 c).A) rfl rfl rfl) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hs := Pipeline.unscopedBufs_split₀ (Ix := Unit) (Name := ℕ) (U := UR sig nD τ) (Lvl := ℕ) (Val := Elt F) (cfgs := cfgs) (p := (1 : Fin 2)) (by decide) c (U3 m c)
    rw [Pipeline.unscopedBufs_held] at hs
    have hrest : (Pipeline.unscopedRest (Ix := Unit) (Name := ℕ) (U := UR sig nD τ) (Lvl := ℕ) spec1 c (U2 m c) : sProp 𝕄)
        = Pipeline.unscopedRest spec1 c (U3 m c) := by
      unfold Pipeline.unscopedRest
      exact bigSep_congr fun b hb => by
        rw [U3_of_ne m c b (fun e => (Finset.mem_sdiff.mp hb).2 (Finset.mem_image.mpr ⟨2, Finset.mem_univ _, e.symm⟩))]
    iintro ⟨Ha, HO, HY, Hrest⟩
    imodintro
    isplitl [Ha Hrest]
    · iapply (Entails.of_eq hs.symm)
      isplitl [Ha]
      · iapply (join1 (U2 m) c (U3 m c) ((pdats m 1 c).arrAt · cfg1.N)
          (((pdats m 1 c).arrAt_in 0 rfl _).trans (U3_of_ne m c main_arg0 (by decide)).symm)
          (((pdats m 1 c).arrAt_in 1 rfl _).trans (U3_of_ne m c main_arg0 (by decide)).symm)
          (U3_v6 m c).symm)
        iexact Ha
      iapply (show (Pipeline.unscopedRest (Ix := Unit) (Name := ℕ) (U := UR sig nD τ) (Lvl := ℕ) spec1 c (U2 m c) : sProp 𝕄) ⊢ Pipeline.unscopedRest (cfgs 1).spec c (U3 m c) from Entails.of_eq hrest)
      iexact Hrest
    isplitl [HY]; · iexact HY
    unfold Pipeline.Dat.owesAt Pipeline.owesWithin
    icases HO with ⟨%W, -, HO⟩; iexists W; iexact HO

/-! ## @main as segments, and the launch -/

/-- @main's six segments in order: a region per kernel call, a host segment per stretch of host lines. -/
abbrev segs (c : Dev nD) : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]

set_option backward.isDefEq.respectTransparency.types false in
/-- From any memory with zero counters every weakly fair execution of @main terminates, nothing faulting, and
    every final memory holds each unscoped buffer at the contents named for the last boundary. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) := by
  refine Pipeline.θ_run_regions_kit_dev (pcfgs (F := F)) adm (pdats m) () cellOf_inj emb₁ defs₀ 𝒱₀ L lv m ρ main
    (segs m)
    (fun c Q => by
      rewrite [main_chain c, Pipeline.Seg.run_eq_chain,
        show (segs m c).map Pipeline.Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := ?_)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)
  refine Pipeline.initEach L lv fun c => ?_
  rw [show unscopedBufs c (fun b => m ((c : Thread nD τ).loc b)) = StableHlo.held (c : Thread nD τ) (Pipeline.ucRefs τ sig) (W0 m c)
    from Pipeline.unscopedBufs_held c (W0 m c)]
  iintro ⟨⟨Hh, -, HO, -, Hp, -⟩, -⟩
  imodintro
  isplitl [Hh]; · iexact Hh
  isplitl [Hp]; · iexists _; iexact Hp
  iexists ∅; iexact HO

/-! ## The arguments end as launched -/

/-- A buffer none of the host lines after the second region writes holds at the end what that region left. -/
theorem W6_of (c : Dev nD) (r : Ref sig .tc) (h2 : r ∉ hostOps2_W) (h21 : r ∉ hostOps2_1_W) (h22 : r ∉ hostOps2_2_W) :
    W6 m c (Proc.devRef .tc r) = W3 m c (Proc.devRef .tc r) :=
  (StableHlo.after_of_writes_sub hostOps2_2 _ hostOps2_2_writes h22).trans <|
    (StableHlo.after_of_writes_sub hostOps2_1 _ hostOps2_1_writes h21).trans <|
      StableHlo.after_of_writes_sub hostOps2 _ hostOps2_writes h2

/-- An argument no region writes back and no host line writes ends as launched. -/
theorem W6_arg (c : Dev nD) (r : Ref sig .tc) (h2 : r ∉ hostOps2_W) (h21 : r ∉ hostOps2_1_W) (h22 : r ∉ hostOps2_2_W)
    (h6 : r ≠ main_v6) (h1 : r ∉ hostOps1_W) (h0 : W1 m c (Proc.devRef .tc r) = W0 m c (Proc.devRef .tc r)) :
    W6 m c (Proc.devRef .tc r) = m ((c : Thread nD τ).loc r) :=
  (W6_of m c r h2 h21 h22).trans <| (U3_of_ne m c r h6).trans <|
    (StableHlo.after_of_writes_sub hostOps1 _ hostOps1_writes h1).trans <| h0.trans rfl

theorem W1_in (c : Dev nD) (w : Fin cfg0.W) (hin : (cfg0.win w).isOut = false) :
    W1 m c (Proc.devRef .tc (Pipeline.arrRef spec0 w)) = W0 m c (Proc.devRef .tc (Pipeline.arrRef spec0 w)) :=
  (W1_arr m c w).trans (((dat0 (U0 m) c).arrAt_in w hin _).trans (A_eq0 (U0 m) c w))

theorem W6_main_arg0 (c : Dev nD) : W6 m c (Proc.devRef .tc main_arg0) = m ((c : Thread nD τ).loc main_arg0) :=
  W6_arg m c main_arg0 (by decide) (by decide) (by decide) (by decide) (by decide) (W1_in m c 0 rfl)
theorem W6_main_arg2 (c : Dev nD) : W6 m c (Proc.devRef .tc main_arg2) = m ((c : Thread nD τ).loc main_arg2) :=
  W6_arg m c main_arg2 (by decide) (by decide) (by decide) (by decide) (by decide) (W1_in m c 1 rfl)
theorem W6_main_arg1 (c : Dev nD) : W6 m c (Proc.devRef .tc main_arg1) = m ((c : Thread nD τ).loc main_arg1) :=
  W6_arg m c main_arg1 (by decide) (by decide) (by decide) (by decide) (by decide) (W1_of_ne m c main_arg1 (by decide))
theorem W6_main_arg3 (c : Dev nD) : W6 m c (Proc.devRef .tc main_arg3) = m ((c : Thread nD τ).loc main_arg3) :=
  W6_arg m c main_arg3 (by decide) (by decide) (by decide) (by decide) (by decide) (W1_of_ne m c main_arg3 (by decide))
theorem W6_main_arg4 (c : Dev nD) : W6 m c (Proc.devRef .tc main_arg4) = m ((c : Thread nD τ).loc main_arg4) :=
  W6_arg m c main_arg4 (by decide) (by decide) (by decide) (by decide) (by decide) (W1_of_ne m c main_arg4 (by decide))
theorem W6_main_arg5 (c : Dev nD) : W6 m c (Proc.devRef .tc main_arg5) = m ((c : Thread nD τ).loc main_arg5) :=
  W6_arg m c main_arg5 (by decide) (by decide) (by decide) (by decide) (by decide) (W1_of_ne m c main_arg5 (by decide))

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end

end Cert.Kernel.Hand

end
-- ==== Proof.Reg0Data.lean ====
/-
  The first kernel region: the pairwise squared distances of a tile of 128 rows of the first point
  cloud against all 4096 points of the second, reduced two ways. Its proof data: at a grid point
  (o, a), o < 2 the half and a < 16 the tile within the half, the row-minimum output holds the
  minimum over all columns of the tile's distances; the scratch holds the running column-minimum over
  the tiles 0..a of the half (started afresh at a = 0, the elementwise minimum with the previous
  contents afterwards); the column-minimum output is written from the scratch at a = 15 only and is
  left untouched elsewhere.
-/
import proofs.«113848_j55319178772943_2_alg».proof.Proof.Gen.KernelIdeal.Launch
import proofs.«113848_j55319178772943_2_alg».proof.Proof.Gen.KernelIdeal.Skeleton
import proofs.«113848_j55319178772943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The tile index within the half is the point's number modulo 16. -/
theorem inner0 : ∀ t : Fin cfg0.N, ((grid0.coords t) 1).val = t.val % 16 :=
  (by decide +kernel : ∀ t : Fin grid0.N, ((grid0.coords t) 1).val = t.val % 16)

/-- The scratch after point `n`: the column-minimum of the tile at the first tile of a half, else its
    elementwise minimum with what the point before left. -/
def acc0 (c : Dev nD) : (n : ℕ) → n < cfg0.N → Vec F S4x4096 .f32
  | 0, h => k0_pay6 (iblk0 V c 0 ⟨0, h⟩) (iblk0 V c 1 ⟨0, h⟩)
  | n + 1, h =>
    if (n + 1) % 16 = 0 then k0_pay6 (iblk0 V c 0 ⟨n + 1, h⟩) (iblk0 V c 1 ⟨n + 1, h⟩)
    else k0_pay1 (k0_pay5 (iblk0 V c 0 ⟨n + 1, h⟩) (iblk0 V c 1 ⟨n + 1, h⟩)) (acc0 c n (Nat.lt_of_succ_lt h))

theorem acc0_first (c : Dev nD) (t : Fin cfg0.N) (h : t.val % 16 = 0) :
    acc0 V c t.val t.isLt = k0_pay6 (iblk0 V c 0 t) (iblk0 V c 1 t) := by
  obtain ⟨n, hn⟩ := t
  cases n with
  | zero => rfl
  | succ n => exact if_pos h

theorem acc0_next (c : Dev nD) (t : Fin cfg0.N) (h : t.val % 16 ≠ 0) :
    acc0 V c t.val t.isLt = k0_pay1 (k0_pay5 (iblk0 V c 0 t) (iblk0 V c 1 t))
      (acc0 V c (t.val - 1) (Nat.lt_of_le_of_lt (Nat.sub_le _ _) t.isLt)) := by
  obtain ⟨n, hn⟩ := t
  cases n with
  | zero => exact absurd (Nat.zero_mod _) h
  | succ n => exact if_neg h

/-- The scratch operand as a memref. -/
abbrev scM0 : Memref sig .tc .vmem S4x4096 .f32 := Memref.whole cc0_scratch0

/-- The scoped buffers the region neither stages nor uses (the second region's staging buffers), each at
    some contents. -/
def rest0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f))

/-- The class invariant with the scratch named: the scratch at some contents, the other scoped buffers, the
    generator register. -/
theorem PhiA0_eq (c : Dev nD) :
    (Pipeline.ΦA spec0 c : sProp 𝕄)
      = iprop(((∃ d, owns (c : Thread nD τ) scM0 fullShare d) ∗ rest0 c) ∗ (∃ r, prngReg c r)) := by
  unfold Pipeline.ΦA rest0; rw [scopedRest0_eq]; simp only [scM0, owns_whole]; try rfl

/-- The region invariant before position `n`: before the first point the class's; afterwards the scratch at
    what the point before left. -/
def Phi0 (c : Dev nD) : (n : ℕ) → n ≤ cfg0.N → sProp 𝕄
  | 0, _ => Pipeline.ΦA spec0 c
  | n + 1, hn => iprop((owns (c : Thread nD τ) scM0 fullShare (acc0 V c n hn) ∗ rest0 c) ∗ (∃ r, prngReg c r))

theorem Phi0_zero (c : Dev nD) (n : ℕ) (h : n ≤ cfg0.N) (hz : n = 0) : Phi0 V c n h = Pipeline.ΦA spec0 c := by
  subst hz; rfl

theorem Phi0_succ (c : Dev nD) (n : ℕ) (hn : n < cfg0.N) :
    Phi0 V c (n + 1) hn = iprop((owns (c : Thread nD τ) scM0 fullShare (acc0 V c n hn) ∗ rest0 c) ∗ (∃ r, prngReg c r)) := rfl

theorem Phi0_pos (c : Dev nD) (n : ℕ) (h : n ≤ cfg0.N) (hz : n ≠ 0) :
    Phi0 V c n h = iprop((owns (c : Thread nD τ) scM0 fullShare (acc0 V c (n - 1) (by omega)) ∗ rest0 c) ∗ (∃ r, prngReg c r)) := by
  cases n with
  | zero => exact absurd rfl hz
  | succ n => rfl

/-- The proof data of the first region on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => k0_pay4 (iblk0 V c 0 t) (iblk0 V c 1 t)
    | ⟨3, _⟩ => k0_pay2 (acc0 V c t.val t.isLt)
  Φ t := Phi0 V c t.val (Nat.le_of_lt_succ t.isLt)
  q _ := fullShare
  owed _ := 0

theorem A_eq0 (c : Dev nD) (w : Fin cfg0.W) : (dat0 V c).A w = V c (Pipeline.arrRef spec0 w) := by
  dsimp only [dat0]

theorem Phi0_castSucc (c : Dev nD) (t : Fin cfg0.N) :
    (dat0 V c).Φ t.castSucc = Phi0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = k0_pay4 (iblk0 V c 0 t) (iblk0 V c 1 t) := by dsimp only [dat0]
theorem after0_3 (c : Dev nD) (t : Fin cfg0.N) : (dat0 V c).after 3 t = k0_pay2 (acc0 V c t.val t.isLt) := by dsimp only [dat0]

/-- Each input's current staging buffer holds its block at every point, fetched there or not. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

/-- What the launch hands the region is the invariant before the first point. -/
theorem hin0 (c : Dev nD) : Pipeline.ΦA spec0 c ⊢ (dat0 V c).Φ 0 := by
  rw [show (dat0 V c).Φ 0 = Phi0 V c 0 (Nat.zero_le _) from rfl, Phi0_zero V c 0 _ rfl]
  try exact Idealize.SL.BI.Entails.refl _

/-- After the last point the invariant gives the class's back: the scratch's contents are forgotten. -/
theorem hout0 (c : Dev nD) : (dat0 V c).Φ (Fin.last cfg0.N) ⊢ Pipeline.ΦA spec0 c := by
  rw [show (dat0 V c).Φ (Fin.last cfg0.N) = Phi0 V c (Fin.last cfg0.N).val (Nat.le_of_lt_succ (Fin.last cfg0.N).isLt) from rfl,
    Phi0_pos V c _ _ (by rw [Fin.val_last]; have : cfg0.N = 32 := N_0; omega), PhiA0_eq]
  iintro ⟨⟨HS0, Hr⟩, Hg⟩
  isplitl [HS0 Hr]
  · isplitl [HS0]
    · iexists _; iexact HS0
    iexact Hr
  iexact Hg

end

end Cert.KernelIdeal.Hand

end
-- ==== Proof.Body0.lean ====
import proofs.«113848_j55319178772943_2_alg».proof.Proof.Gen.KernelIdeal.Launch
import proofs.«113848_j55319178772943_2_alg».proof.Proof.Gen.KernelIdeal.Skeleton
import proofs.«113848_j55319178772943_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

namespace Body0

/-! # The fused body: the row minimum of the squared distances, and the running column minimum

The body reads its two input buffers whole and writes the row-minimum output whole. The second
grid coordinate `a = (i 1).val` (`a < 16`) decides three conditionals: at `a = 0` the scratch
buffer is initialised with the column minimum of this tile; at `a ≠ 0` it is replaced by the
pointwise minimum of itself and the column minimum of this tile; at `a = 15` the scratch buffer
is copied to the second output. -/

/-- The first conditional's condition, as a function of the second grid coordinate. -/
abbrev cond1 (a : Fin 16) : Prop :=
  Scalar.cmpi .ne (Scalar.extui (Scalar.cmpi .eq (BitVec.ofNat 32 a.val) 0#32)) 0#32 = 1#1
/-- The second conditional's condition. -/
abbrev cond2 (a : Fin 16) : Prop :=
  Scalar.cmpi .ne (Scalar.extui (Scalar.cmpi .ne (BitVec.ofNat 32 a.val) 0#32)) 0#32 = 1#1
/-- The third conditional's condition. -/
abbrev cond3 (a : Fin 16) : Prop :=
  Scalar.cmpi .ne (Scalar.extui (Scalar.cmpi .eq (BitVec.ofNat 32 a.val) 15#32)) 0#32 = 1#1

/-- The first holds exactly at coordinate 0, -/
theorem cond1_iff : ∀ a : Fin 16, cond1 a ↔ a.val = 0 := by decide +kernel
/-- the second exactly off coordinate 0, -/
theorem cond2_iff : ∀ a : Fin 16, cond2 a ↔ a.val ≠ 0 := by decide +kernel
/-- the third exactly at coordinate 15. -/
theorem cond3_iff : ∀ a : Fin 16, cond3 a ↔ a.val = 15 := by decide +kernel

/-! ## Whole-buffer accesses at zero offsets -/

theorem hz_S4x128 : (![0, 0] : Fin S4x128.rank → Nat) = fun _ => 0 := funext fun a => by fin_cases a <;> rfl
theorem hz_S4x4096 : (![0, 0] : Fin S4x4096.rank → Nat) = fun _ => 0 := funext fun a => by fin_cases a <;> rfl
theorem hz_S1x4x4096 : (![0, 0, 0] : Fin S1x4x4096.rank → Nat) = fun _ => 0 := funext fun a => by fin_cases a <;> rfl
theorem hz_S4x128x3 : (![0, 0, 0] : Fin S4x128x3.rank → Nat) = fun _ => 0 := funext fun a => by fin_cases a <;> rfl
theorem hz_S4x4096x3 : (![0, 0, 0] : Fin S4x4096x3.rank → Nat) = fun _ => 0 := funext fun a => by fin_cases a <;> rfl

/-- A load through the whole-shape rectangle at zero offsets reads what the view reads. -/
theorem readAt_unit_zero {sg : RefSig} {κ : Kind} {sp : Space} {S : Shape} {e : EltTy} (v : View sg κ sp S e)
    (f : v.ty.Contents (Elt F)) {off : Fin S.rank → Nat} (hz : off = fun _ => 0)
    (inb : ∀ a, off a + S.size a ≤ S.size a) :
    v.readAt (Elt F) (Rect.unit off S.size inb).toLoadRect f = v.read (Elt F) f :=
  (View.readAt_eq_ld v f _).trans (View.ld_unit_zero hz inb _)

/-- One store through it, over any contents, reads back as its payload. -/
theorem read_writes_unit_zero {sg : RefSig} {κ : Kind} {sp : Space} {S : Shape} {e : EltTy} (v : View sg κ sp S e)
    (f : v.ty.Contents (Elt F)) {off : Fin S.rank → Nat} (hz : off = fun _ => 0)
    (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero hz inb y⟩),
    View.canon_unit_zero hz]

end Body0

open Body0

set_option maxHeartbeats 1000000 in
/-- At the first inner point: the scratch buffer, whatever it held, is left at the column minimum
    of this tile; the second output is untouched. -/
theorem sound_kernel0_first (c : Dev nD) (E : Set ℕ) (i : grid0.Coords) (hi : (i 1).val = 0)
    (arg2 : Memref sig .tc .vmem S4x128x3 .f32) (harg2 : arg2.IsWhole)
    (arg3 : Memref sig .tc .vmem S4x4096x3 .f32) (harg3 : arg3.IsWhole)
    (arg4 : Memref sig .tc .vmem S4x128 .f32) (harg4 : arg4.IsWhole)
    (arg5 : Memref sig .tc .vmem S1x4x4096 .f32) (harg5 : arg5.IsWhole)
    (arg6 : Memref sig .tc .vmem S4x4096 .f32) (harg6 : arg6.IsWhole)
    (x0 : Vec F S4x128x3 .f32) (x1 : Vec F S4x4096x3 .f32) (d5 : Vec F S1x4x4096 .f32) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare d5
        ∗ (∃ d, owns (c : Thread nD τ) arg6 fullShare d)
        ∗ (iprop(owns (c : Thread nD τ) arg2 fullShare x0 ∗ owns (c : Thread nD τ) arg3 fullShare x1
            ∗ owns (c : Thread nD τ) arg4 fullShare (k0_pay4 x0 x1)
            ∗ owns (c : Thread nD τ) arg5 fullShare d5
            ∗ owns (c : Thread nD τ) arg6 fullShare (k0_pay6 x0 x1)) -∗ K ⟨⟩))
      ⊢ wp frame (wpE (defs₀ (F := F)) Variants.none c none) E
          (cc0__fused_chamfer_kernel i arg2 harg2 arg3 harg3 arg4 harg4 arg5 harg5 arg6 harg6) K := by
  have h1 : cond1 (i 1) := (cond1_iff (i 1)).2 hi
  have h2 : ¬ cond2 (i 1) := fun h => (cond2_iff (i 1)).1 h hi
  have h3 : ¬ (k0_cond3 i = 1#1) := fun h => absurd ((cond3_iff (i 1)).1 h) (by omega)
  simp only [cc0__fused_chamfer_kernel_eq_skeleton]; unfold cc0__fused_chamfer_kernel_skel
  unfold owns
  iintro ⟨⟨%f2, %hf2, H2⟩, ⟨%f3, %hf3, H3⟩, ⟨%d4, %f4, -, H4⟩, ⟨%f5, %hf5, H5⟩, ⟨%d6, %f6, -, H6⟩, Hk⟩
  subst hf2; subst hf3; subst hf5
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_unit_zero _ _ hz_S4x128, readAt_unit_zero _ _ hz_S4x128x3, readAt_unit_zero _ _ hz_S4x4096x3]
  isplitl [H5]
  · iexists f5; isplitr; · ipureintro; rfl
    iexact H5
  iexists _; isplitr
  swap; · iexact H6
  ipureintro
  rw [read_writes_unit_zero _ _ hz_S4x4096, readAt_unit_zero _ _ hz_S4x128x3, readAt_unit_zero _ _ hz_S4x4096x3]

set_option maxHeartbeats 1000000 in
/-- At an inner point that is neither the first nor the last: the scratch buffer at `s` is left at
    the pointwise minimum of `s` and the column minimum of this tile; the second output is untouched. -/
theorem sound_kernel0_mid (c : Dev nD) (E : Set ℕ) (i : grid0.Coords) (h0 : (i 1).val ≠ 0) (h15 : (i 1).val ≠ 15)
    (arg2 : Memref sig .tc .vmem S4x128x3 .f32) (harg2 : arg2.IsWhole)
    (arg3 : Memref sig .tc .vmem S4x4096x3 .f32) (harg3 : arg3.IsWhole)
    (arg4 : Memref sig .tc .vmem S4x128 .f32) (harg4 : arg4.IsWhole)
    (arg5 : Memref sig .tc .vmem S1x4x4096 .f32) (harg5 : arg5.IsWhole)
    (arg6 : Memref sig .tc .vmem S4x4096 .f32) (harg6 : arg6.IsWhole)
    (x0 : Vec F S4x128x3 .f32) (x1 : Vec F S4x4096x3 .f32) (s : Vec F S4x4096 .f32) (d5 : Vec F S1x4x4096 .f32) (K : PUnit → sProp 𝕄) :
    iprop(owns (c : Thread nD τ) arg2 fullShare x0 ∗ owns (c : Thread nD τ) arg3 fullShare x1
        ∗ (∃ d, owns (c : Thread nD τ) arg4 fullShare d)
        ∗ owns (c : Thread nD τ) arg5 fullShare d5
        ∗ owns (c : Thread nD τ) arg6 fullShare s
        ∗ (iprop(owns (c : Thread nD τ) arg2 fullShare x0 ∗ owns (c : Thread nD τ) arg3 fullShare x1
            ∗ owns (c : Thread nD τ) arg4 fullShare (k0_pay4 x0 x1)
            ∗ owns (c : Thread nD τ) arg5 fullShare d5
            ∗ owns (c : Thread nD τ) arg6 fullShare (k0_pay1 (k0_pay5 x0 x1) s)) -∗ K ⟨⟩))
      ⊢ wp frame (wpE (defs₀ (F := F)) Variants.none c none) E
          (cc0__fused_chamfer_kernel i arg2 harg2 arg3 harg3 arg4 harg4 arg5 harg5 arg6 harg6) K := by
  have h1 : ¬ cond1 (i 1) := fun h => h0 ((cond1_iff (i 1)).1 h)
  have h2 : cond2 (i 1) := (cond2_iff (i 1)).2 h0
  have h3 : ¬ (k0_cond3 i = 1#1) := fun h => h15 ((cond3_iff (i 1)).1 h)
  simp only [cc0__fused_chamfer_kernel_eq_skeleton]; unfold cc0__fused_chamfer_kernel_skel
  unfold owns
  iintro ⟨⟨%f2, %hf2, H2⟩, ⟨%f3, %hf3, H3⟩, ⟨%d4, %f4, -, H4⟩, ⟨%f5, %hf5, H5⟩, ⟨%f6, %hf6, H6⟩, Hk⟩
  subst hf2; subst hf3; subst hf5; subst hf6
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_unit_zero _ _ hz_S4x128, readAt_unit_zero _ _ hz_S4x128x3, readAt_unit_zero _ _ hz_S4x4096x3]
  isplitl [H5]
  · iexists f5; isplitr; · ipureintro; rfl
    iexact H5
  iexists _; isplitr
  swap; · iexact H6
  ipureintro
  sl_unfold_run_names
  rw [read_writes_unit_zero _ _ hz_S4x4096, readAt_unit_zero _ _ hz_S4x128x3, readAt_unit_zero _ _ hz_S4x4096x3, readAt_unit_zero _ _ hz_S4x4096]

set_option maxHeartbeats 1000000 in
/-- At the last inner point: the scratch buffer at `s` is left at the pointwise minimum of `s` and
    the column minimum of this tile, and the second output, whatever it held, at that minimum. -/
theorem sound_kernel0_last (c : Dev nD) (E : Set ℕ) (i : grid0.Coords) (h15 : (i 1).val = 15)
    (arg2 : Memref sig .tc .vmem S4x128x3 .f32) (harg2 : arg2.IsWhole)
    (arg3 : Memref sig .tc .vmem S4x4096x3 .f32) (harg3 : arg3.IsWhole)
    (arg4 : Memref sig .tc .vmem S4x128 .f32) (harg4 : arg4.IsWhole)
    (arg5 : Memref sig .tc .vmem S1x4x4096 .f32) (harg5 : arg5.IsWhole)
    (arg6 : Memref sig .tc .vmem S4x4096 .f32) (harg6 : arg6.IsWhole)
    (x0 : Vec F S4x128x3 .f32) (x1 : Vec F S4x4096x3 .f32) (s : Vec F S4x4096 .f32) (K : PUnit → sProp 𝕄) :
    iprop(owns (c : Thread nD τ) arg2 fullShare x0 ∗ owns (c : Thread nD τ) arg3 fullShare x1
        ∗ (∃ d, owns (c : Thread nD τ) arg4 fullShare d)
        ∗ (∃ d, owns (c : Thread nD τ) arg5 fullShare d)
        ∗ owns (c : Thread nD τ) arg6 fullShare s
        ∗ (iprop(owns (c : Thread nD τ) arg2 fullShare x0 ∗ owns (c : Thread nD τ) arg3 fullShare x1
            ∗ owns (c : Thread nD τ) arg4 fullShare (k0_pay4 x0 x1)
            ∗ owns (c : Thread nD τ) arg5 fullShare (k0_pay2 (k0_pay1 (k0_pay5 x0 x1) s))
            ∗ owns (c : Thread nD τ) arg6 fullShare (k0_pay1 (k0_pay5 x0 x1) s)) -∗ K ⟨⟩))
      ⊢ wp frame (wpE (defs₀ (F := F)) Variants.none c none) E
          (cc0__fused_chamfer_kernel i arg2 harg2 arg3 harg3 arg4 harg4 arg5 harg5 arg6 harg6) K := by
  have h1 : ¬ cond1 (i 1) := fun h => absurd ((cond1_iff (i 1)).1 h) (by omega)
  have h2 : cond2 (i 1) := (cond2_iff (i 1)).2 (by omega)
  have h3 : k0_cond3 i = 1#1 := (cond3_iff (i 1)).2 h15
  simp only [cc0__fused_chamfer_kernel_eq_skeleton]; unfold cc0__fused_chamfer_kernel_skel
  unfold owns
  iintro ⟨⟨%f2, %hf2, H2⟩, ⟨%f3, %hf3, H3⟩, ⟨%d4, %f4, -, H4⟩, ⟨%d5, %f5, -, H5⟩, ⟨%f6, %hf6, H6⟩, Hk⟩
  subst hf2; subst hf3; subst hf6
  sl_exec (disch := first | exact h1 | exact h2 | exact h3)
  sl_step
  iapply Hk
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_writes_unit_zero _ _ hz_S4x128, readAt_unit_zero _ _ hz_S4x128x3, readAt_unit_zero _ _ hz_S4x4096x3]
  isplitl [H5]
  · iexists _; isplitr
    swap; · iexact H5
    ipureintro
    sl_unfold_run_names
    rw [read_writes_unit_zero _ _ hz_S1x4x4096, View.readCov_unit_zero _ hz_S4x4096, readAt_unit_zero _ _ hz_S4x128x3, readAt_unit_zero _ _ hz_S4x4096x3, readAt_unit_zero _ _ hz_S4x4096]
  iexists _; isplitr
  swap; · iexact H6
  ipureintro
  sl_unfold_run_names
  rw [read_writes_unit_zero _ _ hz_S4x4096, readAt_unit_zero _ _ hz_S4x128x3, readAt_unit_zero _ _ hz_S4x4096x3, readAt_unit_zero _ _ hz_S4x4096]

end Cert.KernelIdeal.Hand

end
-- ==== Proof.Reg0Body.lean ====
/-
  The first region's body obligation. At a grid point the body finds the tile of the first cloud and
  the whole second cloud in their staging buffers. It stores the row minimum into the row output's
  buffer; at the first tile of a half it starts the scratch at the tile's column minimum, at a later
  tile it replaces the scratch by its elementwise minimum with the tile's; at the last tile of a half it
  copies the scratch into the column output's buffer, which it leaves untouched at every other point.
-/
import proofs.«113848_j55319178772943_2_alg».proof.Proof.Gen.KernelIdeal.Launch
import proofs.«113848_j55319178772943_2_alg».proof.Proof.Gen.KernelIdeal.Skeleton
import proofs.«113848_j55319178772943_2_alg».proof.Proof.Gen.KernelIdeal.Points
import proofs.«113848_j55319178772943_2_alg».proof.Proof.Reg0Data
import proofs.«113848_j55319178772943_2_alg».proof.Proof.Body0
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- The column output's window is idle at every point but the last tile of a half, -/
theorem idle0_3 : ∀ t : Fin cfg0.N, t.val % 16 ≠ 15 → cfg0.idle 3 (grid0.coords t) = true := by decide +kernel
/-- where it is live, -/
theorem live0_3 : ∀ t : Fin cfg0.N, t.val % 16 = 15 → cfg0.idle 3 (grid0.coords t) = false := by decide +kernel
/-- and it is not written back at the idle points. -/
theorem noflush0_3 (t : Fin cfg0.N) (h : t.val % 16 ≠ 15) : (cfg0.win 3).flush t = false := by
  cases hf : (cfg0.win 3).flush t with
  | false => rfl
  | true => exact absurd ((flush0_3 t).mp hf) h

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t
    ∗ (dat0 V c).leavesExact 3 t)

theorem lv0_0 (c : Dev nD) (t : Fin cfg0.N) :
    (dat0 V c).leavesExact 0 t = owns (c : Thread nD τ) (st0_0 t) fullShare (iblk0 V c 0 t) := by
  unfold Dat.leavesExact; rw [show cfg0.idle 0 (cfg0.grid.coords t) = false from rfl, after0_0]
theorem lv0_1 (c : Dev nD) (t : Fin cfg0.N) :
    (dat0 V c).leavesExact 1 t = owns (c : Thread nD τ) (st0_1 t) fullShare (iblk0 V c 1 t) := by
  unfold Dat.leavesExact; rw [show cfg0.idle 1 (cfg0.grid.coords t) = false from rfl, after0_1]
theorem lv0_2 (c : Dev nD) (t : Fin cfg0.N) :
    (dat0 V c).leavesExact 2 t = owns (c : Thread nD τ) (st0_2 t) fullShare (k0_pay4 (iblk0 V c 0 t) (iblk0 V c 1 t)) := by
  unfold Dat.leavesExact; rw [show cfg0.idle 2 (cfg0.grid.coords t) = false from rfl, after0_2]
theorem lv0_3 (c : Dev nD) (t : Fin cfg0.N) (h : t.val % 16 = 15) :
    (dat0 V c).leavesExact 3 t = owns (c : Thread nD τ) (st0_3 t) fullShare (k0_pay2 (acc0 V c t.val t.isLt)) := by
  unfold Dat.leavesExact; rw [live0_3 t h, after0_3]

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = Phi0 V c (t.val + 1) t.isLt from rfl, Phi0_succ]
  rw [lv0_0, lv0_1, lv0_2]
  have hN : t.val < 32 := lt_of_lt_of_eq t.isLt (show cfg0.N = 32 from N_0)
  by_cases h0 : t.val % 16 = 0
  · have hi : ((grid0.coords t) 1).val = 0 := (inner0 t).trans h0
    have h15 : t.val % 16 ≠ 15 := by omega
    rw [Dat.leavesExact_idle (dat0 V c) 3 t (idle0_3 t h15) (noflush0_3 t h15), acc0_first V c t h0]
    by_cases hz : t.val = 0
    · rw [Phi0_castSucc V c t, Phi0_zero V c _ _ hz, PhiA0_eq]
      iintro ⟨⟨⟨⟨%ds, HS⟩, Hrest⟩, Hg⟩, Ho, ⟨%d0, H0⟩, ⟨%d1, H1⟩, ⟨%d2, H2⟩, ⟨%d3, H3⟩⟩
      iapply (sound_kernel0_first c Set.univ (grid0.coords t) hi _ _ _ _ _ _ _ _ _ _ (iblk0 V c 0 t) (iblk0 V c 1 t) ((dat0 V c).before 3 t d3) _)
      isplitl [H0]; · iexact H0
      isplitl [H1]; · iexact H1
      isplitl [H2]; · iexists _; iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
    · rw [Phi0_castSucc V c t, Phi0_pos V c _ _ hz]
      iintro ⟨⟨⟨HS, Hrest⟩, Hg⟩, Ho, ⟨%d0, H0⟩, ⟨%d1, H1⟩, ⟨%d2, H2⟩, ⟨%d3, H3⟩⟩
      iapply (sound_kernel0_first c Set.univ (grid0.coords t) hi _ _ _ _ _ _ _ _ _ _ (iblk0 V c 0 t) (iblk0 V c 1 t) ((dat0 V c).before 3 t d3) _)
      isplitl [H0]; · iexact H0
      isplitl [H1]; · iexact H1
      isplitl [H2]; · iexists _; iexact H2
      isplitl [H3]; · iexact H3
      isplitl [HS]; · iexists _; iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3
  · have hz : t.val ≠ 0 := fun e => h0 (by rw [e])
    have hi0 : ((grid0.coords t) 1).val ≠ 0 := fun e => h0 ((inner0 t).symm.trans e)
    rw [acc0_next V c t h0, Phi0_castSucc V c t, Phi0_pos V c _ _ hz]
    by_cases h15 : t.val % 16 = 15
    · have hi15 : ((grid0.coords t) 1).val = 15 := (inner0 t).trans h15
      rw [lv0_3 V c t h15, acc0_next V c t h0]
      iintro ⟨⟨⟨HS, Hrest⟩, Hg⟩, Ho, ⟨%d0, H0⟩, ⟨%d1, H1⟩, ⟨%d2, H2⟩, ⟨%d3, H3⟩⟩
      iapply (sound_kernel0_last c Set.univ (grid0.coords t) hi15 _ _ _ _ _ _ _ _ _ _ (iblk0 V c 0 t) (iblk0 V c 1 t)
        (acc0 V c (t.val - 1) (Nat.lt_of_le_of_lt (Nat.sub_le _ _) t.isLt)) _)
      isplitl [H0]; · iexact H0
      isplitl [H1]; · iexact H1
      isplitl [H2]; · iexists _; iexact H2
      isplitl [H3]; · iexists _; iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexact H3
    · have hi15 : ((grid0.coords t) 1).val ≠ 15 := fun e => h15 ((inner0 t).symm.trans e)
      rw [Dat.leavesExact_idle (dat0 V c) 3 t (idle0_3 t h15) (noflush0_3 t h15)]
      iintro ⟨⟨⟨HS, Hrest⟩, Hg⟩, Ho, ⟨%d0, H0⟩, ⟨%d1, H1⟩, ⟨%d2, H2⟩, ⟨%d3, H3⟩⟩
      iapply (sound_kernel0_mid c Set.univ (grid0.coords t) hi0 hi15 _ _ _ _ _ _ _ _ _ _ (iblk0 V c 0 t) (iblk0 V c 1 t)
        (acc0 V c (t.val - 1) (Nat.lt_of_le_of_lt (Nat.sub_le _ _) t.isLt)) ((dat0 V c).before 3 t d3) _)
      isplitl [H0]; · iexact H0
      isplitl [H1]; · iexact H1
      isplitl [H2]; · iexists _; iexact H2
      isplitl [H3]; · iexact H3
      isplitl [HS]; · iexact HS
      iintro ⟨H0, H1, H2, H3, HS⟩
      isplitl [HS Hrest Hg]
      · isplitl [HS Hrest]
        · isplitl [HS]; · iexact HS
          iexact Hrest
        iexact Hg
      isplitl [Ho]; · iexact Ho
      isplitl [H0]; · iexact H0
      isplitl [H1]; · iexact H1
      isplitl [H2]; · iexact H2
      iexists _; iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end

end Cert.KernelIdeal.Hand

end
-- ==== Proof.Reg1Data.lean ====
/-
  The second kernel region: the pairwise squared distances of a tile of 128 rows of the first point
  cloud against all 4096 points of the SAME cloud, the diagonal raised by a constant, reduced to the
  row minimum. Both input windows are cut from one array: the buffer behind it, whole at entry, is held
  by the two windows at the two halves of the full share, and put together again at exit.
-/
import proofs.«113848_j55319178772943_2_alg».proof.Proof.Gen.KernelIdeal.Launch
import proofs.«113848_j55319178772943_2_alg».proof.Proof.Gen.KernelIdeal.Skeleton
import proofs.«113848_j55319178772943_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The proof data of the second region on core `c`: the two windows of the shared array at the two halves
    of the full share. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => k1_pay1 (grid1.coords t) (iblk1 V c 0 t) (iblk1 V c 1 t)
  Φ _ := Pipeline.ΦA spec1 c
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = k1_pay1 (grid1.coords t) (iblk1 V c 0 t) (iblk1 V c 1 t) := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

/-- The region's arrays at contents `G`, window by window: the shared array at its two half shares, the
    output array at the full share. -/
theorem arrays1_eq (c : Dev nD) (G : (w : Fin cfg1.W) → Buf (Elt F) ((cfg1.win w).arr.view.loc (c : Thread nD τ))) :
    ((dat1 V c).arrays G : sProp 𝕄)
      = iprop((((c : Thread nD τ).loc main_arg0) ↦{fullShare.left} G 0) ∗ (((c : Thread nD τ).loc main_arg0) ↦{fullShare.right} G 1)
          ∗ (((c : Thread nD τ).loc main_v6) ↦{fullShare} G 2)) := by
  unfold Dat.arrays; rw [bigSep_W1]
  rw [(arr_whole1 0).set_eq_univ]
  rw [(arr_whole1 2).set_eq_univ]
  rfl

/-- The distinct buffers behind the region's arrays. -/
theorem arrBufs1_eq (c : Dev nD) (W : (b : Ref sig .tc) → Buf (Elt F) ((c : Thread nD τ).loc b)) :
    (Pipeline.arrBufs spec1 c W : sProp 𝕄)
      = iprop((((c : Thread nD τ).loc main_arg0) ↦{fullShare} W main_arg0) ∗ (((c : Thread nD τ).loc main_v6) ↦{fullShare} W main_v6)) := by
  unfold Pipeline.arrBufs
  rw [show Finset.univ.image (Pipeline.arrRef spec1) = insert main_arg0 {main_v6} from by decide,
    bigSep_insert (by decide), bigSep_singleton]
  rfl

/-- ENTRY: the buffers behind the arrays, whole, are the windows' arrays at the same contents: the shared
    buffer's full share splits into its halves. -/
theorem split1 (c : Dev nD) (W : (b : Ref sig .tc) → Buf (Elt F) ((c : Thread nD τ).loc b))
    (G : (w : Fin cfg1.W) → Buf (Elt F) ((cfg1.win w).arr.view.loc (c : Thread nD τ)))
    (h0 : G 0 = W main_arg0) (h1 : G 1 = W main_arg0) (h2 : G 2 = W main_v6) :
    (Pipeline.arrBufs spec1 c W : sProp 𝕄) ⊢ (dat1 V c).arrays G := by
  rw [arrays1_eq, arrBufs1_eq, h0, h1, h2]
  iintro ⟨Ha, Hv⟩
  ihave H := (pointsTo_share (PosShare.mem_left_op_right fullShare)).1 $$ Ha
  icases H with ⟨Hl, Hr⟩
  isplitl [Hl]; · iexact Hl
  isplitl [Hr]; · iexact Hr
  iexact Hv

/-- EXIT: the windows' arrays, the two halves at one contents, are the buffers behind them, whole. -/
theorem join1 (c : Dev nD) (W : (b : Ref sig .tc) → Buf (Elt F) ((c : Thread nD τ).loc b))
    (G : (w : Fin cfg1.W) → Buf (Elt F) ((cfg1.win w).arr.view.loc (c : Thread nD τ)))
    (h0 : G 0 = W main_arg0) (h1 : G 1 = W main_arg0) (h2 : G 2 = W main_v6) :
    ((dat1 V c).arrays G : sProp 𝕄) ⊢ Pipeline.arrBufs spec1 c W := by
  rw [arrays1_eq, arrBufs1_eq, h0, h1, h2]
  iintro ⟨Hl, Hr, Hv⟩
  isplitl [Hl Hr]
  · iapply (pointsTo_share (PosShare.mem_left_op_right fullShare)).2
    isplitl [Hl]; · iexact Hl
    iexact Hr
  iexact Hv

end

end Cert.KernelIdeal.Hand

end
-- ==== Proof.Body1.lean ====
import proofs.«113848_j55319178772943_2_alg».proof.Proof.Gen.KernelIdeal.Launch
import proofs.«113848_j55319178772943_2_alg».proof.Proof.Gen.KernelIdeal.Skeleton
import proofs.«113848_j55319178772943_2_alg».proof.Proof.Gen.KernelIdeal.Points
import Idealize.ShloMosaic.Lib.Pipeline.FrameBody
import Idealize.ShloMosaic.Lib.Ring
import Idealize.ShloMosaic.Lib.Tactic
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The self-distance body: the row minimum of the diagonal-shifted squared distances

The body reads its two input buffers whole, and writes the output buffer whole with the
payload `k1_pay1 i x0 x1`; nothing else is touched. -/

set_option maxHeartbeats 1000000 in
/-- On whole buffers, the inputs at `x0`, `x1` and the output at anything, the body runs to the
    continuation holding the inputs unchanged and the output at `k1_pay1 i x0 x1`. -/
theorem sound_kernel1 (c : Dev nD) (E : Set ℕ) (i : grid1.Coords)
    (arg1 : Memref sig .tc .vmem S4x128x3 .f32) (harg1 : arg1.IsWhole)
    (arg2 : Memref sig .tc .vmem S4x4096x3 .f32) (harg2 : arg2.IsWhole)
    (arg3 : Memref sig .tc .vmem S4x128 .f32) (harg3 : arg3.IsWhole)
    (x0 : Vec F S4x128x3 .f32) (x1 : Vec F S4x4096x3 .f32) (K : PUnit → sProp 𝕄) :
    iprop(owns (c : Thread nD τ) arg1 fullShare x0 ∗ owns (c : Thread nD τ) arg2 fullShare x1
        ∗ (∃ d, owns (c : Thread nD τ) arg3 fullShare d)
        ∗ (iprop(owns (c : Thread nD τ) arg1 fullShare x0 ∗ owns (c : Thread nD τ) arg2 fullShare x1
            ∗ owns (c : Thread nD τ) arg3 fullShare (k1_pay1 i x0 x1)) -∗ K ⟨⟩))
      ⊢ wp frame (wpE (defs₀ (F := F)) Variants.none c none) E (cc1__self_min_kernel i arg1 harg1 arg2 harg2 arg3 harg3) K := by
  simp only [cc1__self_min_kernel_eq_skeleton]; unfold cc1__self_min_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  have hz2 : (![0, 0] : Fin S4x128.rank → Nat) = fun _ => 0 := funext fun a => by fin_cases a <;> rfl
  have hz3 : (![0, 0, 0] : Fin S4x128x3.rank → Nat) = fun _ => 0 := funext fun a => by fin_cases a <;> rfl
  have hz3' : (![0, 0, 0] : Fin S4x4096x3.rank → Nat) = fun _ => 0 := funext fun a => by fin_cases a <;> rfl
  rw [View.read_writes_eq_canon _ _ _ (fun y => ⟨_, List.mem_singleton_self _, View.mem_set_unit_zero hz2 inb_S4x128_S4x128_0_0 y⟩)]
  rw [View.canon_unit_zero hz2]
  sl_unfold_run_names
  simp only [View.readAt_eq_ld, View.ld_unit_zero (S := S4x128x3) hz3, View.ld_unit_zero (S := S4x4096x3) hz3']

end Cert.KernelIdeal.Hand

end
-- ==== Proof.Reg1Body.lean ====
/-
  The second region's body obligation: at every grid point the two input tiles are in their staging
  buffers, the body stores the row minimum of the raised distances into the output's buffer, and the
  class invariant passes through untouched.
-/
import proofs.«113848_j55319178772943_2_alg».proof.Proof.Gen.KernelIdeal.Launch
import proofs.«113848_j55319178772943_2_alg».proof.Proof.Gen.KernelIdeal.Skeleton
import proofs.«113848_j55319178772943_2_alg».proof.Proof.Gen.KernelIdeal.Points
import proofs.«113848_j55319178772943_2_alg».proof.Proof.Reg1Data
import proofs.«113848_j55319178772943_2_alg».proof.Proof.Body1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).Φ t.succ = (dat1 V c).Φ t.castSucc from rfl,
    show (dat1 V c).owesAt () t.succ = (dat1 V c).owesAt () t.castSucc from rfl,
    after1_0, after1_1, after1_2]
  iintro ⟨HΦ, Ho, ⟨%d0, H0⟩, ⟨%d1, H1⟩, ⟨%d2, H2⟩⟩
  iapply (sound_kernel1 c Set.univ (grid1.coords t) _ _ _ _ _ _ (iblk1 V c 0 t) (iblk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

end

end Cert.KernelIdeal.Hand

end
-- ==== Proof.Run.lean ====
/-
  The run of the whole program at any float instance: the first region, the host lines that join its
  two column-minimum halves, the second region, and the host lines that take the means, the spread and
  the weighted total. The contents of every unscoped buffer are named at each boundary; the two regions
  are entered from them and left at them.
-/
import proofs.«113848_j55319178772943_2_alg».proof.Proof.Gen.KernelIdeal.Launch
import proofs.«113848_j55319178772943_2_alg».proof.Proof.Gen.KernelIdeal.Skeleton
import proofs.«113848_j55319178772943_2_alg».proof.Proof.Gen.KernelIdeal.Points
import proofs.«113848_j55319178772943_2_alg».proof.Proof.Reg0Body
import proofs.«113848_j55319178772943_2_alg».proof.Proof.Reg1Body
import proofs.«113848_j55319178772943_2_alg».proof.Proof.Gen.KernelIdeal.Regions
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section
variable (m : (ℓ : Loc nD τ sig) → Buf (Elt F) ℓ) (ρ : Dev nD → PrngReg)

/-! ## The buffers' contents at each boundary -/

/-- At launch. -/
abbrev W0 (c : Dev nD) : Valuation τ sig (Elt F) := fun b => m (c, b)
abbrev U0 : (c : Dev nD) → (b : Ref sig .tc) → Buf (Elt F) ((c : Thread nD τ).loc b) := fun c b => W0 m c b
/-- After the first region: its arrays at what its write-backs leave, every other buffer as entered. -/
def W1 (c : Dev nD) : Valuation τ sig (Elt F) :=
  Pipeline.withArrays spec0 c (W0 m c) fun w => (dat0 (U0 m) c).arrAt w cfg0.N
theorem W1_arr (c : Dev nD) (w : Fin cfg0.W) :
    W1 m c (Proc.devRef .tc (Pipeline.arrRef spec0 w)) = (dat0 (U0 m) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m c (Proc.devRef .tc b) = W0 m c (Proc.devRef .tc b) := by
  unfold W1; exact Pipeline.withArrays_of_ne spec0 c _ _ b hb
abbrev U1 : (c : Dev nD) → (b : Ref sig .tc) → Buf (Elt F) ((c : Thread nD τ).loc b) := fun c b => W1 m c b
theorem hF0 (c : Dev nD) (w : Fin cfg0.W) : (dat0 (U0 m) c).arrAt w cfg0.N = U1 m c (Pipeline.arrRef spec0 w) :=
  (W1_arr m c w).symm
theorem hrest0 (c : Dev nD) : ∀ b, b ∉ Finset.univ.image (Pipeline.arrRef spec0) → U1 m c b = U0 m c b :=
  fun b hb => W1_of_ne m c b fun w e => hb (Finset.mem_image.mpr ⟨w, Finset.mem_univ _, e⟩)
/-- After the host lines joining the two halves of the column minimum. -/
abbrev W2 (c : Dev nD) : Valuation τ sig (Elt F) := StableHlo.after hostOps1 (W1 m c)
abbrev U2 : (c : Dev nD) → (b : Ref sig .tc) → Buf (Elt F) ((c : Thread nD τ).loc b) := fun c b => W2 m c b
/-- After the second region: its output array at what its write-backs leave. -/
def W3 (c : Dev nD) : Valuation τ sig (Elt F) :=
  Function.update (W2 m c) (Proc.devRef .tc main_v6) ((dat1 (U2 m) c).arrAt 2 cfg1.N)
abbrev U3 : (c : Dev nD) → (b : Ref sig .tc) → Buf (Elt F) ((c : Thread nD τ).loc b) := fun c b => W3 m c b
theorem U3_v6 (c : Dev nD) : U3 m c main_v6 = (dat1 (U2 m) c).arrAt 2 cfg1.N := by
  show W3 m c (Proc.devRef .tc main_v6) = _
  unfold W3; exact Function.update_self ..
theorem U3_of_ne (c : Dev nD) (b : Ref sig .tc) (hb : b ≠ main_v6) : U3 m c b = U2 m c b := by
  show W3 m c (Proc.devRef .tc b) = _
  unfold W3; exact Function.update_of_ne (StableHlo.devRef_ne_of_ne hb) ..
/-- After the remaining host lines. -/
abbrev W4 (c : Dev nD) : Valuation τ sig (Elt F) := StableHlo.after hostOps2 (W3 m c)
abbrev W5 (c : Dev nD) : Valuation τ sig (Elt F) := StableHlo.after hostOps2_1 (W4 m c)
abbrev W6 (c : Dev nD) : Valuation τ sig (Elt F) := StableHlo.after hostOps2_2 (W5 m c)

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (U0 m) c
  | ⟨1, _⟩ => fun c => dat1 (U2 m) c
abbrev 𝒱₀ : Variants := Variants.none
abbrev L : GSem nD τ sig → Finset Unit := fun _ => ∅
abbrev lv : GSem nD τ sig → Unit → ℕ := fun _ _ => 0
/-- What rides beside the buffers through every segment: the generator register at some state, nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W6 m c) ∗ ∃ r, prngReg c r)

/-! ## The regions as segments -/

set_option backward.isDefEq.respectTransparency.types false in
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (U0 m) c).loose
  hwaits := Pipeline.hwaits_of_owed_zero _ _ _ _ L lv 0 fun _ _ => rfl
  pre c := iprop(StableHlo.held (c : Thread nD τ) (Pipeline.ucRefs τ sig) (W0 m c) ∗ R c)
  post c := iprop(StableHlo.held (c : Thread nD τ) (Pipeline.ucRefs τ sig) (W1 m c) ∗ R c)
  X c := iprop(∃ r, prngReg c r)
  Y c := iprop(∃ r, prngReg c r)
  Z c := Pipeline.unscopedRest (Ix := Unit) (Name := ℕ) (U := UR sig nD τ) (Lvl := ℕ) spec0 c (U0 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (U0 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    refine (hout0 (U0 m) c).trans ?_
    rw [Pipeline.ownSems0_none]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (U0 m c) (U1 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (U2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(StableHlo.held (c : Thread nD τ) (Pipeline.ucRefs τ sig) (W3 m c) ∗ R c)
  X c := iprop(∃ r, prngReg c r)
  Y c := iprop(∃ r, prngReg c r)
  Z c := Pipeline.unscopedRest (Ix := Unit) (Name := ℕ) (U := UR sig nD τ) (Lvl := ℕ) spec1 c (U2 m c)
  hentry c := by
    rw [Pipeline.ownSems0_none]
    have hs := Pipeline.unscopedBufs_split₀ (Ix := Unit) (Name := ℕ) (U := UR sig nD τ) (Lvl := ℕ) (Val := Elt F) (cfgs := cfgs) (p := (1 : Fin 2)) (by decide) c (U2 m c)
    rw [Pipeline.unscopedBufs_held] at hs
    iintro ⟨⟨Hub, Hp, HO⟩, -, -⟩
    ihave H := (Entails.of_eq hs) $$ Hub
    icases H with ⟨Ha, Hrest⟩
    ihave Ha' := (split1 (U2 m) c (U2 m c) ((pdats m 1 c).A) rfl rfl rfl) $$ Ha
    imodintro
    isplitl [Ha']; · iexact Ha'
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hs := Pipeline.unscopedBufs_split₀ (Ix := Unit) (Name := ℕ) (U := UR sig nD τ) (Lvl := ℕ) (Val := Elt F) (cfgs := cfgs) (p := (1 : Fin 2)) (by decide) c (U3 m c)
    rw [Pipeline.unscopedBufs_held] at hs
    have hrest : (Pipeline.unscopedRest (Ix := Unit) (Name := ℕ) (U := UR sig nD τ) (Lvl := ℕ) spec1 c (U2 m c) : sProp 𝕄)
        = Pipeline.unscopedRest spec1 c (U3 m c) := by
      unfold Pipeline.unscopedRest
      exact bigSep_congr fun b hb => by
        rw [U3_of_ne m c b (fun e => (Finset.mem_sdiff.mp hb).2 (Finset.mem_image.mpr ⟨2, Finset.mem_univ _, e.symm⟩))]
    iintro ⟨Ha, HO, HY, Hrest⟩
    imodintro
    isplitl [Ha Hrest]
    · iapply (Entails.of_eq hs.symm)
      isplitl [Ha]
      · iapply (join1 (U2 m) c (U3 m c) ((pdats m 1 c).arrAt · cfg1.N)
          (((pdats m 1 c).arrAt_in 0 rfl _).trans (U3_of_ne m c main_arg0 (by decide)).symm)
          (((pdats m 1 c).arrAt_in 1 rfl _).trans (U3_of_ne m c main_arg0 (by decide)).symm)
          (U3_v6 m c).symm)
        iexact Ha
      iapply (show (Pipeline.unscopedRest (Ix := Unit) (Name := ℕ) (U := UR sig nD τ) (Lvl := ℕ) spec1 c (U2 m c) : sProp 𝕄) ⊢ Pipeline.unscopedRest (cfgs 1).spec c (U3 m c) from Entails.of_eq hrest)
      iexact Hrest
    isplitl [HY]; · iexact HY
    unfold Pipeline.Dat.owesAt Pipeline.owesWithin
    icases HO with ⟨%W, -, HO⟩; iexists W; iexact HO

/-! ## @main as segments, and the launch -/

/-- @main's six segments in order: a region per kernel call, a host segment per stretch of host lines. -/
abbrev segs (c : Dev nD) : List (Pipeline.Seg (pcfgs (F := F)) adm (pdats m) () defs₀ 𝒱₀ L lv) :=
  [ .region (reg0 m),
    .host (hseg hostOps1 hostOps1_sub hostOps1_fresh (W1 m)),
    .region (reg1 m),
    .host (hseg hostOps2 hostOps2_sub hostOps2_fresh (W3 m)),
    .host (hseg hostOps2_1 hostOps2_1_sub hostOps2_1_fresh (W4 m)),
    .host (hseg hostOps2_2 hostOps2_2_sub hostOps2_2_fresh (W5 m)) ]

set_option backward.isDefEq.respectTransparency.types false in
/-- From any memory with zero counters every weakly fair execution of @main terminates, nothing faulting, and
    every final memory holds each unscoped buffer at the contents named for the last boundary. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W6 m c b) := by
  refine Pipeline.θ_run_regions_kit_dev (pcfgs (F := F)) adm (pdats m) () cellOf_inj emb₁ defs₀ 𝒱₀ L lv m ρ main
    (segs m)
    (fun c Q => by
      rewrite [main_chain c, Pipeline.Seg.run_eq_chain,
        show (segs m c).map Pipeline.Seg.prog = [
          Prog.lift (.customCall (Pipeline.entry 0) ()),
          StableHlo.seq hostOps1,
          Prog.lift (.customCall (Pipeline.entry 1) ()),
          StableHlo.seq hostOps2,
          StableHlo.seq hostOps2_1,
          StableHlo.seq hostOps2_2 ] from rfl]
      exact .rfl)
    (fun c => by simp only [segs, Pipeline.Seg.pipes_host, Pipeline.Seg.pipes_region, Pipeline.Seg.pipes_nil]; decide)
    0 (fun _ _ => rfl) (fun _ => iprop(emp))
    (initOf (Pipeline.cells cfgs cellOf_inj) (Pipeline.launchToks cfgs cellOf_inj))
    (by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := fun c => ⟨.rfl, .rfl, .rfl, .rfl, .rfl, .rfl, by
      show iprop(StableHlo.held (c : Thread nD τ) (Pipeline.ucRefs τ sig) (W6 m c) ∗ R c)
        ⊢ iprop(Tₙ m c ∗ ∃ W, owes (c : Thread nD τ) (0 : CellTallies nD τ sig Unit) W)
      iintro ⟨Hh, Hp, HO⟩
      isplitl [Hh Hp]
      · isplitl [Hh] <;> iassumption
      iexact HO⟩)
    (hinit := ?_)
    (QY := fun c s => ∀ b ∈ Pipeline.ucRefs τ sig, s.mem (((c : Thread nD τ)).1, b) = W6 m c b)
    (hfin := fun c s' => by
      iintro ⟨⟨Hh, -⟩, HSI⟩
      unfold StableHlo.held
      imodintro
      iapply (pointsTo_read_all (Pipeline.ucRefs τ sig) (fun b => (((c : Thread nD τ)).1, b)) (W6 m c) s')
      isplitl [Hh] <;> iassumption)
    (hQ := fun s h => h)
  refine Pipeline.initEach L lv fun c => ?_
  rw [show unscopedBufs c (fun b => m ((c : Thread nD τ).loc b)) = StableHlo.held (c : Thread nD τ) (Pipeline.ucRefs τ sig) (W0 m c)
    from Pipeline.unscopedBufs_held c (W0 m c)]
  iintro ⟨⟨Hh, -, HO, -, Hp, -⟩, -⟩
  imodintro
  isplitl [Hh]; · iexact Hh
  isplitl [Hp]; · iexists _; iexact Hp
  iexists ∅; iexact HO

/-! ## The arguments end as launched -/

/-- A buffer none of the host lines after the second region writes holds at the end what that region left. -/
theorem W6_of (c : Dev nD) (r : Ref sig .tc) (h2 : r ∉ hostOps2_W) (h21 : r ∉ hostOps2_1_W) (h22 : r ∉ hostOps2_2_W) :
    W6 m c (Proc.devRef .tc r) = W3 m c (Proc.devRef .tc r) :=
  (StableHlo.after_of_writes_sub hostOps2_2 _ hostOps2_2_writes h22).trans <|
    (StableHlo.after_of_writes_sub hostOps2_1 _ hostOps2_1_writes h21).trans <|
      StableHlo.after_of_writes_sub hostOps2 _ hostOps2_writes h2

/-- An argument no region writes back and no host line writes ends as launched. -/
theorem W6_arg (c : Dev nD) (r : Ref sig .tc) (h2 : r ∉ hostOps2_W) (h21 : r ∉ hostOps2_1_W) (h22 : r ∉ hostOps2_2_W)
    (h6 : r ≠ main_v6) (h1 : r ∉ hostOps1_W) (h0 : W1 m c (Proc.devRef .tc r) = W0 m c (Proc.devRef .tc r)) :
    W6 m c (Proc.devRef .tc r) = m ((c : Thread nD τ).loc r) :=
  (W6_of m c r h2 h21 h22).trans <| (U3_of_ne m c r h6).trans <|
    (StableHlo.after_of_writes_sub hostOps1 _ hostOps1_writes h1).trans <| h0.trans rfl

theorem W1_in (c : Dev nD) (w : Fin cfg0.W) (hin : (cfg0.win w).isOut = false) :
    W1 m c (Proc.devRef .tc (Pipeline.arrRef spec0 w)) = W0 m c (Proc.devRef .tc (Pipeline.arrRef spec0 w)) :=
  (W1_arr m c w).trans (((dat0 (U0 m) c).arrAt_in w hin _).trans (A_eq0 (U0 m) c w))

theorem W6_main_arg0 (c : Dev nD) : W6 m c (Proc.devRef .tc main_arg0) = m ((c : Thread nD τ).loc main_arg0) :=
  W6_arg m c main_arg0 (by decide) (by decide) (by decide) (by decide) (by decide) (W1_in m c 0 rfl)
theorem W6_main_arg2 (c : Dev nD) : W6 m c (Proc.devRef .tc main_arg2) = m ((c : Thread nD τ).loc main_arg2) :=
  W6_arg m c main_arg2 (by decide) (by decide) (by decide) (by decide) (by decide) (W1_in m c 1 rfl)
theorem W6_main_arg1 (c : Dev nD) : W6 m c (Proc.devRef .tc main_arg1) = m ((c : Thread nD τ).loc main_arg1) :=
  W6_arg m c main_arg1 (by decide) (by decide) (by decide) (by decide) (by decide) (W1_of_ne m c main_arg1 (by decide))
theorem W6_main_arg3 (c : Dev nD) : W6 m c (Proc.devRef .tc main_arg3) = m ((c : Thread nD τ).loc main_arg3) :=
  W6_arg m c main_arg3 (by decide) (by decide) (by decide) (by decide) (by decide) (W1_of_ne m c main_arg3 (by decide))
theorem W6_main_arg4 (c : Dev nD) : W6 m c (Proc.devRef .tc main_arg4) = m ((c : Thread nD τ).loc main_arg4) :=
  W6_arg m c main_arg4 (by decide) (by decide) (by decide) (by decide) (by decide) (W1_of_ne m c main_arg4 (by decide))
theorem W6_main_arg5 (c : Dev nD) : W6 m c (Proc.devRef .tc main_arg5) = m ((c : Thread nD τ).loc main_arg5) :=
  W6_arg m c main_arg5 (by decide) (by decide) (by decide) (by decide) (by decide) (W1_of_ne m c main_arg5 (by decide))

/-- The frame: every argument array ends holding its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
    ⟨(h c _ (mem_uc main_arg0 (by decide))).trans (W6_main_arg0 m c),
     (h c _ (mem_uc main_arg1 (by decide))).trans (W6_main_arg1 m c),
     (h c _ (mem_uc main_arg2 (by decide))).trans (W6_main_arg2 m c),
     (h c _ (mem_uc main_arg3 (by decide))).trans (W6_main_arg3 m c),
     (h c _ (mem_uc main_arg4 (by decide))).trans (W6_main_arg4 m c),
     (h c _ (mem_uc main_arg5 (by decide))).trans (W6_main_arg5 m c)⟩) (run_all m ρ)

end

end Cert.KernelIdeal.Hand

end
-- ==== Proof.RefTerms.lean ====
import proofs.«113848_j55319178772943_2_alg».proof.Proof.Gen.ReferenceIdeal
import Idealize.ShloMosaic.Lib.StableHlo.Run

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- The reference's operations in program order: the squared norms of both point sets, their
    batched inner products, the pairwise squared distances and their minima along either axis;
    the same distances of the first set to itself with a large constant added on the diagonal;
    the means, the regulariser over the latent statistics, the standard deviation of the
    self-distance minima (the variance function's and the selection function's operations stand
    where they are called, over the call's own buffers) and the weighted total. -/
abbrev ops : List (HloOp τ sig (Elt F)) :=
  [ StableHlo.binary main_arg0 main_arg0 main_v0 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst (constant S_ .f32 0x00000000#32),
    StableHlo.binary main_v0 main_cst main_v1 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_arg2 main_arg2 main_v2 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_0 (constant S_ .f32 0x00000000#32),
    StableHlo.binary main_v2 main_cst_0 main_v3 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_arg0 main_arg2 main_v4 ((fun l r => Host.dotGeneral dot_S4x4096x3_S4x4096x3_S4x4096x4096_2_2_1_1_0_0 none l r) : (⟨S4x4096x3, .f32⟩ : BufTy).Contents (Elt F) → (⟨S4x4096x3, .f32⟩ : BufTy).Contents (Elt F) → (⟨S4x4096x4096, .f32⟩ : BufTy).Contents (Elt F)),
    StableHlo.unary main_v1 main_v5 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v3 main_v6 (broadcastInDim S4x1x4096 ![0, 2] bcast_S4x4096_S4x1x4096_0_2 : (⟨S4x4096, .f32⟩ : BufTy).Contents (Elt F) → (⟨S4x1x4096, .f32⟩ : BufTy).Contents (Elt F)),
    StableHlo.unary main_v5 main_v7 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.unary main_v6 main_v8 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    StableHlo.binary main_v7 main_v8 main_v9 (addf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_1 (constant S_ .f32 0x40000000#32),
    StableHlo.unary main_cst_1 main_v10 (broadcastInDim S4x4096x4096 ![] bcast_S_S4x4096x4096 : (⟨S_, .f32⟩ : BufTy).Contents (Elt F) → (⟨S4x4096x4096, .f32⟩ : BufTy).Contents (Elt F)),
    StableHlo.binary main_v10 main_v4 main_v11 (mulf : (⟨S4x4096x4096, .f32⟩ : BufTy).Contents (Elt F) → (⟨S4x4096x4096, .f32⟩ : BufTy).Contents (Elt F) → (⟨S4x4096x4096, .f32⟩ : BufTy).Contents (Elt F)),
    StableHlo.binary main_v9 main_v11 main_v12 (subf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_2 (constant S_ .f32 0x7F800000#32),
    StableHlo.binary main_v12 main_cst_2 main_v13 ((fun x v => Host.reduce FloatOps.minimumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.nullary main_cst_3 (constant S_ .f32 0x00000000#32),
    StableHlo.binary main_v13 main_cst_3 main_v14 ((fun x v => Host.reduceAdd x v reducesTo_S4x4096_S4_d1 h_S_) : (⟨S4x4096, .f32⟩ : BufTy).Contents (Elt F) → (⟨S_, .f32⟩ : BufTy).Contents (Elt F) → (⟨S4, .f32⟩ : BufTy).Contents (Elt F)),
    StableHlo.nullary main_cst_4 (constant S_ .f32 0x45800000#32),
    StableHlo.unary main_cst_4 main_v15 (broadcastInDim S4 ![] bcast_S_S4 : (⟨S_, .f32⟩ : BufTy).Contents (Elt F) → (⟨S4, .f32⟩ : BufTy).Contents (Elt F)),
    StableHlo.binary main_v14 main_v15 main_v16 (Host.divf : (⟨S4, .f32⟩ : BufTy).Contents (Elt F) → (⟨S4, .f32⟩ : BufTy).Contents (Elt F) → (⟨S4, .f32⟩ : BufTy).Contents (Elt F)),
    StableHlo.nullary main_cst_5 (constant S_ .f32 0x7F800000#32),
    StableHlo.binary main_v12 main_cst_5 main_v17 ((fun x v => Host.reduce FloatOps.minimumf x v reducesTo_S4x4096x4096_S4x4096_d1 h_S_) : (⟨S4x4096x4096, .f32⟩ : BufTy).Contents (Elt F) → (⟨S_, .f32⟩ : BufTy).Contents (Elt F) → (⟨S4x4096, .f32⟩ : BufTy).Contents (Elt F)),
    StableHlo.nullary main_cst_6 (constant S_ .f32 0x00000000#32),
    StableHlo.binary main_v17 main_cst_6 main_v18 ((fun x v => Host.reduceAdd x v reducesTo_S4x4096_S4_d1 h_S_) : (⟨S4x4096, .f32⟩ : BufTy).Contents (Elt F) → (⟨S_, .f32⟩ : BufTy).Contents (Elt F) → (⟨S4, .f32⟩ : BufTy).Contents (Elt F)),
    StableHlo.nullary main_cst_7 (constant S_ .f32 0x45800000#32),
    StableHlo.unary main_cst_7 main_v19 (broadcastInDim S4 ![] bcast_S_S4 : (⟨S_, .f32⟩ : BufTy).Contents (Elt F) → (⟨S4, .f32⟩ : BufTy).Contents (Elt F)),
    StableHlo.binary main_v18 main_v19 main_v20 (Host.divf : (⟨S4, .f32⟩ : BufTy).Contents (Elt F) → (⟨S4, .f32⟩ : BufTy).Contents (Elt F) → (⟨S4, .f32⟩ : BufTy).Contents (Elt F)),
    StableHlo.binary main_v16 main_v20 main_v21 (addf : (⟨S4, .f32⟩ : BufTy).Contents (Elt F) → (⟨S4, .f32⟩ : BufTy).Contents (Elt F) → (⟨S4, .f32⟩ : BufTy).Contents (Elt F)),
    StableHlo.nullary main_cst_8 (constant S_ .f32 0x00000000#32),
    StableHlo.binary main_v21 main_cst_8 main_v22 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_9 (constant S_ .f32 0x40800000#32),
    StableHlo.binary main_v22 main_cst_9 main_v23 (Host.divf : (⟨S_, .f32⟩ : BufTy).Contents (Elt F) → (⟨S_, .f32⟩ : BufTy).Contents (Elt F) → (⟨S_, .f32⟩ : BufTy).Contents (Elt F)),
    StableHlo.nullary main_cst_10 (constant S_ .f32 0x3F800000#32),
    StableHlo.unary main_cst_10 main_v24 (broadcastInDim S4x512 ![] bcast_S_S4x512 : (⟨S_, .f32⟩ : BufTy).Contents (Elt F) → (⟨S4x512, .f32⟩ : BufTy).Contents (Elt F)),
    StableHlo.binary main_v24 main_arg5 main_v25 (addf : (⟨S4x512, .f32⟩ : BufTy).Contents (Elt F) → (⟨S4x512, .f32⟩ : BufTy).Contents (Elt F) → (⟨S4x512, .f32⟩ : BufTy).Contents (Elt F)),
    StableHlo.binary main_arg4 main_arg4 main_v26 (mulf : (⟨S4x512, .f32⟩ : BufTy).Contents (Elt F) → (⟨S4x512, .f32⟩ : BufTy).Contents (Elt F) → (⟨S4x512, .f32⟩ : BufTy).Contents (Elt F)),
    StableHlo.binary main_v25 main_v26 main_v27 (subf : (⟨S4x512, .f32⟩ : BufTy).Contents (Elt F) → (⟨S4x512, .f32⟩ : BufTy).Contents (Elt F) → (⟨S4x512, .f32⟩ : BufTy).Contents (Elt F)),
    StableHlo.unary main_arg5 main_v28 (Host.exp : (⟨S4x512, .f32⟩ : BufTy).Contents (Elt F) → (⟨S4x512, .f32⟩ : BufTy).Contents (Elt F)),
    StableHlo.binary main_v27 main_v28 main_v29 (subf : (⟨S4x512, .f32⟩ : BufTy).Contents (Elt F) → (⟨S4x512, .f32⟩ : BufTy).Contents (Elt F) → (⟨S4x512, .f32⟩ : BufTy).Contents (Elt F)),
    StableHlo.nullary main_cst_11 (constant S_ .f32 0x00000000#32),
    StableHlo.binary main_v29 main_cst_11 main_v30 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_12 (constant S_ .f32 0x45000000#32),
    StableHlo.binary main_v30 main_cst_12 main_v31 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0xBF000000#32),
    StableHlo.binary main_cst_13 main_v31 main_v32 (mulf : (⟨S_, .f32⟩ : BufTy).Contents (Elt F) → (⟨S_, .f32⟩ : BufTy).Contents (Elt F) → (⟨S_, .f32⟩ : BufTy).Contents (Elt F)),
    StableHlo.binary main_arg0 main_arg0 main_v33 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_14 (constant S_ .f32 0x00000000#32),
    StableHlo.binary main_v33 main_cst_14 main_v34 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_arg0 main_arg0 main_v35 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_15 (constant S_ .f32 0x00000000#32),
    StableHlo.binary main_v35 main_cst_15 main_v36 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_arg0 main_arg0 main_v37 ((fun l r => Host.dotGeneral dot_S4x4096x3_S4x4096x3_S4x4096x4096_2_2_1_1_0_0 none l r) : (⟨S4x4096x3, .f32⟩ : BufTy).Contents (Elt F) → (⟨S4x4096x3, .f32⟩ : BufTy).Contents (Elt F) → (⟨S4x4096x4096, .f32⟩ : BufTy).Contents (Elt F)),
    StableHlo.unary main_v34 main_v38 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v36 main_v39 (broadcastInDim S4x1x4096 ![0, 2] bcast_S4x4096_S4x1x4096_0_2 : (⟨S4x4096, .f32⟩ : BufTy).Contents (Elt F) → (⟨S4x1x4096, .f32⟩ : BufTy).Contents (Elt F)),
    StableHlo.unary main_v38 main_v40 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.unary main_v39 main_v41 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    StableHlo.binary main_v40 main_v41 main_v42 (addf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_16 (constant S_ .f32 0x40000000#32),
    StableHlo.unary main_cst_16 main_v43 (broadcastInDim S4x4096x4096 ![] bcast_S_S4x4096x4096 : (⟨S_, .f32⟩ : BufTy).Contents (Elt F) → (⟨S4x4096x4096, .f32⟩ : BufTy).Contents (Elt F)),
    StableHlo.binary main_v43 main_v37 main_v44 (mulf : (⟨S4x4096x4096, .f32⟩ : BufTy).Contents (Elt F) → (⟨S4x4096x4096, .f32⟩ : BufTy).Contents (Elt F) → (⟨S4x4096x4096, .f32⟩ : BufTy).Contents (Elt F)),
    StableHlo.binary main_v42 main_v44 main_v45 (subf : (⟨S4x4096x4096, .f32⟩ : BufTy).Contents (Elt F) → (⟨S4x4096x4096, .f32⟩ : BufTy).Contents (Elt F) → (⟨S4x4096x4096, .f32⟩ : BufTy).Contents (Elt F)),
    StableHlo.nullary main_v46 (iotaInDim S4096x4096 32 0),
    StableHlo.nullary main_v47 (iotaInDim S4096x4096 32 1),
    StableHlo.nullary main_c (constantI S_ 32 0#32),
    StableHlo.unary main_c main_v48 (broadcastInDim S4096x4096 ![] bcast_S_S4096x4096 : (⟨S_, .i32⟩ : BufTy).Contents (Elt F) → (⟨S4096x4096, .i32⟩ : BufTy).Contents (Elt F)),
    StableHlo.binary main_v46 main_v48 main_v49 (addi : (⟨S4096x4096, .i32⟩ : BufTy).Contents (Elt F) → (⟨S4096x4096, .i32⟩ : BufTy).Contents (Elt F) → (⟨S4096x4096, .i32⟩ : BufTy).Contents (Elt F)),
    StableHlo.binary main_v49 main_v47 main_v50 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v50 main_v51 (uitofp .f32 : (⟨S4096x4096, .i1⟩ : BufTy).Contents (Elt F) → (⟨S4096x4096, .f32⟩ : BufTy).Contents (Elt F)),
    StableHlo.unary main_v51 main_v52 (broadcastInDim S1x4096x4096 ![1, 2] bcast_S4096x4096_S1x4096x4096_1_2 : (⟨S4096x4096, .f32⟩ : BufTy).Contents (Elt F) → (⟨S1x4096x4096, .f32⟩ : BufTy).Contents (Elt F)),
    StableHlo.nullary main_cst_17 (constant S_ .f32 0x49742400#32),
    StableHlo.unary main_cst_17 main_v53 (broadcastInDim S1x4096x4096 ![] bcast_S_S1x4096x4096 : (⟨S_, .f32⟩ : BufTy).Contents (Elt F) → (⟨S1x4096x4096, .f32⟩ : BufTy).Contents (Elt F)),
    StableHlo.binary main_v52 main_v53 main_v54 (mulf : (⟨S1x4096x4096, .f32⟩ : BufTy).Contents (Elt F) → (⟨S1x4096x4096, .f32⟩ : BufTy).Contents (Elt F) → (⟨S1x4096x4096, .f32⟩ : BufTy).Contents (Elt F)),
    StableHlo.unary main_v54 main_v55 (broadcastInDim S4x4096x4096 ![0, 1, 2] bcast_S1x4096x4096_S4x4096x4096_0_1_2 : (⟨S1x4096x4096, .f32⟩ : BufTy).Contents (Elt F) → (⟨S4x4096x4096, .f32⟩ : BufTy).Contents (Elt F)),
    StableHlo.binary main_v45 main_v55 main_v56 (addf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_18 (constant S_ .f32 0x7F800000#32),
    StableHlo.binary main_v56 main_cst_18 main_v57 ((fun x v => Host.reduce FloatOps.minimumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.nullary main_c_19 (constantI S_ 32 1#32),
    StableHlo.TRef.nullary main_call0_call0.cst (constant S_ .f32 0x00000000#32),
    StableHlo.TRef.binary (.of main_v57 : StableHlo.TRef sig ⟨S4x4096, .f32⟩) main_call0_call0.cst main_call0_call0.v0 (fun x v => Host.reduceAdd x v reducesTo_S4x4096_S4_d1 h_S_),
    StableHlo.TRef.unary main_call0_call0.v0 main_call0_call0.v1 (broadcastInDim S4x1 ![0] bcast_S4_S4x1_0),
    StableHlo.TRef.nullary main_call0_call0.cst_0 (constant S_ .f32 0x45800000#32),
    StableHlo.TRef.unary main_call0_call0.cst_0 main_call0_call0.v2 (broadcastInDim S4x1 ![] bcast_S_S4x1),
    StableHlo.TRef.binary main_call0_call0.v1 main_call0_call0.v2 main_call0_call0.v3 Host.divf,
    StableHlo.TRef.unary main_call0_call0.v3 main_call0_call0.v4 (broadcastInDim S4x4096 ![0, 1] bcast_S4x1_S4x4096_0_1),
    StableHlo.TRef.binary (.of main_v57 : StableHlo.TRef sig ⟨S4x4096, .f32⟩) main_call0_call0.v4 main_call0_call0.v5 subf,
    StableHlo.TRef.binary main_call0_call0.v5 main_call0_call0.v5 main_call0_call0.v6 mulf,
    StableHlo.TRef.unary (.of main_c_19 : StableHlo.TRef sig ⟨S_, .i32⟩) main_call0_call0.v7 (sitofp .f32),
    StableHlo.TRef.nullary main_call0_call0.cst_1 (constant S_ .f32 0x45800000#32),
    StableHlo.TRef.binary main_call0_call0.cst_1 main_call0_call0.v7 main_call0_call0.v8 subf,
    StableHlo.TRef.nullary main_call0_call0.cst_2 (constant S_ .f32 0x00000000#32),
    StableHlo.TRef.binary main_call0_call0.v6 main_call0_call0.cst_2 main_call0_call0.v9 (fun x v => Host.reduceAdd x v reducesTo_S4x4096_S4_d1 h_S_),
    StableHlo.TRef.unary main_call0_call0.v8 main_call0_call0.v10 (broadcastInDim S4 ![] bcast_S_S4),
    StableHlo.TRef.binary main_call0_call0.v9 main_call0_call0.v10 main_call0_call0.v11 Host.divf,
    StableHlo.TRef.nullary main_call0_call0.cst_3 (constant S_ .f32 0x00000000#32),
    StableHlo.TRef.binary main_call0_call0.v8 main_call0_call0.cst_3 main_call0_call0.v12 (cmpf .ogt),
    StableHlo.TRef.nullary main_call0_call0.cst_4 (constant S_ .f32 0x7FC00000#32),
    StableHlo.TRef.unary main_call0_call0.cst_4 main_call0_call0_call0.v0 id,
    StableHlo.TRef.unary main_call0_call0_call0.v0 main_call0_call0_call0.v1 (broadcastInDim S4 ![] bcast_S_S4),
    StableHlo.TRef.ternary main_call0_call0.v12 main_call0_call0.v11 main_call0_call0_call0.v1 main_call0_call0_call0.v2 (fun p a b => select (broadcastInDim S4 ![] bcast_S_S4 p) a b),
    StableHlo.TRef.unary main_call0.call0.call0.v2 main_call0.v1 Host.sqrt,
    StableHlo.nullary main_cst_20 (constant S_ .f32 0x00000000#32),
    StableHlo.binary main_v58 main_cst_20 main_v59 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_21 (constant S_ .f32 0x40800000#32),
    StableHlo.binary main_v59 main_cst_21 main_v60 (Host.divf : (⟨S_, .f32⟩ : BufTy).Contents (Elt F) → (⟨S_, .f32⟩ : BufTy).Contents (Elt F) → (⟨S_, .f32⟩ : BufTy).Contents (Elt F)),
    StableHlo.binary main_arg1 main_arg3 main_v61 (subf : (⟨S4x4096, .f32⟩ : BufTy).Contents (Elt F) → (⟨S4x4096, .f32⟩ : BufTy).Contents (Elt F) → (⟨S4x4096, .f32⟩ : BufTy).Contents (Elt F)),
    StableHlo.binary main_v61 main_v61 main_v62 (mulf : (⟨S4x4096, .f32⟩ : BufTy).Contents (Elt F) → (⟨S4x4096, .f32⟩ : BufTy).Contents (Elt F) → (⟨S4x4096, .f32⟩ : BufTy).Contents (Elt F)),
    StableHlo.nullary main_cst_22 (constant S_ .f32 0x00000000#32),
    StableHlo.binary main_v62 main_cst_22 main_v63 ((fun x v => Host.reduceAdd x v reducesTo_S4x4096_S_d0_1 h_S_) : (⟨S4x4096, .f32⟩ : BufTy).Contents (Elt F) → (⟨S_, .f32⟩ : BufTy).Contents (Elt F) → (⟨S_, .f32⟩ : BufTy).Contents (Elt F)),
    StableHlo.nullary main_cst_23 (constant S_ .f32 0x46800000#32),
    StableHlo.binary main_v63 main_cst_23 main_v64 (Host.divf : (⟨S_, .f32⟩ : BufTy).Contents (Elt F) → (⟨S_, .f32⟩ : BufTy).Contents (Elt F) → (⟨S_, .f32⟩ : BufTy).Contents (Elt F)),
    StableHlo.nullary main_cst_24 (constant S_ .f32 0x3A83126F#32),
    StableHlo.binary main_cst_24 main_v32 main_v65 (mulf : (⟨S_, .f32⟩ : BufTy).Contents (Elt F) → (⟨S_, .f32⟩ : BufTy).Contents (Elt F) → (⟨S_, .f32⟩ : BufTy).Contents (Elt F)),
    StableHlo.binary main_v23 main_v65 main_v66 (addf : (⟨S_, .f32⟩ : BufTy).Contents (Elt F) → (⟨S_, .f32⟩ : BufTy).Contents (Elt F) → (⟨S_, .f32⟩ : BufTy).Contents (Elt F)),
    StableHlo.nullary main_cst_25 (constant S_ .f32 0x3DCCCCCD#32),
    StableHlo.binary main_cst_25 main_v60 main_v67 (mulf : (⟨S_, .f32⟩ : BufTy).Contents (Elt F) → (⟨S_, .f32⟩ : BufTy).Contents (Elt F) → (⟨S_, .f32⟩ : BufTy).Contents (Elt F)),
    StableHlo.binary main_v66 main_v67 main_v68 (addf : (⟨S_, .f32⟩ : BufTy).Contents (Elt F) → (⟨S_, .f32⟩ : BufTy).Contents (Elt F) → (⟨S_, .f32⟩ : BufTy).Contents (Elt F)),
    StableHlo.nullary main_cst_26 (constant S_ .f32 0x3D4CCCCD#32),
    StableHlo.binary main_cst_26 main_v64 main_v69 (mulf : (⟨S_, .f32⟩ : BufTy).Contents (Elt F) → (⟨S_, .f32⟩ : BufTy).Contents (Elt F) → (⟨S_, .f32⟩ : BufTy).Contents (Elt F)),
    StableHlo.binary main_v68 main_v69 main_v70 (addf : (⟨S_, .f32⟩ : BufTy).Contents (Elt F) → (⟨S_, .f32⟩ : BufTy).Contents (Elt F) → (⟨S_, .f32⟩ : BufTy).Contents (Elt F)) ]

set_option maxRecDepth 16384 in
set_option maxHeartbeats 4000000 in
/-- The program is that straight line: its two windows and the three called functions unfold to
    one chain of host steps. -/
theorem main_eq (c : Dev nD) : main (F := F) c = seq ops := rfl

theorem scopedRefs_eq : (Finset.univ.filter fun b : Ref sig .tc => b.isScoped) = ∅ := by decide
theorem scopedSems_eq : (Finset.univ.filter fun sm : SemLoc sig => sm.isScoped .tc) = ∅ := by decide

set_option maxRecDepth 16384 in
theorem ops_sub : (ops : List (HloOp τ sig (Elt F))).Forall fun op => op.bufs ⊆ tcRefs τ sig :=
  ⟨binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., binary_bufs_sub .., nullary_bufs_sub .., binary_bufs_sub .., nullary_bufs_sub .., unary_bufs_sub .., binary_bufs_sub .., nullary_bufs_sub .., binary_bufs_sub .., nullary_bufs_sub .., binary_bufs_sub .., nullary_bufs_sub .., unary_bufs_sub .., binary_bufs_sub .., binary_bufs_sub .., nullary_bufs_sub .., binary_bufs_sub .., nullary_bufs_sub .., binary_bufs_sub .., nullary_bufs_sub .., unary_bufs_sub .., binary_bufs_sub .., binary_bufs_sub .., binary_bufs_sub .., unary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub .., unary_bufs_sub .., unary_bufs_sub .., unary_bufs_sub .., unary_bufs_sub .., binary_bufs_sub .., nullary_bufs_sub .., unary_bufs_sub .., binary_bufs_sub .., binary_bufs_sub .., nullary_bufs_sub .., nullary_bufs_sub .., nullary_bufs_sub .., unary_bufs_sub .., binary_bufs_sub .., binary_bufs_sub .., unary_bufs_sub .., unary_bufs_sub .., nullary_bufs_sub .., unary_bufs_sub .., binary_bufs_sub .., unary_bufs_sub .., binary_bufs_sub .., nullary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., nullary_bufs_sub .., binary_bufs_sub .., nullary_bufs_sub .., binary_bufs_sub .., binary_bufs_sub .., binary_bufs_sub .., nullary_bufs_sub .., binary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub ..⟩

/-! ## The composed terms, named

The three stages of the reference as pure functions of array contents: the pairwise squared
distances `‖x‖² + ‖y‖² − 2·⟨x, y⟩`, the diagonal penalty `10⁶·[r = m]`, and everything downstream
of the three minima (the means, the regulariser, the standard deviation and the weighted total). -/

/-- `dist[b, r, m] = Σ_d x[b,r,d]² + Σ_d y[b,m,d]² − 2 · Σ_d x[b,r,d]·y[b,m,d]`, composed as the
    reference composes it: the two squared norms reduced along the last axis and broadcast along
    the other point axis, their sum, minus twice the batched inner products. -/
def refDist (x y : (⟨S4x4096x3, .f32⟩ : BufTy).Contents (Elt F)) : (⟨S4x4096x4096, .f32⟩ : BufTy).Contents (Elt F) :=
  let v0 : FVec F S4x4096x3 .f32 := mulf x x
  let cst : FVec F S_ .f32 := constant (F := F) S_ .f32 0x00000000#32
  let v1 : FVec F S4x4096 .f32 := Host.reduceAdd v0 cst reducesTo_S4x4096x3_S4x4096_d2 h_S_
  let v2 : FVec F S4x4096x3 .f32 := mulf y y
  let cst_0 : FVec F S_ .f32 := constant (F := F) S_ .f32 0x00000000#32
  let v3 : FVec F S4x4096 .f32 := Host.reduceAdd v2 cst_0 reducesTo_S4x4096x3_S4x4096_d2 h_S_
  let v4 : FVec F S4x4096x4096 .f32 := Host.dotGeneral dot_S4x4096x3_S4x4096x3_S4x4096x4096_2_2_1_1_0_0 none x y
  let v5 : FVec F S4x4096x1 .f32 := broadcastInDim S4x4096x1 ![0, 1] bcast_S4x4096_S4x4096x1_0_1 v1
  let v6 : FVec F S4x1x4096 .f32 := broadcastInDim S4x1x4096 ![0, 2] bcast_S4x4096_S4x1x4096_0_2 v3
  let v7 : FVec F S4x4096x4096 .f32 := broadcastInDim S4x4096x4096 ![0, 1, 2] bcast_S4x4096x1_S4x4096x4096_0_1_2 v5
  let v8 : FVec F S4x4096x4096 .f32 := broadcastInDim S4x4096x4096 ![0, 1, 2] bcast_S4x1x4096_S4x4096x4096_0_1_2 v6
  let v9 : FVec F S4x4096x4096 .f32 := addf v7 v8
  let cst_1 : FVec F S_ .f32 := constant (F := F) S_ .f32 0x40000000#32
  let v10 : FVec F S4x4096x4096 .f32 := broadcastInDim S4x4096x4096 ![] bcast_S_S4x4096x4096 cst_1
  let v11 : FVec F S4x4096x4096 .f32 := mulf v10 v4
  subf v9 v11

/-- The diagonal penalty: `10⁶` where the two point indices coincide and `0` elsewhere, the same
    in every batch. -/
def refDiag : (⟨S4x4096x4096, .f32⟩ : BufTy).Contents (Elt F) :=
  let v46 : IVec S4096x4096 32 := iotaInDim S4096x4096 32 0
  let v47 : IVec S4096x4096 32 := iotaInDim S4096x4096 32 1
  let c : IVec S_ 32 := constantI S_ 32 0#32
  let v48 : IVec S4096x4096 32 := broadcastInDim S4096x4096 ![] bcast_S_S4096x4096 c
  let v49 : IVec S4096x4096 32 := addi v46 v48
  let v50 : IVec S4096x4096 1 := cmpi .eq v49 v47
  let v51 : FVec F S4096x4096 .f32 := uitofp .f32 v50
  let v52 : FVec F S1x4096x4096 .f32 := broadcastInDim S1x4096x4096 ![1, 2] bcast_S4096x4096_S1x4096x4096_1_2 v51
  let cst_17 : FVec F S_ .f32 := constant (F := F) S_ .f32 0x49742400#32
  let v53 : FVec F S1x4096x4096 .f32 := broadcastInDim S1x4096x4096 ![] bcast_S_S1x4096x4096 cst_17
  let v54 : FVec F S1x4096x4096 .f32 := mulf v52 v53
  broadcastInDim S4x4096x4096 ![0, 1, 2] bcast_S1x4096x4096_S4x4096x4096_0_1_2 v54

/-- Everything downstream of the three minima. With `p2t`, `t2p` the minima of the cross
    distances along either point axis and `self` the minima of the penalised self distances:
    `mean_b (mean p2t[b,·] + mean t2p[b,·]) + 10⁻³ · (−½ · Σ (1 + a5 − a4² − exp a5) / 2048)
      + 10⁻¹ · mean_b std(self[b,·]) + 5·10⁻² · Σ (a1 − a3)² / 16384`,
    the standard deviation being the square root of the sum of squared deviations from the row
    mean divided by `4096 − 1` (not-a-number selected were that divisor not positive). -/
def refTail (p2t t2p self a1 a3 : (⟨S4x4096, .f32⟩ : BufTy).Contents (Elt F))
    (a4 a5 : (⟨S4x512, .f32⟩ : BufTy).Contents (Elt F)) : (⟨S_, .f32⟩ : BufTy).Contents (Elt F) :=
  -- the two chamfer means and their batch mean
  let cst_3 : FVec F S_ .f32 := constant (F := F) S_ .f32 0x00000000#32
  let v14 : FVec F S4 .f32 := Host.reduceAdd p2t cst_3 reducesTo_S4x4096_S4_d1 h_S_
  let cst_4 : FVec F S_ .f32 := constant (F := F) S_ .f32 0x45800000#32
  let v15 : FVec F S4 .f32 := broadcastInDim S4 ![] bcast_S_S4 cst_4
  let v16 : FVec F S4 .f32 := Host.divf v14 v15
  let cst_6 : FVec F S_ .f32 := constant (F := F) S_ .f32 0x00000000#32
  let v18 : FVec F S4 .f32 := Host.reduceAdd t2p cst_6 reducesTo_S4x4096_S4_d1 h_S_
  let cst_7 : FVec F S_ .f32 := constant (F := F) S_ .f32 0x45800000#32
  let v19 : FVec F S4 .f32 := broadcastInDim S4 ![] bcast_S_S4 cst_7
  let v20 : FVec F S4 .f32 := Host.divf v18 v19
  let v21 : FVec F S4 .f32 := addf v16 v20
  let cst_8 : FVec F S_ .f32 := constant (F := F) S_ .f32 0x00000000#32
  let v22 : FVec F S_ .f32 := Host.reduceAdd v21 cst_8 reducesTo_S4_S_d0 h_S_
  let cst_9 : FVec F S_ .f32 := constant (F := F) S_ .f32 0x40800000#32
  let v23 : FVec F S_ .f32 := Host.divf v22 cst_9
  -- the regulariser over the latent statistics
  let cst_10 : FVec F S_ .f32 := constant (F := F) S_ .f32 0x3F800000#32
  let v24 : FVec F S4x512 .f32 := broadcastInDim S4x512 ![] bcast_S_S4x512 cst_10
  let v25 : FVec F S4x512 .f32 := addf v24 a5
  let v26 : FVec F S4x512 .f32 := mulf a4 a4
  let v27 : FVec F S4x512 .f32 := subf v25 v26
  let v28 : FVec F S4x512 .f32 := Host.exp a5
  let v29 : FVec F S4x512 .f32 := subf v27 v28
  let cst_11 : FVec F S_ .f32 := constant (F := F) S_ .f32 0x00000000#32
  let v30 : FVec F S_ .f32 := Host.reduceAdd v29 cst_11 reducesTo_S4x512_S_d0_1 h_S_
  let cst_12 : FVec F S_ .f32 := constant (F := F) S_ .f32 0x45000000#32
  let v31 : FVec F S_ .f32 := Host.divf v30 cst_12
  let cst_13 : FVec F S_ .f32 := constant (F := F) S_ .f32 0xBF000000#32
  let v32 : FVec F S_ .f32 := mulf cst_13 v31
  -- the standard deviation of the self-distance minima, row by row
  let c_19 : IVec S_ 32 := constantI S_ 32 1#32
  let w_cst : FVec F S_ .f32 := constant (F := F) S_ .f32 0x00000000#32
  let w0 : FVec F S4 .f32 := Host.reduceAdd self w_cst reducesTo_S4x4096_S4_d1 h_S_
  let w1 : FVec F S4x1 .f32 := broadcastInDim S4x1 ![0] bcast_S4_S4x1_0 w0
  let w_cst_0 : FVec F S_ .f32 := constant (F := F) S_ .f32 0x45800000#32
  let w2 : FVec F S4x1 .f32 := broadcastInDim S4x1 ![] bcast_S_S4x1 w_cst_0
  let w3 : FVec F S4x1 .f32 := Host.divf w1 w2
  let w4 : FVec F S4x4096 .f32 := broadcastInDim S4x4096 ![0, 1] bcast_S4x1_S4x4096_0_1 w3
  let w5 : FVec F S4x4096 .f32 := subf self w4
  let w6 : FVec F S4x4096 .f32 := mulf w5 w5
  let w7 : FVec F S_ .f32 := sitofp .f32 c_19
  let w_cst_1 : FVec F S_ .f32 := constant (F := F) S_ .f32 0x45800000#32
  let w8 : FVec F S_ .f32 := subf w_cst_1 w7
  let w_cst_2 : FVec F S_ .f32 := constant (F := F) S_ .f32 0x00000000#32
  let w9 : FVec F S4 .f32 := Host.reduceAdd w6 w_cst_2 reducesTo_S4x4096_S4_d1 h_S_
  let w10 : FVec F S4 .f32 := broadcastInDim S4 ![] bcast_S_S4 w8
  let w11 : FVec F S4 .f32 := Host.divf w9 w10
  let w_cst_3 : FVec F S_ .f32 := constant (F := F) S_ .f32 0x00000000#32
  let w12 : IVec S_ 1 := cmpf .ogt w8 w_cst_3
  let w_cst_4 : FVec F S_ .f32 := constant (F := F) S_ .f32 0x7FC00000#32
  let u0 : FVec F S_ .f32 := id w_cst_4
  let u1 : FVec F S4 .f32 := broadcastInDim S4 ![] bcast_S_S4 u0
  let u2 : FVec F S4 .f32 := select (broadcastInDim S4 ![] bcast_S_S4 w12) w11 u1
  let v58 : FVec F S4 .f32 := Host.sqrt u2
  let cst_20 : FVec F S_ .f32 := constant (F := F) S_ .f32 0x00000000#32
  let v59 : FVec F S_ .f32 := Host.reduceAdd v58 cst_20 reducesTo_S4_S_d0 h_S_
  let cst_21 : FVec F S_ .f32 := constant (F := F) S_ .f32 0x40800000#32
  let v60 : FVec F S_ .f32 := Host.divf v59 cst_21
  -- the mean squared difference of the two size arrays
  let v61 : FVec F S4x4096 .f32 := subf a1 a3
  let v62 : FVec F S4x4096 .f32 := mulf v61 v61
  let cst_22 : FVec F S_ .f32 := constant (F := F) S_ .f32 0x00000000#32
  let v63 : FVec F S_ .f32 := Host.reduceAdd v62 cst_22 reducesTo_S4x4096_S_d0_1 h_S_
  let cst_23 : FVec F S_ .f32 := constant (F := F) S_ .f32 0x46800000#32
  let v64 : FVec F S_ .f32 := Host.divf v63 cst_23
  -- the weighted total
  let cst_24 : FVec F S_ .f32 := constant (F := F) S_ .f32 0x3A83126F#32
  let v65 : FVec F S_ .f32 := mulf cst_24 v32
  let v66 : FVec F S_ .f32 := addf v23 v65
  let cst_25 : FVec F S_ .f32 := constant (F := F) S_ .f32 0x3DCCCCCD#32
  let v67 : FVec F S_ .f32 := mulf cst_25 v60
  let v68 : FVec F S_ .f32 := addf v66 v67
  let cst_26 : FVec F S_ .f32 := constant (F := F) S_ .f32 0x3D4CCCCD#32
  let v69 : FVec F S_ .f32 := mulf cst_26 v64
  addf v68 v69

end Cert.ReferenceIdeal.HandRun

end
-- ==== Proof.RefRun.lean ====
import proofs.«113848_j55319178772943_2_alg».proof.Proof.RefTerms
import proofs.«113848_j55319178772943_2_alg».proof.Defs
import proofs.«113848_j55319178772943_2_alg».proof.Proof.Gen.Pre_finite_inputs

-- one declaration at a time: each value lemma below walks the whole operation list
set_option Elab.async false

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 4000000 in
/-- No operation writes argument 0: it ends as launched. -/
theorem arg0_eq (V : Valuation τ sig (Elt F)) :
    after ops V (Proc.devRef .tc main_arg0) = V (Proc.devRef .tc main_arg0) := by
  after_results_simp

set_option maxRecDepth 16384 in
set_option maxHeartbeats 4000000 in
/-- No operation writes argument 1: it ends as launched. -/
theorem arg1_eq (V : Valuation τ sig (Elt F)) :
    after ops V (Proc.devRef .tc main_arg1) = V (Proc.devRef .tc main_arg1) := by
  after_results_simp

set_option maxRecDepth 16384 in
set_option maxHeartbeats 4000000 in
/-- No operation writes argument 2: it ends as launched. -/
theorem arg2_eq (V : Valuation τ sig (Elt F)) :
    after ops V (Proc.devRef .tc main_arg2) = V (Proc.devRef .tc main_arg2) := by
  after_results_simp

set_option maxRecDepth 16384 in
set_option maxHeartbeats 4000000 in
/-- No operation writes argument 3: it ends as launched. -/
theorem arg3_eq (V : Valuation τ sig (Elt F)) :
    after ops V (Proc.devRef .tc main_arg3) = V (Proc.devRef .tc main_arg3) := by
  after_results_simp

set_option maxRecDepth 16384 in
set_option maxHeartbeats 4000000 in
/-- No operation writes argument 4: it ends as launched. -/
theorem arg4_eq (V : Valuation τ sig (Elt F)) :
    after ops V (Proc.devRef .tc main_arg4) = V (Proc.devRef .tc main_arg4) := by
  after_results_simp

set_option maxRecDepth 16384 in
set_option maxHeartbeats 4000000 in
/-- No operation writes argument 5: it ends as launched. -/
theorem arg5_eq (V : Valuation τ sig (Elt F)) :
    after ops V (Proc.devRef .tc main_arg5) = V (Proc.devRef .tc main_arg5) := by
  after_results_simp

/-- On every device, for any float values, from any memory with zero counters: every weakly fair
    execution of the program terminates, and every buffer ends at the operations' fold over the
    launch contents. -/
theorem run_after (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (Proc.devRef .tc b) :=
  run_seq scopedRefs_eq scopedSems_eq defs main (fun _ => ops) main_eq (fun _ => ops_sub) m ρ

/-- The same with the result read through the fold and the six arguments unchanged. -/
theorem run_raw (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v70) = after ops (launchContents m c) (Proc.devRef .tc main_v70)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨h c main_v70,
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_after m ρ)

/-- The reference runs and leaves its arguments as launched. -/
theorem frame_ri : Cert.frame_ReferenceIdeal := fun m ρ _ =>
  (θ_run Cert.ReferenceIdeal.defs _ _).mono (fun _ h c => (h c).2) (run_raw (F := Ideal) m ρ)

end Cert.ReferenceIdeal.HandRun

end
-- ==== Proof.LibRank3Keepdims.lean ====
/-
  Rank-2 arrays placed in a rank-3 box along a new unit axis, read at an index written by coordinates.

  A matrix `w : [a, c]` becomes a column stack `[a, c, 1]` or a row stack `[a, 1, c]` by a shape cast, and either is then
  broadcast along its unit axis. Read at `(i, j, l)` the first is `w (i, j)` and the second `w (i, l)`: the pair whose
  difference is the table of all pairwise differences `w (i, j) - w (i, l)` of each row `i`. With them: the row
  `[a, 1, c]` cut out of a rank-3 array along its middle axis and cast back to a matrix `[a, c]`.
  (The library's Lib/ValueLayout.lean has the leading-unit-axis casts and the rank-2 row broadcast; these are the
  trailing- and middle-unit-axis forms at rank 3, in its style.)
-/
import Idealize.ShloMosaic.Lib.Pipeline.Value
import Idealize.ShloMosaic.Lib.ValueIdx
import Idealize.ShloMosaic.Lib.ValueLayout

namespace Idealize.ShloMosaic.ValueIdx

open Idealize.ShloMosaic

variable {α : Type}

/-- An `[a, b]` array cast to `[a, b, 1]` reads, at `(i, j, u)`, the operand at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    rw [Shape.rowMajor_val_two, Shape.rowMajor_val_three]
    obtain rfl : u = 0 := Subsingleton.elim _ _
    show i.val * b + j.val = (i.val * b + j.val) * 1 + 0
    rw [Nat.mul_one, Nat.add_zero])

/-- An `[a, c]` array cast to `[a, 1, c]` reads, at `(i, u, l)`, the operand at `(i, l)`. -/
theorem shapeCast_ac_a1c_apply {a c : ℕ} (x : (⟨2, ![a, c]⟩ : Shape).Idx → α)
    (h : (⟨2, ![a, c]⟩ : Shape).ShapeCasts ⟨3, ![a, 1, c]⟩) (i : Fin a) (u : Fin 1) (l : Fin c) :
    shapeCast ⟨3, ![a, 1, c]⟩ x h (ix3 i u l) = x (ix2 i l) :=
  shapeCast_apply x h _ _ (by
    rw [Shape.rowMajor_val_two, Shape.rowMajor_val_three]
    obtain rfl : u = 0 := Subsingleton.elim _ _
    show i.val * c + l.val = (i.val * 1 + 0) * c + l.val
    rw [Nat.mul_one, Nat.add_zero])

/-- An `[a, 1, c]` array cast to `[a, c]` reads, at `(i, l)`, the operand at `(i, 0, l)`. -/
theorem shapeCast_a1c_ac_apply {a c : ℕ} (x : (⟨3, ![a, 1, c]⟩ : Shape).Idx → α)
    (h : (⟨3, ![a, 1, c]⟩ : Shape).ShapeCasts ⟨2, ![a, c]⟩) (i : Fin a) (l : Fin c) :
    shapeCast ⟨2, ![a, c]⟩ x h (ix2 i l) = x (ix3 i (0 : Fin 1) l) :=
  shapeCast_apply x h _ _ (by
    rw [Shape.rowMajor_val_three, Shape.rowMajor_val_two]
    show (i.val * 1 + 0) * c + l.val = i.val * c + l.val
    rw [Nat.mul_one, Nat.add_zero])

/-- An `[a, b, 1]` array broadcast to `[a, b, c]` reads, at `(i, j, l)`, the operand's one entry `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (l : Fin c) :
    broadcastTo ⟨3, ![a, b, c]⟩ v h (ix3 i j l) = v (ix3 i j (0 : Fin 1)) := by
  refine broadcastTo_apply v h (ix3 i j l) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, l)`, the operand's one row entry `(i, 0, l)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (l : Fin c) :
    broadcastTo ⟨3, ![a, b, c]⟩ v h (ix3 i j l) = v (ix3 i (0 : Fin 1) l) := by
  refine broadcastTo_apply v h (ix3 i j l) (ix3 i (0 : Fin 1) l) fun ax => ?_
  match ax with
  | ⟨0, _⟩ =>
    show i.val = if a = 1 then 0 else i.val
    split
    · have := i.isLt; omega
    · rfl
  | ⟨1, _⟩ => rfl
  | ⟨2, _⟩ =>
    show l.val = if c = 1 then 0 else l.val
    split
    · have := l.isLt; omega
    · rfl

/-- A matrix `w : [a, b]` stood up as columns `[a, b, 1]` and broadcast to `[a, b, c]` reads `w (i, j)` at `(i, j, l)`. -/
theorem broadcastTo_cols_apply {a b c : ℕ} (w : (⟨2, ![a, b]⟩ : Shape).Idx → α)
    (h : (⟨2, ![a, b]⟩ : Shape).ShapeCasts ⟨3, ![a, b, 1]⟩) (h' : (⟨3, ![a, b, 1]⟩ : Shape).Broadcasts ⟨3, ![a, b, c]⟩)
    (i : Fin a) (j : Fin b) (l : Fin c) :
    broadcastTo ⟨3, ![a, b, c]⟩ (shapeCast ⟨3, ![a, b, 1]⟩ w h) h' (ix3 i j l) = w (ix2 i j) :=
  (broadcastTo_ab1_abc_apply _ h' i j l).trans (shapeCast_ab_ab1_apply w h i j 0)

/-- A matrix `w : [a, c]` laid down as rows `[a, 1, c]` and broadcast to `[a, b, c]` reads `w (i, l)` at `(i, j, l)`. -/
theorem broadcastTo_rows_apply {a b c : ℕ} (w : (⟨2, ![a, c]⟩ : Shape).Idx → α)
    (h : (⟨2, ![a, c]⟩ : Shape).ShapeCasts ⟨3, ![a, 1, c]⟩) (h' : (⟨3, ![a, 1, c]⟩ : Shape).Broadcasts ⟨3, ![a, b, c]⟩)
    (i : Fin a) (j : Fin b) (l : Fin c) :
    broadcastTo ⟨3, ![a, b, c]⟩ (shapeCast ⟨3, ![a, 1, c]⟩ w h) h' (ix3 i j l) = w (ix2 i l) :=
  (broadcastTo_a1c_abc_apply _ h' i j l).trans (shapeCast_ac_a1c_apply w h i 0 l)

/-- The matrix at middle coordinate `o` of a rank-3 array — the slice `[a, 1, c]` from `o` along axis 1, cast to
    `[a, c]` — reads, at `(i, l)`, the array at `(i, o, l)`. -/
theorem sliceRow_apply {a n c : ℕ} (o : ℕ) (X : (⟨3, ![a, n, c]⟩ : Shape).Idx → α)
    (h : (⟨3, ![a, n, c]⟩ : Shape).Slices ![0, o, 0] ⟨3, ![a, 1, c]⟩)
    (h' : (⟨3, ![a, 1, c]⟩ : Shape).ShapeCasts ⟨2, ![a, c]⟩) (i : Fin a) (l : Fin c) :
    shapeCast ⟨2, ![a, c]⟩ (extractStridedSlice ⟨3, ![a, 1, c]⟩ ![0, o, 0] X h) h' (ix2 i l)
      = X (ix3 i ⟨o, Nat.lt_of_lt_of_le (Nat.lt_succ_self o) (h.2 1)⟩ l) :=
  (shapeCast_a1c_ac_apply _ h' i l).trans (slice3_axis1_apply o X h i (0 : Fin 1) l _ rfl)

end Idealize.ShloMosaic.ValueIdx
-- ==== Proof.PayRead.lean ====
import proofs.«113848_j55319178772943_2_alg».proof.Proof.Gen.KernelIdeal.Skeleton
import proofs.«113848_j55319178772943_2_alg».proof.Proof.LibRank3Keepdims
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayRead

open Idealize.ShloMosaic Idealize.ShloMosaic.ValueIdx Cert.KernelIdeal Cert.KernelIdeal.Gen

/-- The squared Euclidean distance of two points of ℝ³ given by coordinates, associated as the program adds it:
    `((a0 - b0)² + (a1 - b1)²) + (a2 - b2)²`, each square written as a product. -/
def sq3 (a0 a1 a2 b0 b1 b2 : EReal) : EReal :=
  ((a0 - b0) * (a0 - b0) + (a1 - b1) * (a1 - b1)) + (a2 - b2) * (a2 - b2)

/-- Column `k` of an `[a, b, n]` array — the slice `[a, b, 1]` from `o` along the last axis, cast to `[a, b]` — reads, at
    `(i, j)`, the array at `(i, j, k)` with `k = o`. -/
theorem sliceCol_apply {α : Type} {a b n : ℕ} (o : ℕ) (X : (⟨3, ![a, b, n]⟩ : Shape).Idx → α)
    (h : (⟨3, ![a, b, n]⟩ : Shape).Slices ![0, 0, o] ⟨3, ![a, b, 1]⟩)
    (h' : (⟨3, ![a, b, 1]⟩ : Shape).ShapeCasts ⟨2, ![a, b]⟩) (i : Fin a) (j : Fin b) (k : Fin n) (hk : k.val = o) :
    shapeCast ⟨2, ![a, b]⟩ (extractStridedSlice ⟨3, ![a, b, 1]⟩ ![0, 0, o] X h) h' (ix2 i j) = X (ix3 i j k) := by
  refine (shapeCast_apply _ h' (ix2 i j) (ix3 i j (0 : Fin 1)) ?_).trans ?_
  · rw [Shape.rowMajor_val_three, Shape.rowMajor_val_two]
    show (i.val * b + j.val) * 1 + 0 = i.val * b + j.val
    rw [Nat.mul_one, Nat.add_zero]
  · refine extractStridedSlice_apply _ _ _ _ _ (fun ax => ?_)
    match ax with
    | ⟨0, _⟩ => exact (Nat.zero_add _).symm
    | ⟨1, _⟩ => exact (Nat.zero_add _).symm
    | ⟨2, _⟩ => exact hk

/-- A `[1, b, c]` array broadcast to `[a, b, c]` reads, at `(i, j, l)`, the operand's entry `(0, j, l)`. -/
theorem broadcastTo_1bc_abc_apply {α : Type} {a b c : ℕ} (v : (⟨3, ![1, b, c]⟩ : Shape).Idx → α)
    (h : (⟨3, ![1, b, c]⟩ : Shape).Broadcasts ⟨3, ![a, b, c]⟩) (i : Fin a) (j : Fin b) (l : Fin c) :
    broadcastTo ⟨3, ![a, b, c]⟩ v h (ix3 i j l) = v (ix3 (0 : Fin 1) j l) := by
  refine broadcastTo_apply v h (ix3 i j l) (ix3 (0 : Fin 1) j l) fun ax => ?_
  match ax with
  | ⟨0, _⟩ => rfl
  | ⟨1, _⟩ =>
    show j.val = if b = 1 then 0 else j.val
    split
    · have := j.isLt; omega
    · rfl
  | ⟨2, _⟩ =>
    show l.val = if c = 1 then 0 else l.val
    split
    · have := l.isLt; omega
    · rfl

/-- The f32 word `0x7F800000` is `+∞`, the top of the extended reals. -/
theorem top_f32 : Ideal.ofBits .f32 0x7F800000#32 = (⊤ : EReal) := by simp [Ideal.ofBits, Ideal.ieee]

/-- A fold of `min` from `⊤` over a finite set is the set's infimum. -/
theorem fold_min_top {ι : Type} (s : Finset ι) (f : ι → EReal) : s.fold min ⊤ f = s.inf f := by
  classical
  induction s using Finset.induction_on with
  | empty => rfl
  | insert a s ha ih => rw [Finset.fold_insert ha, Finset.inf_insert, ih]

/-- An f32 minimum-reduction over ONE axis from `+∞`, read at the ideal values at a reduced index `j`: the infimum, over
    that axis's coordinates `k`, of the source at `j` with `k` inserted. -/
theorem multiReduction_minimumf_iInf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j = ⨅ k : Fin (s.size a), src (h.lift j k) := by
  refine (multiReduction_minimumf_eq_fold src _ h hφ hacc j).trans ?_
  refine (h.fold_filter_drop_single _ _ src j).trans ?_
  show Finset.fold min (Ideal.ofBits .f32 0x7F800000#32) (src ∘ h.lift j) Finset.univ = _
  rw [top_f32, fold_min_top, Finset.inf_univ_eq_iInf]
  rfl

/-- The minimum over the LAST axis of a `[4, 128, 4096]` array from `+∞`, at `(b, r)`: the infimum over `m` of the array at
    `(b, r, m)`. -/
theorem minAxis2_apply (src : FVec Ideal S4x128x4096 .f32) (b : Fin 4) (r : Fin 128) :
    multiReduction .minimumf [2] S4x128 src 0x7F800000#32 reduces_S4x128x4096_S4x128 (.inl rfl) rfl (ix2 b r)
      = ⨅ m : Fin 4096, src (ix3 b r m) := by
  refine (multiReduction_minimumf_iInf src reduces_S4x128x4096_S4x128 (.inl rfl) rfl (ix2 b r)).trans ?_
  show (⨅ m : Fin 4096, src (reduces_S4x128x4096_S4x128.lift (ix2 b r) m)) = _
  refine iInf_congr fun m => congrArg src (funext fun ax => ?_)
  match ax with
  | ⟨0, _⟩ => exact Fin.ext rfl
  | ⟨1, _⟩ => exact Fin.ext rfl
  | ⟨2, _⟩ => exact Fin.ext rfl

/-- The minimum over the MIDDLE axis of a `[4, 128, 4096]` array from `+∞`, at `(b, m)`: the infimum over `r` of the array
    at `(b, r, m)`. -/
theorem minAxis1_apply (src : FVec Ideal S4x128x4096 .f32) (b : Fin 4) (m : Fin 4096) :
    multiReduction .minimumf [1] S4x4096 src 0x7F800000#32 reduces_S4x128x4096_S4x4096 (.inl rfl) rfl (ix2 b m)
      = ⨅ r : Fin 128, src (ix3 b r m) := by
  refine (multiReduction_minimumf_iInf src reduces_S4x128x4096_S4x4096 (.inl rfl) rfl (ix2 b m)).trans ?_
  show (⨅ r : Fin 128, src (reduces_S4x128x4096_S4x4096.lift (ix2 b m) r)) = _
  refine iInf_congr fun r => congrArg src (funext fun ax => ?_)
  match ax with
  | ⟨0, _⟩ => exact Fin.ext rfl
  | ⟨1, _⟩ => exact Fin.ext rfl
  | ⟨2, _⟩ => exact Fin.ext rfl

/-- The first kernel's distance table at `(b, r, m)`: the squared distance of row `r` of the first argument's batch `b` and
    row `m` of the second's. -/
theorem pay3_apply (x0 : Vec Ideal S4x128x3 .f32) (x1 : Vec Ideal S4x4096x3 .f32) (b : Fin 4) (r : Fin 128) (m : Fin 4096) :
    k0_pay3 x0 x1 (ix3 b r m)
      = sq3 (x0 (ix3 b r 0)) (x0 (ix3 b r 1)) (x0 (ix3 b r 2)) (x1 (ix3 b m 0)) (x1 (ix3 b m 1)) (x1 (ix3 b m 2)) := by
  unfold k0_pay3 sq3
  simp only [addf_apply, mulf_apply, subf_apply]
  simp only [broadcastTo_cols_apply, broadcastTo_rows_apply]
  rw [sliceCol_apply 0 x0 _ _ b r 0 rfl, sliceCol_apply 1 x0 _ _ b r 1 rfl, sliceCol_apply 2 x0 _ _ b r 2 rfl,
    sliceCol_apply 0 x1 _ _ b m 0 rfl, sliceCol_apply 1 x1 _ _ b m 1 rfl, sliceCol_apply 2 x1 _ _ b m 2 rfl]

/-- The row minimum: at `(b, r)` the infimum over `m` of the distance table. -/
theorem pay4_apply (x0 : Vec Ideal S4x128x3 .f32) (x1 : Vec Ideal S4x4096x3 .f32) (b : Fin 4) (r : Fin 128) :
    k0_pay4 x0 x1 (ix2 b r) = ⨅ m : Fin 4096, k0_pay3 x0 x1 (ix3 b r m) := by
  unfold k0_pay4
  exact minAxis2_apply (k0_pay3 x0 x1) b r

/-- The column minimum: at `(b, m)` the infimum over `r` of the distance table. -/
theorem pay5_apply (x0 : Vec Ideal S4x128x3 .f32) (x1 : Vec Ideal S4x4096x3 .f32) (b : Fin 4) (m : Fin 4096) :
    k0_pay5 x0 x1 (ix2 b m) = ⨅ r : Fin 128, k0_pay3 x0 x1 (ix3 b r m) := by
  unfold k0_pay5
  exact minAxis1_apply (k0_pay3 x0 x1) b m

/-- The value stored at the first inner point is the column minimum itself (a cast to the same shape). -/
theorem pay6_eq (x0 : Vec Ideal S4x128x3 .f32) (x1 : Vec Ideal S4x4096x3 .f32) : k0_pay6 x0 x1 = k0_pay5 x0 x1 := by
  unfold k0_pay6
  exact shapeCast_self _ _

/-- The running column minimum: the elementwise minimum of the stored value and the new column minimum. -/
theorem pay1_apply (v36 : FVec Ideal S4x4096 .f32) (v46 : Vec Ideal S4x4096 .f32) (b : Fin 4) (m : Fin 4096) :
    k0_pay1 v36 v46 (ix2 b m) = min (v46 (ix2 b m)) (v36 (ix2 b m)) := by
  unfold k0_pay1
  rw [shapeCast_self]
  rfl

/-- The stored block `[1, 4, 4096]` reads the running minimum `[4, 4096]` under a leading unit axis. -/
theorem pay2_apply (v46 : Vec Ideal S4x4096 .f32) (b : Fin 4) (m : Fin 4096) :
    k0_pay2 v46 (ix3 (0 : Fin 1) b m) = v46 (ix2 b m) := by
  unfold k0_pay2
  exact shapeCast_ab_1ab_apply v46 _ 0 b m

/-- A select on the 32-bit test `g * 128 + r = m`, all three numbers small enough that nothing wraps, is the `if` on the
    naturals. -/
theorem select_diag {α : Type} (g r m : ℕ) (hg : g < 32) (hr : r < 128) (hm : m < 4096) (A B : α) :
    Scalar.select (IntOp.cmpi .eq (IntOp.addi (Scalar.muli (BitVec.ofNat 32 g) 128#32) (BitVec.ofNat 32 r)) (BitVec.ofNat 32 m)) A B
      = if g * 128 + r = m then A else B := by
  have hw : IntOp.addi (Scalar.muli (BitVec.ofNat 32 g) 128#32) (BitVec.ofNat 32 r) = BitVec.ofNat 32 (g * 128 + r) := by
    show BitVec.ofNat 32 g * BitVec.ofNat 32 128 + BitVec.ofNat 32 r = _
    rw [← BitVec.ofNat_mul, ← BitVec.ofNat_add]
  rw [hw]
  have hiff : (BitVec.ofNat 32 (g * 128 + r) = BitVec.ofNat 32 m) ↔ g * 128 + r = m := by
    constructor
    · intro h
      have := congrArg BitVec.toNat h
      rw [BitVec.toNat_ofNat, BitVec.toNat_ofNat] at this
      omega
    · intro h; rw [h]
  by_cases h : g * 128 + r = m
  · rw [if_pos h, hiff.mpr h]
    show (if BitVec.ofBool (BitVec.ofNat 32 m == BitVec.ofNat 32 m) = 1#1 then A else B) = A
    rw [beq_self_eq_true]; rfl
  · rw [if_neg h]
    have hne : (BitVec.ofNat 32 (g * 128 + r) == BitVec.ofNat 32 m) = false :=
      beq_eq_false_iff_ne.mpr (fun e => h (hiff.mp e))
    show (if BitVec.ofBool (BitVec.ofNat 32 (g * 128 + r) == BitVec.ofNat 32 m) = 1#1 then A else B) = B
    rw [hne]; rfl

/-- The second kernel's row minimum at grid point `i`: at `(b, r)` the infimum over `m` of the squared distance of rows `r`
    and `m` plus the diagonal penalty, which is the first word where `m` is the global row `128 · i + r` and the second
    elsewhere. -/
theorem k1_pay1_apply (i : grid1.Coords) (x0 : Vec Ideal S4x128x3 .f32) (x1 : Vec Ideal S4x4096x3 .f32) (b : Fin 4)
    (r : Fin 128) :
    k1_pay1 i x0 x1 (ix2 b r)
      = ⨅ m : Fin 4096,
          (sq3 (x0 (ix3 b r 0)) (x0 (ix3 b r 1)) (x0 (ix3 b r 2)) (x1 (ix3 b m 0)) (x1 (ix3 b m 1)) (x1 (ix3 b m 2))
            + (if (i 0).val * 128 + r.val = m.val then Ideal.ofBits .f32 0x49742400#32
               else Ideal.ofBits .f32 0x00000000#32)) := by
  unfold k1_pay1
  refine (minAxis2_apply _ b r).trans ?_
  refine iInf_congr fun m => ?_
  refine (addf_apply _ _ _).trans ?_
  refine congrArg₂ (· + ·) (pay3_apply x0 x1 b r m) ?_
  refine (broadcastTo_1bc_abc_apply _ _ b r m).trans ?_
  refine (shapeCast_ab_1ab_apply _ _ 0 r m).trans ?_
  show Scalar.select (IntOp.cmpi .eq (IntOp.addi (Scalar.muli (BitVec.ofNat 32 (i 0).val) 128#32)
      (BitVec.ofNat 32 (0 * 128 + r.val))) (BitVec.ofNat 32 (0 * 4096 + m.val)))
      (Ideal.ofBits .f32 0x49742400#32) (Ideal.ofBits .f32 0x00000000#32) = _
  rw [Nat.zero_mul, Nat.zero_add, Nat.zero_add]
  exact select_diag (i 0).val r.val m.val (i 0).isLt r.isLt m.isLt _ _

end Cert.KernelIdeal.PayRead

end
-- ==== Proof.RowVal0.lean ====
/-
  The first kernel's row-minimum output array after its region, index by index: every row of the `[4, 4096]` array
  holds the minimum over all rows of the second point cloud of the squared distance to that row of the first. Each
  grid point writes the block of 128 rows it was handed; the blocks tile the array.
-/
import proofs.«113848_j55319178772943_2_alg».proof.Proof.Reg0Data
import proofs.«113848_j55319178772943_2_alg».proof.Proof.Reg1Data
import proofs.«113848_j55319178772943_2_alg».proof.Proof.PayRead
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.PayRead

section
variable (V : (c : Dev nD) → (b : Ref sig .tc) → Buf (Elt Ideal) ((c : Thread nD τ).loc b))

/-- The value the first kernel leaves at row `n` of batch `b` of its row-minimum output: the infimum over all rows `m` of
    the second cloud `Y` of the squared distance of row `n` of the first cloud `X` and row `m` of `Y`. -/
def rowAt (X Y : S4x4096x3.Idx → EReal) (b : Fin 4) (n : Fin 4096) : EReal :=
  ⨅ m : Fin 4096, sq3 (X (ix3 b n 0)) (X (ix3 b n 1)) (X (ix3 b n 2)) (Y (ix3 b m 0)) (Y (ix3 b m 1)) (Y (ix3 b m 2))

/-- The same as an array over `[4, 4096]`. -/
def rowG (X Y : S4x4096x3.Idx → EReal) : S4x4096.Idx → EReal := fun j => rowAt X Y (j 0) (j 1)

/-- The index maps, decided over the grid: at point `t = 16 o + a` the row-tile window and the row-minimum output window
    are at block `t` of the row axis, the whole-cloud window at block 0. -/
theorem ridx0_0 : ∀ t : Fin cfg0.N, win0_0.index t (0 : Fin 3) = 0 ∧ win0_0.index t (1 : Fin 3) = t.val ∧ win0_0.index t (2 : Fin 3) = 0 :=
  (by decide +kernel : ∀ t : Fin grid0.N, _)
theorem ridx0_1 : ∀ t : Fin cfg0.N, win0_1.index t (0 : Fin 3) = 0 ∧ win0_1.index t (1 : Fin 3) = 0 ∧ win0_1.index t (2 : Fin 3) = 0 :=
  (by decide +kernel : ∀ t : Fin grid0.N, _)
theorem ridx0_2 : ∀ t : Fin cfg0.N, win0_2.index t (0 : Fin 2) = 0 ∧ win0_2.index t (1 : Fin 2) = t.val :=
  (by decide +kernel : ∀ t : Fin grid0.N, _)

/-- The row-tile block at point `t` reads rows `128 t … 128 t + 127` of the first cloud. -/
theorem iblk0_0_apply (c : Dev nD) (t : Fin cfg0.N) (b : Fin 4) (r : Fin 128) (k : Fin 3) (n : Fin 4096)
    (hn : n.val = 128 * t.val + r.val) :
    (iblk0 V c 0 t : Vec Ideal S4x128x3 .f32) (ix3 b r k) = (V c main_arg0 : S4x4096x3.Idx → EReal) (ix3 b n k) := by
  obtain ⟨e0, e1, e2⟩ := ridx0_0 t
  unfold iblk0
  rw [View.read_apply]
  show V c main_arg0 _ = V c main_arg0 _
  congr 1
  funext a
  apply Fin.ext
  match a with
  | ⟨0, _⟩ => show win0_0.index t (0 : Fin 3) * 4 + 1 * b.val = b.val; rw [e0]; omega
  | ⟨1, _⟩ => show win0_0.index t (1 : Fin 3) * 128 + 1 * r.val = n.val; rw [e1, hn]; omega
  | ⟨2, _⟩ => show win0_0.index t (2 : Fin 3) * 3 + 1 * k.val = k.val; rw [e2]; omega

/-- The whole-cloud block at every point is the second cloud. -/
theorem iblk0_1_apply (c : Dev nD) (t : Fin cfg0.N) (b : Fin 4) (m : Fin 4096) (k : Fin 3) :
    (iblk0 V c 1 t : Vec Ideal S4x4096x3 .f32) (ix3 b m k) = (V c main_arg2 : S4x4096x3.Idx → EReal) (ix3 b m k) := by
  obtain ⟨e0, e1, e2⟩ := ridx0_1 t
  unfold iblk0
  rw [View.read_apply]
  show V c main_arg2 _ = V c main_arg2 _
  congr 1
  funext a
  apply Fin.ext
  match a with
  | ⟨0, _⟩ => show win0_1.index t (0 : Fin 3) * 4 + 1 * b.val = b.val; rw [e0]; omega
  | ⟨1, _⟩ => show win0_1.index t (1 : Fin 3) * 4096 + 1 * m.val = m.val; rw [e1]; omega
  | ⟨2, _⟩ => show win0_1.index t (2 : Fin 3) * 3 + 1 * k.val = k.val; rw [e2]; omega

/-- What point `t` writes back to the row-minimum output is block `t` of `rowG` of the two clouds as the region finds
    them. -/
theorem row_flushed (c : Dev nD) (t : Fin cfg0.N) :
    (dat0 V c).flushed 2 t = ((cfg0.win 2).blk t).view.read (Elt Ideal) (rowG (V c main_arg0) (V c main_arg2)) := by
  show (cfg0.win 2).cut (grid0.coords t) ((dat0 V c).after 2 t) = _
  rw [after0_2]
  funext j
  obtain ⟨b, r, rfl⟩ : ∃ (b : Fin 4) (r : Fin 128), j = ix2 b r := ⟨j 0, j 1, eq_ix2 j⟩
  have hx : (cfg0.win 2).xinj (grid0.coords t) (ix2 b r) = ix2 b r := by
    funext a
    match a with
    | ⟨0, _⟩ => rfl
    | ⟨1, _⟩ => rfl
  show k0_pay4 (iblk0 V c 0 t) (iblk0 V c 1 t) ((cfg0.win 2).xinj (grid0.coords t) (ix2 b r)) = _
  rw [hx, View.read_apply]
  refine (pay4_apply (iblk0 V c 0 t) (iblk0 V c 1 t) b r).trans ?_
  obtain ⟨e0, e1⟩ := ridx0_2 t
  have hN : cfg0.N = 32 := N_0
  have ht : t.val < 32 := hN ▸ t.isLt
  have hn : 128 * t.val + r.val < 4096 := by have := r.isLt; omega
  have hemb : ((cfg0.win 2).blk t).view.emb (ix2 b r) = ix2 b (⟨128 * t.val + r.val, hn⟩ : Fin 4096) := by
    funext a
    apply Fin.ext
    match a with
    | ⟨0, _⟩ => show win0_2.index t (0 : Fin 2) * 4 + 1 * b.val = b.val; rw [e0]; omega
    | ⟨1, _⟩ => show win0_2.index t (1 : Fin 2) * 128 + 1 * r.val = 128 * t.val + r.val; rw [e1]; omega
  rw [hemb]
  show _ = rowAt (V c main_arg0) (V c main_arg2) b ⟨128 * t.val + r.val, hn⟩
  unfold rowAt
  refine iInf_congr fun m => ?_
  refine (pay3_apply (iblk0 V c 0 t) (iblk0 V c 1 t) b r m).trans ?_
  rw [iblk0_0_apply V c t b r 0 ⟨128 * t.val + r.val, hn⟩ rfl, iblk0_0_apply V c t b r 1 ⟨128 * t.val + r.val, hn⟩ rfl,
    iblk0_0_apply V c t b r 2 ⟨128 * t.val + r.val, hn⟩ rfl, iblk0_1_apply V c t b m 0, iblk0_1_apply V c t b m 1,
    iblk0_1_apply V c t b m 2]

/-- An index of the row-minimum output array is in point `t`'s block iff each coordinate is in the block's range on its
    axis. -/
theorem row_mem_blk (t : Fin cfg0.N) (i : S4x4096.Idx) :
    i ∈ ((cfg0.win 2).blk t).view.set ↔ ∀ a : Fin 2, win0_2.index t a * S4x128.size a ≤ (i a).val ∧ (i a).val < win0_2.index t a * S4x128.size a + S4x128.size a := by
  show i ∈ ((View.whole main_v0_0).slice (win0_2.rect t)).set ↔ _
  rw [View.set_slice_whole, Rect.mem_set_unit]
  exact Iff.rfl

/-- Every index of the row-minimum output array is in the block of the point that is its row's tile. -/
theorem row_cover (i : S4x4096.Idx) :
    ∃ t : Fin cfg0.N, (cfg0.win 2).flush t = true ∧ i ∈ ((cfg0.win 2).blk t).view.set := by
  have hN : cfg0.N = 32 := N_0
  have hi0 : (i 0).val < 4 := (i 0).isLt
  have hi1 : (i 1).val < 4096 := (i 1).isLt
  refine ⟨⟨(i 1).val / 128, by rw [hN]; omega⟩, flush0_2 _, ?_⟩
  rw [row_mem_blk]
  obtain ⟨e0, e1⟩ := ridx0_2 ⟨(i 1).val / 128, by rw [hN]; omega⟩
  intro a
  match a with
  | ⟨0, _⟩ =>
    show win0_2.index _ (0 : Fin 2) * 4 ≤ (i 0).val ∧ (i 0).val < win0_2.index _ (0 : Fin 2) * 4 + 4
    rw [e0]; omega
  | ⟨1, _⟩ =>
    show win0_2.index _ (1 : Fin 2) * 128 ≤ (i 1).val ∧ (i 1).val < win0_2.index _ (1 : Fin 2) * 128 + 128
    rw [e1]; show (i 1).val / 128 * 128 ≤ (i 1).val ∧ (i 1).val < (i 1).val / 128 * 128 + 128; omega

/-- The row-minimum output array after the region: `rowG` of the two clouds. -/
theorem row_arr (c : Dev nD) : (dat0 V c).arrAt 2 cfg0.N = rowG (V c main_arg0) (V c main_arg2) :=
  (dat0 V c).arrAt_eq_of_cover 2 (rowG (V c main_arg0) (V c main_arg2)) (fun t _ => row_flushed V c t) row_cover

/-- The first kernel's row-minimum output, index by index: at `(b, n)` the infimum over `m` of the squared distance of
    row `n` of the first cloud and row `m` of the second. -/
theorem row_final (c : Dev nD) (b : Fin 4) (n : Fin 4096) :
    ((dat0 V c).arrAt 2 cfg0.N : S4x4096.Idx → EReal) (ix2 b n)
      = ⨅ m : Fin 4096,
          sq3 ((V c main_arg0 : S4x4096x3.Idx → EReal) (ix3 b n 0)) ((V c main_arg0 : S4x4096x3.Idx → EReal) (ix3 b n 1))
            ((V c main_arg0 : S4x4096x3.Idx → EReal) (ix3 b n 2)) ((V c main_arg2 : S4x4096x3.Idx → EReal) (ix3 b m 0))
            ((V c main_arg2 : S4x4096x3.Idx → EReal) (ix3 b m 1)) ((V c main_arg2 : S4x4096x3.Idx → EReal) (ix3 b m 2)) := by
  rw [row_arr V c]
  rfl

end

end Cert.KernelIdeal.Hand

end
-- ==== Proof.RowVal1.lean ====
/-
  The second kernel's output array after its region, index by index: every row of the `[4, 4096]` array holds the
  minimum over all rows of the one point cloud of the squared distance plus the diagonal penalty. Each grid point
  writes the block of 128 rows it was handed; the blocks tile the array.
-/
import proofs.«113848_j55319178772943_2_alg».proof.Proof.Reg0Data
import proofs.«113848_j55319178772943_2_alg».proof.Proof.Reg1Data
import proofs.«113848_j55319178772943_2_alg».proof.Proof.PayRead
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen Cert.KernelIdeal.PayRead

section
variable (V : (c : Dev nD) → (b : Ref sig .tc) → Buf (Elt Ideal) ((c : Thread nD τ).loc b))

/-- The value the second kernel leaves at row `n` of batch `b`: the infimum over all rows `m` of the squared distance of
    rows `n` and `m` of the one cloud `X`, the diagonal `m = n` raised by the first word. -/
def selfAt (X : S4x4096x3.Idx → EReal) (b : Fin 4) (n : Fin 4096) : EReal :=
  ⨅ m : Fin 4096, (sq3 (X (ix3 b n 0)) (X (ix3 b n 1)) (X (ix3 b n 2)) (X (ix3 b m 0)) (X (ix3 b m 1)) (X (ix3 b m 2))
    + (if n.val = m.val then Ideal.ofBits .f32 0x49742400#32 else Ideal.ofBits .f32 0x00000000#32))

/-- The same as an array over `[4, 4096]`. -/
def selfG (X : S4x4096x3.Idx → EReal) : S4x4096.Idx → EReal := fun j => selfAt X (j 0) (j 1)

/-- The grid is one axis: a point's coordinate is its number. -/
theorem coords1 : ∀ t : Fin cfg1.N, ((grid1.coords t) 0).val = t.val :=
  (by decide +kernel : ∀ t : Fin grid1.N, ((grid1.coords t) 0).val = t.val)

/-- The index maps, decided over the grid: the row-tile window and the output window are at block `t` of the row
    axis, the whole-cloud window at block 0. -/
theorem idx1_0 : ∀ t : Fin cfg1.N, win1_0.index t (0 : Fin 3) = 0 ∧ win1_0.index t (1 : Fin 3) = t.val ∧ win1_0.index t (2 : Fin 3) = 0 :=
  (by decide +kernel : ∀ t : Fin grid1.N, _)
theorem idx1_1 : ∀ t : Fin cfg1.N, win1_1.index t (0 : Fin 3) = 0 ∧ win1_1.index t (1 : Fin 3) = 0 ∧ win1_1.index t (2 : Fin 3) = 0 :=
  (by decide +kernel : ∀ t : Fin grid1.N, _)
theorem idx1_2 : ∀ t : Fin cfg1.N, win1_2.index t (0 : Fin 2) = 0 ∧ win1_2.index t (1 : Fin 2) = t.val :=
  (by decide +kernel : ∀ t : Fin grid1.N, _)

/-- The row-tile block at point `t` reads rows `128 t … 128 t + 127` of the cloud. -/
theorem iblk1_0_apply (c : Dev nD) (t : Fin cfg1.N) (b : Fin 4) (r : Fin 128) (k : Fin 3) (n : Fin 4096)
    (hn : n.val = 128 * t.val + r.val) :
    (iblk1 V c 0 t : Vec Ideal S4x128x3 .f32) (ix3 b r k) = (V c main_arg0 : S4x4096x3.Idx → EReal) (ix3 b n k) := by
  obtain ⟨e0, e1, e2⟩ := idx1_0 t
  unfold iblk1
  rw [View.read_apply]
  show V c main_arg0 _ = V c main_arg0 _
  congr 1
  funext a
  apply Fin.ext
  match a with
  | ⟨0, _⟩ => show win1_0.index t (0 : Fin 3) * 4 + 1 * b.val = b.val; rw [e0]; omega
  | ⟨1, _⟩ => show win1_0.index t (1 : Fin 3) * 128 + 1 * r.val = n.val; rw [e1, hn]; omega
  | ⟨2, _⟩ => show win1_0.index t (2 : Fin 3) * 3 + 1 * k.val = k.val; rw [e2]; omega

/-- The whole-cloud block at every point is the cloud. -/
theorem iblk1_1_apply (c : Dev nD) (t : Fin cfg1.N) (b : Fin 4) (m : Fin 4096) (k : Fin 3) :
    (iblk1 V c 1 t : Vec Ideal S4x4096x3 .f32) (ix3 b m k) = (V c main_arg0 : S4x4096x3.Idx → EReal) (ix3 b m k) := by
  obtain ⟨e0, e1, e2⟩ := idx1_1 t
  unfold iblk1
  rw [View.read_apply]
  show V c main_arg0 _ = V c main_arg0 _
  congr 1
  funext a
  apply Fin.ext
  match a with
  | ⟨0, _⟩ => show win1_1.index t (0 : Fin 3) * 4 + 1 * b.val = b.val; rw [e0]; omega
  | ⟨1, _⟩ => show win1_1.index t (1 : Fin 3) * 4096 + 1 * m.val = m.val; rw [e1]; omega
  | ⟨2, _⟩ => show win1_1.index t (2 : Fin 3) * 3 + 1 * k.val = k.val; rw [e2]; omega

/-- What point `t` writes back is block `t` of `selfG` of the cloud as the region finds it. -/
theorem self_flushed (c : Dev nD) (t : Fin cfg1.N) :
    (dat1 V c).flushed 2 t = ((cfg1.win 2).blk t).view.read (Elt Ideal) (selfG (V c main_arg0)) := by
  show (cfg1.win 2).cut (grid1.coords t) ((dat1 V c).after 2 t) = _
  rw [after1_2]
  funext j
  obtain ⟨b, r, rfl⟩ : ∃ (b : Fin 4) (r : Fin 128), j = ix2 b r := ⟨j 0, j 1, eq_ix2 j⟩
  have hx : (cfg1.win 2).xinj (grid1.coords t) (ix2 b r) = ix2 b r := by
    funext a
    match a with
    | ⟨0, _⟩ => rfl
    | ⟨1, _⟩ => rfl
  show k1_pay1 (grid1.coords t) (iblk1 V c 0 t) (iblk1 V c 1 t) ((cfg1.win 2).xinj (grid1.coords t) (ix2 b r)) = _
  rw [hx, View.read_apply]
  refine (k1_pay1_apply (grid1.coords t) (iblk1 V c 0 t) (iblk1 V c 1 t) b r).trans ?_
  obtain ⟨e0, e1⟩ := idx1_2 t
  have hN : cfg1.N = 32 := N_1
  have ht : t.val < 32 := hN ▸ t.isLt
  have hn : 128 * t.val + r.val < 4096 := by have := r.isLt; omega
  have hemb : ((cfg1.win 2).blk t).view.emb (ix2 b r) = ix2 b (⟨128 * t.val + r.val, hn⟩ : Fin 4096) := by
    funext a
    apply Fin.ext
    match a with
    | ⟨0, _⟩ => show win1_2.index t (0 : Fin 2) * 4 + 1 * b.val = b.val; rw [e0]; omega
    | ⟨1, _⟩ => show win1_2.index t (1 : Fin 2) * 128 + 1 * r.val = 128 * t.val + r.val; rw [e1]; omega
  rw [hemb]
  show _ = selfAt (V c main_arg0) b ⟨128 * t.val + r.val, hn⟩
  unfold selfAt
  refine iInf_congr fun m => ?_
  rw [iblk1_0_apply V c t b r 0 ⟨128 * t.val + r.val, hn⟩ rfl, iblk1_0_apply V c t b r 1 ⟨128 * t.val + r.val, hn⟩ rfl,
    iblk1_0_apply V c t b r 2 ⟨128 * t.val + r.val, hn⟩ rfl, iblk1_1_apply V c t b m 0, iblk1_1_apply V c t b m 1,
    iblk1_1_apply V c t b m 2, coords1 t]
  have hiff : (t.val * 128 + r.val = m.val) ↔ ((⟨128 * t.val + r.val, hn⟩ : Fin 4096).val = m.val) := by
    show (t.val * 128 + r.val = m.val) ↔ (128 * t.val + r.val = m.val)
    omega
  rw [if_congr hiff rfl rfl]

/-- An index of the output array is in point `t`'s block iff each coordinate is in the block's range on its axis. -/
theorem self_mem_blk (t : Fin cfg1.N) (i : S4x4096.Idx) :
    i ∈ ((cfg1.win 2).blk t).view.set ↔ ∀ a : Fin 2, win1_2.index t a * S4x128.size a ≤ (i a).val ∧ (i a).val < win1_2.index t a * S4x128.size a + S4x128.size a := by
  show i ∈ ((View.whole main_v6).slice (win1_2.rect t)).set ↔ _
  rw [View.set_slice_whole, Rect.mem_set_unit]
  exact Iff.rfl

/-- Every index of the output array is in the block of the point that is its row's tile. -/
theorem self_cover (i : S4x4096.Idx) :
    ∃ t : Fin cfg1.N, (cfg1.win 2).flush t = true ∧ i ∈ ((cfg1.win 2).blk t).view.set := by
  have hN : cfg1.N = 32 := N_1
  have hi0 : (i 0).val < 4 := (i 0).isLt
  have hi1 : (i 1).val < 4096 := (i 1).isLt
  refine ⟨⟨(i 1).val / 128, by rw [hN]; omega⟩, flush1_2 _, ?_⟩
  rw [self_mem_blk]
  obtain ⟨e0, e1⟩ := idx1_2 ⟨(i 1).val / 128, by rw [hN]; omega⟩
  intro a
  match a with
  | ⟨0, _⟩ =>
    show win1_2.index _ (0 : Fin 2) * 4 ≤ (i 0).val ∧ (i 0).val < win1_2.index _ (0 : Fin 2) * 4 + 4
    rw [e0]; omega
  | ⟨1, _⟩ =>
    show win1_2.index _ (1 : Fin 2) * 128 ≤ (i 1).val ∧ (i 1).val < win1_2.index _ (1 : Fin 2) * 128 + 128
    rw [e1]; show (i 1).val / 128 * 128 ≤ (i 1).val ∧ (i 1).val < (i 1).val / 128 * 128 + 128; omega

/-- The output array after the region: `selfG` of the cloud. -/
theorem self_arr (c : Dev nD) : (dat1 V c).arrAt 2 cfg1.N = selfG (V c main_arg0) :=
  (dat1 V c).arrAt_eq_of_cover 2 (selfG (V c main_arg0)) (fun t _ => self_flushed V c t) self_cover

/-- The second kernel's output, index by index: at `(b, n)` the infimum over `m` of the squared distance of rows `n` and
    `m` of the cloud plus the diagonal penalty. -/
theorem self_final (c : Dev nD) (b : Fin 4) (n : Fin 4096) :
    ((dat1 V c).arrAt 2 cfg1.N : S4x4096.Idx → EReal) (ix2 b n)
      = ⨅ m : Fin 4096,
          (sq3 ((V c main_arg0 : S4x4096x3.Idx → EReal) (ix3 b n 0)) ((V c main_arg0 : S4x4096x3.Idx → EReal) (ix3 b n 1))
              ((V c main_arg0 : S4x4096x3.Idx → EReal) (ix3 b n 2)) ((V c main_arg0 : S4x4096x3.Idx → EReal) (ix3 b m 0))
              ((V c main_arg0 : S4x4096x3.Idx → EReal) (ix3 b m 1)) ((V c main_arg0 : S4x4096x3.Idx → EReal) (ix3 b m 2))
            + (if n.val = m.val then Ideal.ofBits .f32 0x49742400#32 else Ideal.ofBits .f32 0x00000000#32)) := by
  rw [self_arr V c]
  rfl

end

end Cert.KernelIdeal.Hand

end
-- ==== Proof.ColVal0.lean ====
/-
  The column minimum of the first kernel region as a function of the whole arrays: after grid point
  t = 16·o + a the scratch holds, at (b, m), the infimum over the rows 2048·o ≤ n < 128·(t + 1) of the
  squared distance of row n of the first cloud and row m of the second; the two write-backs (at
  a = 15) fill the two halves of the output with the infima over the 2048 rows of each half.
-/
import proofs.«113848_j55319178772943_2_alg».proof.Proof.Reg0Data
import proofs.«113848_j55319178772943_2_alg».proof.Proof.PayRead
import Idealize.ShloMosaic.Lib.Pipeline.Value
import Idealize.ShloMosaic.Lib.ValueIdx

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen
open Idealize.ShloMosaic.ValueIdx
open Cert.KernelIdeal.PayRead (sq3)

/-! ## Infima over a range of rows -/

/-- The infimum of `f` over the positions `lo ≤ n < hi`. -/
def rangeInf {N : ℕ} (f : Fin N → EReal) (lo hi : ℕ) : EReal :=
  ⨅ n : {n : Fin N // lo ≤ n.val ∧ n.val < hi}, f n.1

/-- Two adjacent ranges: the minimum of their infima is the infimum over their union. -/
theorem rangeInf_split {N : ℕ} (f : Fin N → EReal) (lo mid hi : ℕ) (h1 : lo ≤ mid) (h2 : mid ≤ hi) :
    min (rangeInf f lo mid) (rangeInf f mid hi) = rangeInf f lo hi := by
  unfold rangeInf
  apply le_antisymm
  · refine le_iInf fun n => ?_
    by_cases h : n.1.val < mid
    · exact (min_le_left _ _).trans
        (iInf_le (fun n : {n : Fin N // lo ≤ n.val ∧ n.val < mid} => f n.1) ⟨n.1, n.2.1, h⟩)
    · exact (min_le_right _ _).trans
        (iInf_le (fun n : {n : Fin N // mid ≤ n.val ∧ n.val < hi} => f n.1) ⟨n.1, not_lt.mp h, n.2.2⟩)
  · refine le_min (le_iInf fun n => ?_) (le_iInf fun n => ?_)
    · exact iInf_le (fun n : {n : Fin N // lo ≤ n.val ∧ n.val < hi} => f n.1) ⟨n.1, n.2.1, lt_of_lt_of_le n.2.2 h2⟩
    · exact iInf_le (fun n : {n : Fin N // lo ≤ n.val ∧ n.val < hi} => f n.1) ⟨n.1, le_trans h1 n.2.1, n.2.2⟩

/-- A range of `K` positions from `lo`: the infimum over the offsets. -/
theorem rangeInf_block {N : ℕ} (f : Fin N → EReal) (lo K : ℕ) (h : lo + K ≤ N) :
    rangeInf f lo (lo + K) = ⨅ r : Fin K, f ⟨lo + r.val, by have := r.isLt; omega⟩ := by
  unfold rangeInf
  apply le_antisymm
  · refine le_iInf fun r => ?_
    exact iInf_le (fun n : {n : Fin N // lo ≤ n.val ∧ n.val < lo + K} => f n.1)
      ⟨⟨lo + r.val, by have := r.isLt; omega⟩, Nat.le_add_right _ _, by have := r.isLt; show lo + r.val < lo + K; omega⟩
  · refine le_iInf fun n => ?_
    have hn1 := n.2.1
    have hn2 := n.2.2
    refine (iInf_le (fun r : Fin K => f ⟨lo + r.val, by have := r.isLt; omega⟩) ⟨n.1.val - lo, by omega⟩).trans
      (le_of_eq (congrArg f (Fin.ext ?_)))
    show lo + (n.1.val - lo) = n.1.val
    omega

/-- The minimum of the infima over the two halves of 4096 positions is the infimum over all of them. -/
theorem min_halves (f : Fin 4096 → EReal) :
    min (⨅ r : Fin 2048, f ⟨r.val, by have := r.isLt; omega⟩) (⨅ r : Fin 2048, f ⟨2048 + r.val, by have := r.isLt; omega⟩)
      = ⨅ n : Fin 4096, f n := by
  apply le_antisymm
  · refine le_iInf fun n => ?_
    by_cases h : n.val < 2048
    · exact (min_le_left _ _).trans
        (iInf_le (fun r : Fin 2048 => f ⟨r.val, by have := r.isLt; omega⟩) ⟨n.val, h⟩)
    · refine (min_le_right _ _).trans
        ((iInf_le (fun r : Fin 2048 => f ⟨2048 + r.val, by have := r.isLt; omega⟩) ⟨n.val - 2048, by have := n.isLt; omega⟩).trans
          (le_of_eq (congrArg f (Fin.ext ?_))))
      show 2048 + (n.val - 2048) = n.val
      omega
  · exact le_min (le_iInf fun r => iInf_le f _) (le_iInf fun r => iInf_le f _)

/-! ## The geometry of the windows -/

variable (V : (c : Dev nD) → (b : Ref sig .tc) → Buf (Elt Ideal) ((c : Thread nD τ).loc b))

/-- The first cloud's window: block (0, t, 0) at point t. -/
theorem idx0_0 : ∀ t : Fin cfg0.N, win0_0.index t (0 : Fin 3) = 0 ∧ win0_0.index t (1 : Fin 3) = t.val
    ∧ win0_0.index t (2 : Fin 3) = 0 :=
  (by decide +kernel : ∀ t : Fin grid0.N, _)

/-- The second cloud's window: the whole array at every point. -/
theorem idx0_1 : ∀ t : Fin cfg0.N, win0_1.index t (0 : Fin 3) = 0 ∧ win0_1.index t (1 : Fin 3) = 0
    ∧ win0_1.index t (2 : Fin 3) = 0 :=
  (by decide +kernel : ∀ t : Fin grid0.N, _)

/-- The column-minimum output's window: block (t / 16, 0, 0) at point t. -/
theorem idx0_3 : ∀ t : Fin cfg0.N, win0_3.index t (0 : Fin 3) = t.val / 16 ∧ win0_3.index t (1 : Fin 3) = 0
    ∧ win0_3.index t (2 : Fin 3) = 0 :=
  (by decide +kernel : ∀ t : Fin grid0.N, _)

/-- The first cloud's block at point t reads rows 128·t + r of the array. -/
theorem blk0_apply (c : Dev nD) (t : Fin cfg0.N) (b : Fin 4) (r : Fin 128) (d : Fin 3) :
    iblk0 V c 0 t (ix3 b r d)
      = V c main_arg0 (ix3 b (⟨128 * t.val + r.val, by have := t.isLt; have : cfg0.N = 32 := N_0; have := r.isLt; omega⟩ : Fin 4096) d) := by
  obtain ⟨e0, e1, e2⟩ := idx0_0 t
  unfold iblk0
  rw [View.read_apply]
  show V c main_arg0 _ = V c main_arg0 _
  congr 1
  funext a
  apply Fin.ext
  match a with
  | ⟨0, _⟩ => show win0_0.index t (0 : Fin 3) * 4 + 1 * b.val = b.val; rw [e0]; omega
  | ⟨1, _⟩ => show win0_0.index t (1 : Fin 3) * 128 + 1 * r.val = 128 * t.val + r.val; rw [e1]; omega
  | ⟨2, _⟩ => show win0_0.index t (2 : Fin 3) * 3 + 1 * d.val = d.val; rw [e2]; omega

/-- The second cloud's block at any point is the array. -/
theorem blk1_apply (c : Dev nD) (t : Fin cfg0.N) (b : Fin 4) (m : Fin 4096) (d : Fin 3) :
    iblk0 V c 1 t (ix3 b m d) = V c main_arg2 (ix3 b m d) := by
  obtain ⟨e0, e1, e2⟩ := idx0_1 t
  unfold iblk0
  rw [View.read_apply]
  show V c main_arg2 _ = V c main_arg2 _
  congr 1
  funext a
  apply Fin.ext
  match a with
  | ⟨0, _⟩ => show win0_1.index t (0 : Fin 3) * 4 + 1 * b.val = b.val; rw [e0]; omega
  | ⟨1, _⟩ => show win0_1.index t (1 : Fin 3) * 4096 + 1 * m.val = m.val; rw [e1]; omega
  | ⟨2, _⟩ => show win0_1.index t (2 : Fin 3) * 3 + 1 * d.val = d.val; rw [e2]; omega

/-! ## The running column minimum -/

/-- The squared distance of row `n` of the first cloud and row `m` of the second, in batch `b`. -/
def dist0 (c : Dev nD) (b : Fin 4) (m : Fin 4096) (n : Fin 4096) : EReal :=
  sq3 (V c main_arg0 (ix3 b n 0)) (V c main_arg0 (ix3 b n 1)) (V c main_arg0 (ix3 b n 2))
    (V c main_arg2 (ix3 b m 0)) (V c main_arg2 (ix3 b m 1)) (V c main_arg2 (ix3 b m 2))

/-- The column minimum of the tile of point t: the infimum over the tile's 128 rows. -/
theorem colBlock_apply (c : Dev nD) (t : Fin cfg0.N) (b : Fin 4) (m : Fin 4096) :
    k0_pay5 (iblk0 V c 0 t) (iblk0 V c 1 t) (ix2 b m)
      = rangeInf (dist0 V c b m) (128 * t.val) (128 * t.val + 128) := by
  have hN : cfg0.N = 32 := N_0
  have ht := t.isLt
  rw [rangeInf_block _ _ _ (by omega)]
  refine (PayRead.pay5_apply (iblk0 V c 0 t) (iblk0 V c 1 t) b m).trans ?_
  refine iInf_congr fun r => ?_
  refine (PayRead.pay3_apply (iblk0 V c 0 t) (iblk0 V c 1 t) b r m).trans ?_
  rw [blk0_apply V c t b r 0, blk0_apply V c t b r 1, blk0_apply V c t b r 2, blk1_apply V c t b m 0,
    blk1_apply V c t b m 1, blk1_apply V c t b m 2]
  rfl

/-- After point k the scratch holds, at (b, m), the infimum of the distances over the rows of the half so far. -/
theorem acc0_range (c : Dev nD) (b : Fin 4) (m : Fin 4096) : ∀ (k : ℕ) (hk : k < cfg0.N),
    acc0 V c k hk (ix2 b m) = rangeInf (dist0 V c b m) (2048 * (k / 16)) (128 * (k + 1))
  | 0, hk => by
    have e := acc0_first V c ⟨0, hk⟩ rfl
    refine (congrFun e (ix2 b m)).trans ?_
    rw [PayRead.pay6_eq]
    exact colBlock_apply V c ⟨0, hk⟩ b m
  | k + 1, hk => by
    by_cases h : (k + 1) % 16 = 0
    · have e := acc0_first V c ⟨k + 1, hk⟩ h
      refine (congrFun e (ix2 b m)).trans ?_
      rw [PayRead.pay6_eq]
      refine (colBlock_apply V c ⟨k + 1, hk⟩ b m).trans ?_
      have e1 : 128 * (k + 1) = 2048 * ((k + 1) / 16) := by omega
      have e2 : 128 * (k + 1) + 128 = 128 * (k + 1 + 1) := by omega
      show rangeInf (dist0 V c b m) (128 * (k + 1)) (128 * (k + 1) + 128) = _
      rw [e2, ← e1]
    · have e := acc0_next V c ⟨k + 1, hk⟩ h
      refine (congrFun e (ix2 b m)).trans ?_
      refine (PayRead.pay1_apply _ _ b m).trans ?_
      rw [colBlock_apply V c ⟨k + 1, hk⟩ b m]
      have ih := acc0_range c b m k (Nat.lt_of_succ_lt hk)
      show min (acc0 V c k _ (ix2 b m)) (rangeInf (dist0 V c b m) (128 * (k + 1)) (128 * (k + 1) + 128)) = _
      rw [ih]
      have e1 : 2048 * (k / 16) = 2048 * ((k + 1) / 16) := by omega
      have e2 : 128 * (k + 1) + 128 = 128 * (k + 1 + 1) := by omega
      rw [e1, e2]
      exact rangeInf_split _ _ _ _ (by omega) (by omega)

/-- The scratch after point t, read at (b, m). -/
theorem acc0_apply (c : Dev nD) (t : Fin cfg0.N) (b : Fin 4) (m : Fin 4096) :
    acc0 V c t.val t.isLt (ix2 b m)
      = ⨅ n : {n : Fin 4096 // 2048 * (t.val / 16) ≤ n.val ∧ n.val < 128 * (t.val + 1)}, dist0 V c b m n.1 :=
  acc0_range V c b m t.val t.isLt

/-! ## The column-minimum output after the region -/

/-- The infimum of the distances to column `m` over the 2048 rows of half `o`. -/
def colHalf (c : Dev nD) (o : Fin 2) (b : Fin 4) (m : Fin 4096) : EReal :=
  ⨅ r : Fin 2048, dist0 V c b m ⟨2048 * o.val + r.val, by have := o.isLt; have := r.isLt; omega⟩

/-- The contents the column-minimum output ends holding: at (o, b, m) the infimum over the rows of half `o`. -/
def colG (c : Dev nD) : Buf (Elt Ideal) ((c : Thread nD τ).loc main_v0_1) :=
  fun i => colHalf V c ⟨(i 0).val, (i 0).isLt⟩ ⟨(i 1).val, (i 1).isLt⟩ ⟨(i 2).val, (i 2).isLt⟩

theorem colG_apply (c : Dev nD) (o : Fin 2) (b : Fin 4) (m : Fin 4096) : colG V c (ix3 o b m) = colHalf V c o b m := rfl

/-- Where the output's block at point t sits in the array: (0, b, m) of the block is (t / 16, b, m) of the array. -/
theorem emb3_apply (t : Fin cfg0.N) (b : Fin 4) (m : Fin 4096) :
    ((cfg0.win 3).blk t).view.emb (ix3 (0 : Fin 1) b m)
      = ix3 (⟨t.val / 16, by have := t.isLt; have : cfg0.N = 32 := N_0; omega⟩ : Fin 2) b m := by
  obtain ⟨e0, e1, e2⟩ := idx0_3 t
  funext a
  apply Fin.ext
  match a with
  | ⟨0, _⟩ => show win0_3.index t (0 : Fin 3) * 1 + 1 * 0 = t.val / 16; rw [e0]; omega
  | ⟨1, _⟩ => show win0_3.index t (1 : Fin 3) * 4 + 1 * b.val = b.val; rw [e1]; omega
  | ⟨2, _⟩ => show win0_3.index t (2 : Fin 3) * 4096 + 1 * m.val = m.val; rw [e2]; omega

/-- What a write-back of the column-minimum output writes is its block of `colG`. -/
theorem flushed3_eq (c : Dev nD) (t : Fin cfg0.N) (hf : (cfg0.win 3).flush t = true) :
    (dat0 V c).flushed 3 t = ((cfg0.win 3).blk t).view.read (Elt Ideal) (colG V c) := by
  have hN : cfg0.N = 32 := N_0
  have ht := t.isLt
  have h15 : t.val % 16 = 15 := (flush0_3 t).mp hf
  show (cfg0.win 3).cut (grid0.coords t) ((dat0 V c).after 3 t) = _
  rw [after0_3]
  funext j
  obtain ⟨u, b, m, rfl⟩ : ∃ (u : Fin 1) (b : Fin 4) (m : Fin 4096), j = ix3 u b m := ⟨j 0, j 1, j 2, eq_ix3 j⟩
  obtain rfl : u = 0 := Subsingleton.elim _ _
  rw [View.read_apply, emb3_apply]
  show k0_pay2 (acc0 V c t.val t.isLt) (ix3 (0 : Fin 1) b m) = colHalf V c _ b m
  rw [PayRead.pay2_apply, acc0_range V c b m t.val t.isLt]
  have e : 128 * (t.val + 1) = 2048 * (t.val / 16) + 2048 := by omega
  rw [e, rangeInf_block _ _ _ (by omega)]
  rfl

/-- Every position of the output is in the block of one of the two write-backs. -/
theorem cover3 (i : S2x4x4096.Idx) :
    ∃ t : Fin cfg0.N, (cfg0.win 3).flush t = true ∧ i ∈ ((cfg0.win 3).blk t).view.set := by
  have hN : cfg0.N = 32 := N_0
  have h0 : (i 0 : Nat) < 2 := (i 0).isLt
  have h1 : (i 1 : Nat) < 4 := (i 1).isLt
  have h2 : (i 2 : Nat) < 4096 := (i 2).isLt
  have hlt : 16 * (i 0).val + 15 < cfg0.N := by omega
  obtain ⟨t, htv⟩ : ∃ t : Fin cfg0.N, t.val = 16 * (i 0).val + 15 := ⟨⟨_, hlt⟩, rfl⟩
  obtain ⟨e0, e1, e2⟩ := idx0_3 t
  refine ⟨t, (flush0_3 t).mpr (by omega), ?_⟩
  show i ∈ ((View.whole main_v0_1).slice (win0_3.rect t)).set
  rw [View.set_slice_whole, Rect.mem_set_unit]
  intro a
  match a with
  | ⟨0, _⟩ =>
    show win0_3.index t (0 : Fin 3) * 1 ≤ (i 0 : Nat) ∧ (i 0 : Nat) < win0_3.index t (0 : Fin 3) * 1 + 1
    rw [e0]; omega
  | ⟨1, _⟩ =>
    show win0_3.index t (1 : Fin 3) * 4 ≤ (i 1 : Nat) ∧ (i 1 : Nat) < win0_3.index t (1 : Fin 3) * 4 + 4
    rw [e1]; omega
  | ⟨2, _⟩ =>
    show win0_3.index t (2 : Fin 3) * 4096 ≤ (i 2 : Nat) ∧ (i 2 : Nat) < win0_3.index t (2 : Fin 3) * 4096 + 4096
    rw [e2]; omega

/-- The column-minimum output after the region's last point is `colG`. -/
theorem col_final_eq (c : Dev nD) : (dat0 V c).arrAt 3 cfg0.N = colG V c :=
  (dat0 V c).arrAt_eq_of_cover 3 (colG V c) (flushed3_eq V c) (fun i => cover3 i)

/-- Read at (o, b, m): the infimum of the distances to column m over the 2048 rows of half o. -/
theorem col_final (c : Dev nD) (o : Fin 2) (b : Fin 4) (m : Fin 4096) :
    (dat0 V c).arrAt 3 cfg0.N (ix3 o b m)
      = ⨅ r : Fin 2048, dist0 V c b m ⟨2048 * o.val + r.val, by have := o.isLt; have := r.isLt; omega⟩ := by
  rw [col_final_eq]
  rfl

/-- The two halves of the column-minimum output together: their minimum at (b, m) is the infimum of the distances to
    column m over all 4096 rows. -/
theorem colMin_all (c : Dev nD) (b : Fin 4) (m : Fin 4096) :
    @min EReal _ ((dat0 V c).arrAt 3 cfg0.N (ix3 (0 : Fin 2) b m)) ((dat0 V c).arrAt 3 cfg0.N (ix3 (1 : Fin 2) b m))
      = ⨅ n : Fin 4096, dist0 V c b m n := by
  rw [col_final, col_final, ← min_halves (dist0 V c b m)]
  refine congrArg₂ min (iInf_congr fun r => congrArg (dist0 V c b m) (Fin.ext ?_))
    (iInf_congr fun r => congrArg (dist0 V c b m) (Fin.ext ?_))
  · show 2048 * 0 + r.val = r.val; omega
  · show 2048 * 1 + r.val = 2048 + r.val; omega

end Cert.KernelIdeal.Hand

end
-- ==== Proof.HostVal.lean ====
import proofs.«113848_j55319178772943_2_alg».proof.Proof.Gen.KernelIdeal.Launch
import proofs.«113848_j55319178772943_2_alg».proof.Proof.Gen.KernelIdeal.Skeleton
import proofs.«113848_j55319178772943_2_alg».proof.Proof.Gen.KernelIdeal.Points
import proofs.«113848_j55319178772943_2_alg».proof.Proof.RefTerms
import Idealize.ShloMosaic.Lib.Pipeline.FrameBody
import Idealize.ShloMosaic.Lib.Ring
import Idealize.ShloMosaic.Lib.Tactic
import Idealize.ShloMosaic.Lib.Pipeline.Value
import Idealize.ShloMosaic.Lib.StableHlo.Run
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

/-! # The host lines of the program as pure values

Between the two kernels the program joins the two halves of the running column minimum by a
pointwise minimum; after them it takes the means, the regulariser, the standard deviation and the
weighted total. Each stretch of host lines is a fold of pure operations over the buffer
contents, read here at the one buffer it is wanted at, for any contents of the buffers. -/

/-- The pointwise minimum of the two leading slices of a `[2, 4, 4096]` array, each cast to
    `[4, 4096]`. -/
def joinOf (C : FVec F S2x4x4096 .f32) : FVec F S4x4096 .f32 :=
  minimumf
    (shapeCast S4x4096 (extractStridedSlice S1x4x4096 ![0, 0, 0] C slices_S2x4x4096_S1x4x4096_0_0_0) shapeCasts_S1x4x4096_S4x4096)
    (shapeCast S4x4096 (extractStridedSlice S1x4x4096 ![1, 0, 0] C slices_S2x4x4096_S1x4x4096_1_0_0) shapeCasts_S1x4x4096_S4x4096)

/-- After the first stretch, the joined buffer holds the pointwise minimum of the two slices of
    the second output of the first kernel. -/
theorem join_val (W : Valuation τ sig (Elt F)) :
    StableHlo.after (hostOps1 (F := F)) W (Proc.devRef .tc main_v5)
      = (minimumf
          (shapeCast S4x4096 (extractStridedSlice S1x4x4096 ![0, 0, 0] (W (Proc.devRef .tc main_v0_1)) slices_S2x4x4096_S1x4x4096_0_0_0) shapeCasts_S1x4x4096_S4x4096)
          (shapeCast S4x4096 (extractStridedSlice S1x4x4096 ![1, 0, 0] (W (Proc.devRef .tc main_v0_1)) slices_S2x4x4096_S1x4x4096_1_0_0) shapeCasts_S1x4x4096_S4x4096)
          : FVec F S4x4096 .f32) := by
  after_results; rfl

/-- The same, through the named term. -/
theorem join_val' (W : Valuation τ sig (Elt F)) :
    StableHlo.after (hostOps1 (F := F)) W (Proc.devRef .tc main_v5) = joinOf (W (Proc.devRef .tc main_v0_1)) :=
  join_val W

/-- One leading slice of a `[2, 4, 4096]` array cast to `[4, 4096]`, read at `(b, m)`: the array
    at `(k, b, m)`. -/
theorem slice_cast_apply {α : Type} (C : S2x4x4096.Idx → α) (k : Fin 2) (h : S2x4x4096.Slices ![k.val, 0, 0] S1x4x4096)
    (b : Fin 4) (m : Fin 4096) :
    shapeCast S4x4096 (extractStridedSlice S1x4x4096 ![k.val, 0, 0] C h) shapeCasts_S1x4x4096_S4x4096 (ix2 b m)
      = C (ix3 k b m) := by
  rw [shapeCast_1ab_ab_apply]
  exact extractStridedSlice_apply _ C h _ (ix3 k b m) (fun a => by fin_cases a <;> simp [ix3])

/-- At the exact instance the joined value at `(b, m)` is the smaller of the two slices there. -/
theorem joinOf_apply (C : FVec Ideal S2x4x4096 .f32) (b : Fin 4) (m : Fin 4096) :
    joinOf C (ix2 b m) = min (C (ix3 (0 : Fin 2) b m)) (C (ix3 (1 : Fin 2) b m)) := by
  unfold joinOf
  rw [minimumf_apply]
  exact congrArg₂ min (slice_cast_apply C 0 slices_S2x4x4096_S1x4x4096_0_0_0 b m)
    (slice_cast_apply C 1 slices_S2x4x4096_S1x4x4096_1_0_0 b m)

/-- At the exact instance, after the first stretch the joined buffer (named `J`) at `(b, m)` holds
    the smaller of the two slices there of the first kernel's second output (named `C`). -/
theorem join_val_ideal (W : Valuation τ sig (Elt Ideal)) (C : FVec Ideal S2x4x4096 .f32)
    (hC : W (Proc.devRef .tc main_v0_1) = C) (J : FVec Ideal S4x4096 .f32)
    (hJ : StableHlo.after (hostOps1 (F := Ideal)) W (Proc.devRef .tc main_v5) = J) (b : Fin 4) (m : Fin 4096) :
    J (ix2 b m) = min (C (ix3 (0 : Fin 2) b m)) (C (ix3 (1 : Fin 2) b m)) := by
  have e : J = joinOf C := by rw [← hJ, ← hC]; exact join_val' W
  rw [e]; exact joinOf_apply C b m

set_option maxHeartbeats 4000000 in
/-- After the three stretches that follow the kernels, the result buffer holds the weighted total
    of the reference's tail, taken at the three minima the kernels and the join left and at the
    four argument arrays the host lines read. -/
theorem tail_val (W : Valuation τ sig (Elt F)) :
    StableHlo.after (hostOps2_2 (F := F)) (StableHlo.after (hostOps2_1 (F := F)) (StableHlo.after (hostOps2 (F := F)) W))
        (Proc.devRef .tc main_v37)
      = Cert.ReferenceIdeal.HandRun.refTail (F := F) (W (Proc.devRef .tc main_v0_0)) (W (Proc.devRef .tc main_v5))
          (W (Proc.devRef .tc main_v6)) (W (Proc.devRef .tc main_arg1)) (W (Proc.devRef .tc main_arg3))
          (W (Proc.devRef .tc main_arg4)) (W (Proc.devRef .tc main_arg5)) := by
  after_results_simp
  rfl

end Cert.KernelIdeal.Hand

end
-- ==== Proof.KVal.lean ====
/-
  The kernel program's result at the exact (extended-real) values, as the reference's tail of three minimum arrays
  of the launch arguments: the row minimum and the column minimum of the squared distances of the two clouds, and
  the row minimum of the first cloud's penalised self distances.
-/
import proofs.«113848_j55319178772943_2_alg».proof.Proof.Run
import proofs.«113848_j55319178772943_2_alg».proof.Proof.RowVal0
import proofs.«113848_j55319178772943_2_alg».proof.Proof.RowVal1
import proofs.«113848_j55319178772943_2_alg».proof.Proof.ColVal0
import proofs.«113848_j55319178772943_2_alg».proof.Proof.HostVal

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal Cert.KernelIdeal.Gen
open Cert.KernelIdeal.PayRead (sq3)

/-- The column minimum over ALL rows: at `(b, m)` the infimum over the rows `n` of the first cloud `X` of the squared
    distance to row `m` of the second cloud `Y`. -/
def colAll (X Y : S4x4096x3.Idx → EReal) : S4x4096.Idx → EReal := fun j =>
  ⨅ n : Fin 4096, sq3 (X (ix3 (j 0) n 0)) (X (ix3 (j 0) n 1)) (X (ix3 (j 0) n 2))
    (Y (ix3 (j 0) (j 1) 0)) (Y (ix3 (j 0) (j 1) 1)) (Y (ix3 (j 0) (j 1) 2))

section
variable (m : (ℓ : Loc nD τ sig) → Buf (Elt Ideal) ℓ)

/-- A buffer the second region does not write back and the joining host lines do not write holds, after the second
    region, what the first region left. -/
theorem W3_of (c : Dev nD) (r : Ref sig .tc) (h6 : r ≠ main_v6) (h1 : r ∉ hostOps1_W) :
    W3 m c (Proc.devRef .tc r) = W1 m c (Proc.devRef .tc r) :=
  (U3_of_ne m c r h6).trans (StableHlo.after_of_writes_sub hostOps1 _ hostOps1_writes h1)

/-- An argument is, after the second region, as launched. -/
theorem W3_arg (c : Dev nD) (r : Ref sig .tc) (h6 : r ≠ main_v6) (h1 : r ∉ hostOps1_W)
    (h0 : W1 m c (Proc.devRef .tc r) = W0 m c (Proc.devRef .tc r)) :
    W3 m c (Proc.devRef .tc r) = m ((c : Thread nD τ).loc r) :=
  (W3_of m c r h6 h1).trans (h0.trans rfl)

/-- The row-minimum output of the first kernel, after the second region. -/
theorem W3_row (c : Dev nD) :
    W3 m c (Proc.devRef .tc main_v0_0)
      = rowG (m ((c : Thread nD τ).loc main_arg0)) (m ((c : Thread nD τ).loc main_arg2)) :=
  (W3_of m c main_v0_0 (by decide) (by decide)).trans ((W1_arr m c 2).trans (row_arr (U0 m) c))

/-- The first cloud as the second region finds it is the launch argument. -/
theorem U2_arg0 (c : Dev nD) : U2 m c main_arg0 = m ((c : Thread nD τ).loc main_arg0) :=
  (StableHlo.after_of_writes_sub hostOps1 _ hostOps1_writes (by decide)).trans ((W1_in m c 0 rfl).trans rfl)

/-- The second kernel's output, after its region. -/
theorem W3_self (c : Dev nD) :
    W3 m c (Proc.devRef .tc main_v6) = selfG (m ((c : Thread nD τ).loc main_arg0)) := by
  refine (U3_v6 m c).trans ((self_arr (U2 m) c).trans ?_)
  rw [U2_arg0 m c]

/-- The joined column minimum, after the second region: the minimum over all rows. -/
theorem W3_col (c : Dev nD) :
    W3 m c (Proc.devRef .tc main_v5)
      = colAll (m ((c : Thread nD τ).loc main_arg0)) (m ((c : Thread nD τ).loc main_arg2)) := by
  refine (U3_of_ne m c main_v5 (by decide)).trans ?_
  funext j
  obtain ⟨b, k, rfl⟩ : ∃ (b : Fin 4) (k : Fin 4096), j = ix2 b k := ⟨j 0, j 1, eq_ix2 j⟩
  refine (join_val_ideal (W1 m c) ((dat0 (U0 m) c).arrAt 3 cfg0.N) (W1_arr m c 3) (U2 m c main_v5) rfl b k).trans ?_
  exact colMin_all (U0 m) c b k

/-- THE KERNEL PROGRAM'S RESULT: the reference's tail at the three minimum arrays of the launch arguments and at the
    four arguments the host lines read. -/
theorem kernel_val (c : Dev nD) :
    W6 m c (Proc.devRef .tc main_v37)
      = Cert.ReferenceIdeal.HandRun.refTail (F := Ideal)
          (rowG (m ((c : Thread nD τ).loc main_arg0)) (m ((c : Thread nD τ).loc main_arg2)))
          (colAll (m ((c : Thread nD τ).loc main_arg0)) (m ((c : Thread nD τ).loc main_arg2)))
          (selfG (m ((c : Thread nD τ).loc main_arg0)))
          (m ((c : Thread nD τ).loc main_arg1)) (m ((c : Thread nD τ).loc main_arg3))
          (m ((c : Thread nD τ).loc main_arg4)) (m ((c : Thread nD τ).loc main_arg5)) := by
  refine (tail_val (W3 m c)).trans ?_
  rw [W3_row m c, W3_col m c, W3_self m c,
    W3_arg m c main_arg1 (by decide) (by decide) (W1_of_ne m c main_arg1 (by decide)),
    W3_arg m c main_arg3 (by decide) (by decide) (W1_of_ne m c main_arg3 (by decide)),
    W3_arg m c main_arg4 (by decide) (by decide) (W1_of_ne m c main_arg4 (by decide)),
    W3_arg m c main_arg5 (by decide) (by decide) (W1_of_ne m c main_arg5 (by decide))]

end

end Cert.KernelIdeal.Hand

end
-- ==== Proof.RefRead.lean ====
/-
  The reference's distance term read at an index, at the ideal (extended-real) values: the two
  minimum reductions as infima over an axis, the expanded squared distance |x|² + |y|² − 2·⟨x,y⟩
  as sums over the three coordinates, and the diagonal penalty as an `if` on the two positions.
-/
import proofs.«113848_j55319178772943_2_alg».proof.ReferenceIdeal
import Idealize.ShloMosaic.Lib.ValueIdx
import Idealize.ShloMosaic.Lib.ValueLayout
import Idealize.ShloMosaic.Lib.Pipeline.Value
import Idealize.ShloMosaic.PureOps.Ideal.Laws
import Idealize.ShloMosaic.Lib.ReduceAll

noncomputable section

namespace Cert.ReferenceIdeal.RefRead

open Idealize.ShloMosaic Idealize.ShloMosaic.ValueIdx
open scoped BigOperators
open Facts₀

variable [Facts₀]

/-- The f32 word of +∞ is the top extended real. -/
theorem ofBits_inf_f32 : Ideal.ofBits .f32 0x7F800000#32 = (⊤ : EReal) := by simp [Ideal.ofBits, Ideal.ieee]

/-- A fold of `min` from `⊤` over every coordinate of an axis is the infimum over that axis. -/
theorem fold_min_top_eq_iInf {n : Nat} (f : Fin n → EReal) :
    (Finset.univ : Finset (Fin n)).fold min (⊤ : EReal) f = ⨅ k, f k := by
  rw [← Finset.inf_univ_eq_iInf]; rfl

/-- The reduced index (b, n) with coordinate `k` put back on the last axis is (b, n, k). -/
theorem lift_d2 (h : S4x4096x4096.Reduces [2] S4x4096) (b : Fin 4) (n : Fin 4096) (k : Fin (S4x4096x4096.size 2)) :
    h.lift (ix2 b n) k = ix3 b n (⟨k.val, k.isLt⟩ : Fin 4096) := by
  funext c; apply Fin.ext
  fin_cases c <;> rfl

/-- The reduced index (b, m) with coordinate `k` put back on the middle axis is (b, k, m). -/
theorem lift_d1 (h : S4x4096x4096.Reduces [1] S4x4096) (b : Fin 4) (m : Fin 4096) (k : Fin (S4x4096x4096.size 1)) :
    h.lift (ix2 b m) k = ix3 b (⟨k.val, k.isLt⟩ : Fin 4096) m := by
  funext c; apply Fin.ext
  fin_cases c <;> rfl

/-- The minimum over the last axis from +∞, read at (b, n): the infimum over m of the entries (b, n, m). -/
theorem rowMin_apply (D : FVec Ideal S4x4096x4096 .f32) (b : Fin 4) (n : Fin 4096) :
    Host.reduce FloatOps.minimumf D (constant (F := Ideal) S_ .f32 0x7F800000#32) reducesTo_S4x4096x4096_S4x4096_d2 h_S_ (ix2 b n)
      = ⨅ m : Fin 4096, D (ix3 b n m) := by
  have h : S4x4096x4096.Reduces [2] S4x4096 := by decide
  rw [Host.reduce_eq_fold_single FloatOps.minimumf D _ reducesTo_S4x4096x4096_S4x4096_d2 h h_S_]
  have hf : (D ∘ h.lift (ix2 b n)) = fun k : Fin 4096 => D (ix3 b n k) := funext fun k => congrArg D (lift_d2 h b n k)
  refine Eq.trans ?_ (fold_min_top_eq_iInf fun k : Fin 4096 => D (ix3 b n k))
  refine Eq.trans (congrArg (fun f => Finset.fold min (Ideal.ofBits .f32 0x7F800000#32) f (Finset.univ : Finset (Fin 4096))) hf) ?_
  rw [ofBits_inf_f32]

/-- The minimum over the middle axis from +∞, read at (b, m): the infimum over n of the entries (b, n, m). -/
theorem colMin_apply (D : FVec Ideal S4x4096x4096 .f32) (b : Fin 4) (m : Fin 4096) :
    Host.reduce FloatOps.minimumf D (constant (F := Ideal) S_ .f32 0x7F800000#32) reducesTo_S4x4096x4096_S4x4096_d1 h_S_ (ix2 b m)
      = ⨅ n : Fin 4096, D (ix3 b n m) := by
  have h : S4x4096x4096.Reduces [1] S4x4096 := by decide
  rw [Host.reduce_eq_fold_single FloatOps.minimumf D _ reducesTo_S4x4096x4096_S4x4096_d1 h h_S_]
  have hf : (D ∘ h.lift (ix2 b m)) = fun k : Fin 4096 => D (ix3 b k m) := funext fun k => congrArg D (lift_d1 h b m k)
  refine Eq.trans ?_ (fold_min_top_eq_iInf fun k : Fin 4096 => D (ix3 b k m))
  refine Eq.trans (congrArg (fun f => Finset.fold min (Ideal.ofBits .f32 0x7F800000#32) f (Finset.univ : Finset (Fin 4096))) hf) ?_
  rw [ofBits_inf_f32]

/-! ## The expanded squared distance -/

/-- The reduced index (b, n) with coordinate `k` put back on the last of the three coordinate axes is (b, n, k). -/
theorem lift_c2 (h : S4x4096x3.Reduces [2] S4x4096) (b : Fin 4) (n : Fin 4096) (k : Fin (S4x4096x3.size 2)) :
    h.lift (ix2 b n) k = ix3 b n (⟨k.val, k.isLt⟩ : Fin 3) := by
  funext c; apply Fin.ext
  fin_cases c <;> rfl

/-- A sum over the coordinate axis from the zero word, read at (b, n): zero plus the sum of the three entries. -/
theorem sumLast_apply (v : FVec Ideal S4x4096x3 .f32) (b : Fin 4) (n : Fin 4096) :
    Host.reduceAdd (F := Ideal) v (constant (F := Ideal) S_ .f32 0x00000000#32) reducesTo_S4x4096x3_S4x4096_d2 h_S_ (ix2 b n)
      = 0 + ∑ d : Fin 3, v (ix3 b n d) := by
  have h : S4x4096x3.Reduces [2] S4x4096 := by decide
  show Ideal.hostReduceAdd reducesTo_S4x4096x3_S4x4096_d2 v (Ideal.ofBits .f32 0x00000000#32) (ix2 b n) = _
  rw [Ideal.hostReduceAdd_single reducesTo_S4x4096x3_S4x4096_d2 h, Ideal.ofBits_zero_f32]
  exact congrArg (fun s : EReal => 0 + s)
    (Finset.sum_congr rfl fun k _ => congrArg v (lift_c2 h b n k) : (∑ k : Fin 3, v (h.lift (ix2 b n) k)) = ∑ d : Fin 3, v (ix3 b n d))

/-- A per-row value laid along the third axis: (b, n, m) reads the value at (b, n). -/
theorem bcastRow_apply (v : FVec Ideal S4x4096 .f32) (b : Fin 4) (n m : Fin 4096) :
    broadcastInDim S4x4096x4096 ![0, 1, 2] bcast_S4x4096x1_S4x4096x4096_0_1_2
        (broadcastInDim S4x4096x1 ![0, 1] bcast_S4x4096_S4x4096x1_0_1 v) (ix3 b n m) = v (ix2 b n) := by
  rw [broadcastInDim_apply _ _ _ (ix3 b n m) (ix3 b n (0 : Fin 1)) (fun a => by fin_cases a <;> rfl)]
  exact broadcastInDim_apply _ _ _ (ix3 b n (0 : Fin 1)) (ix2 b n) (fun a => by fin_cases a <;> rfl)

/-- A per-column value laid along the second axis: (b, n, m) reads the value at (b, m). -/
theorem bcastCol_apply (v : FVec Ideal S4x4096 .f32) (b : Fin 4) (n m : Fin 4096) :
    broadcastInDim S4x4096x4096 ![0, 1, 2] bcast_S4x1x4096_S4x4096x4096_0_1_2
        (broadcastInDim S4x1x4096 ![0, 2] bcast_S4x4096_S4x1x4096_0_2 v) (ix3 b n m) = v (ix2 b m) := by
  rw [broadcastInDim_apply _ _ _ (ix3 b n m) (ix3 b (0 : Fin 1) m) (fun a => by fin_cases a <;> rfl)]
  exact broadcastInDim_apply _ _ _ (ix3 b (0 : Fin 1) m) (ix2 b m) (fun a => by fin_cases a <;> rfl)

/-- The f32 word of 2.0 is the extended real 2. -/
theorem ofBits_two_f32 : Ideal.ofBits .f32 0x40000000#32 = (2 : EReal) := by
  rw [show (2 : EReal) = ((2 : ℝ) : EReal) by norm_cast]
  simp [Ideal.ofBits, Ideal.ieee, -EReal.coe_mul]; norm_num

/-- The batched product contracting the coordinate axis, read at (b, n, m): the sum over the three coordinates of the
    products of the entries (b, n, d) and (b, m, d). -/
theorem dot_apply (x y : FVec Ideal S4x4096x3 .f32) (b : Fin 4) (n m : Fin 4096) :
    Host.dotGeneral dot_S4x4096x3_S4x4096x3_S4x4096x4096_2_2_1_1_0_0 none x y (ix3 b n m)
      = ∑ d : Fin 3, x (ix3 b n d) * y (ix3 b m d) := by
  show FloatOps.dotGeneral _ none _ x y (ix3 b n m) = _
  rw [Ideal.dotGeneral_apply,
    ← Equiv.sum_comp (contrEquiv1 dot_S4x4096x3_S4x4096x3_S4x4096x4096_2_2_1_1_0_0 3 rfl rfl).symm]
  refine Finset.sum_congr rfl fun c _ => ?_
  have c3 := contrEquiv1_symm_val dot_S4x4096x3_S4x4096x3_S4x4096x4096_2_2_1_1_0_0 3 rfl rfl c
  have l3 : dot_S4x4096x3_S4x4096x3_S4x4096x4096_2_2_1_1_0_0.lhsIdx (ix3 b n m)
      ((contrEquiv1 _ 3 rfl rfl).symm c) = ix3 b n c := by
    funext ax; apply Fin.ext
    match ax with
    | ⟨0, _⟩ => simp [DotDims.lhsIdx, dot_S4x4096x3_S4x4096x3_S4x4096x4096_2_2_1_1_0_0]; rfl
    | ⟨1, _⟩ => simp [DotDims.lhsIdx, dot_S4x4096x3_S4x4096x3_S4x4096x4096_2_2_1_1_0_0]; rfl
    | ⟨2, _⟩ => simp [DotDims.lhsIdx, dot_S4x4096x3_S4x4096x3_S4x4096x4096_2_2_1_1_0_0]; exact c3
  have r3 : dot_S4x4096x3_S4x4096x3_S4x4096x4096_2_2_1_1_0_0.rhsIdx (ix3 b n m)
      ((contrEquiv1 _ 3 rfl rfl).symm c) = ix3 b m c := by
    funext ax; apply Fin.ext
    match ax with
    | ⟨0, _⟩ => simp [DotDims.rhsIdx, dot_S4x4096x3_S4x4096x3_S4x4096x4096_2_2_1_1_0_0]; rfl
    | ⟨1, _⟩ => simp [DotDims.rhsIdx, dot_S4x4096x3_S4x4096x3_S4x4096x4096_2_2_1_1_0_0]; rfl
    | ⟨2, _⟩ => simp [DotDims.rhsIdx, dot_S4x4096x3_S4x4096x3_S4x4096x4096_2_2_1_1_0_0]; exact c3
  rw [l3, r3]

/-- The reference's distance term, as its program writes it: |x|² laid along rows plus |y|² laid along columns, minus
    twice the batched product. -/
def refDistE (x y : FVec Ideal S4x4096x3 .f32) : FVec Ideal S4x4096x4096 .f32 :=
  subf
    (addf
      (broadcastInDim S4x4096x4096 ![0, 1, 2] bcast_S4x4096x1_S4x4096x4096_0_1_2
        (broadcastInDim S4x4096x1 ![0, 1] bcast_S4x4096_S4x4096x1_0_1
          (Host.reduceAdd (F := Ideal) (mulf x x) (constant (F := Ideal) S_ .f32 0x00000000#32)
            reducesTo_S4x4096x3_S4x4096_d2 h_S_)))
      (broadcastInDim S4x4096x4096 ![0, 1, 2] bcast_S4x1x4096_S4x4096x4096_0_1_2
        (broadcastInDim S4x1x4096 ![0, 2] bcast_S4x4096_S4x1x4096_0_2
          (Host.reduceAdd (F := Ideal) (mulf y y) (constant (F := Ideal) S_ .f32 0x00000000#32)
            reducesTo_S4x4096x3_S4x4096_d2 h_S_))))
    (mulf (broadcastInDim S4x4096x4096 ![] bcast_S_S4x4096x4096 (constant (F := Ideal) S_ .f32 0x40000000#32))
      (Host.dotGeneral dot_S4x4096x3_S4x4096x3_S4x4096x4096_2_2_1_1_0_0 none x y))

/-- The distance term at (b, n, m): |x(b,n)|² + |y(b,m)|² − 2·⟨x(b,n), y(b,m)⟩, each a sum over the three coordinates
    (the two squared norms from the zero the sums start at). -/
theorem refDist_apply (x y : FVec Ideal S4x4096x3 .f32) (b : Fin 4) (n m : Fin 4096) :
    refDistE x y (ix3 b n m)
      = ((0 + ∑ d : Fin 3, x (ix3 b n d) * x (ix3 b n d)) + (0 + ∑ d : Fin 3, y (ix3 b m d) * y (ix3 b m d)))
        - 2 * ∑ d : Fin 3, x (ix3 b n d) * y (ix3 b m d) := by
  unfold refDistE
  rw [subf_apply, addf_apply, mulf_apply, bcastRow_apply, bcastCol_apply, sumLast_apply, sumLast_apply, dot_apply]
  have h2 : broadcastInDim S4x4096x4096 ![] bcast_S_S4x4096x4096 (constant (F := Ideal) S_ .f32 0x40000000#32) (ix3 b n m)
      = (2 : EReal) := ofBits_two_f32
  rw [h2]
  rfl

/-! ## The diagonal penalty -/

/-- The reference's diagonal term, as its program writes it: the indicator of "row position = column position" as a
    float, times the penalty word, laid over the batch axis. -/
def refDiagE : FVec Ideal S4x4096x4096 .f32 :=
  broadcastInDim S4x4096x4096 ![0, 1, 2] bcast_S1x4096x4096_S4x4096x4096_0_1_2
    (mulf
      (broadcastInDim S1x4096x4096 ![1, 2] bcast_S4096x4096_S1x4096x4096_1_2
        (uitofp (F := Ideal) .f32
          (cmpi .eq
            (addi (iotaInDim S4096x4096 32 0)
              (broadcastInDim S4096x4096 ![] bcast_S_S4096x4096 (constantI S_ 32 0#32)))
            (iotaInDim S4096x4096 32 1))))
      (broadcastInDim S1x4096x4096 ![] bcast_S_S1x4096x4096 (constant (F := Ideal) S_ .f32 0x49742400#32)))

/-- Two positions below 4096 have equal 32-bit words exactly when they are equal. -/
theorem ofNat32_eq_iff (n m : Fin 4096) : BitVec.ofNat 32 n.val = BitVec.ofNat 32 m.val ↔ n.val = m.val := by
  constructor
  · intro e
    have h := congrArg BitVec.toNat e
    simp only [BitVec.toNat_ofNat] at h
    have hn := n.isLt; have hm := m.isLt
    omega
  · intro e; rw [e]

/-- The diagonal term at (b, n, m): the penalty word where the two positions agree, zero elsewhere. -/
theorem refDiag_apply (b : Fin 4) (n m : Fin 4096) :
    refDiagE (ix3 b n m) = if n.val = m.val then Ideal.ofBits .f32 0x49742400#32 else 0 := by
  unfold refDiagE
  rw [broadcastInDim_apply _ _ _ (ix3 b n m) (ix3 (0 : Fin 1) n m) (fun a => by fin_cases a <;> rfl), mulf_apply,
    broadcastInDim_apply _ bcast_S4096x4096_S1x4096x4096_1_2 _ (ix3 (0 : Fin 1) n m) (ix2 n m) (fun a => by fin_cases a <;> rfl)]
  show FloatOps.uitofp (F := Ideal) .f32
        (IntOp.cmpi .eq (IntOp.addi (BitVec.ofNat 32 n.val) 0#32) (BitVec.ofNat 32 m.val))
      * Ideal.ofBits .f32 0x49742400#32 = _
  by_cases h : n.val = m.val
  · have hw : IntOp.cmpi .eq (IntOp.addi (BitVec.ofNat 32 n.val) 0#32) (BitVec.ofNat 32 m.val) = 1#1 := by
      rw [IntOp.cmpi_eq]; simp only [IntOp.addi, BitVec.add_zero]; exact (ofNat32_eq_iff n m).mpr h
    rw [hw, if_pos h]
    show (((1#1 : BitVec 1).toNat : ℝ) : EReal) * _ = _
    simp
  · have hw : IntOp.cmpi .eq (IntOp.addi (BitVec.ofNat 32 n.val) 0#32) (BitVec.ofNat 32 m.val) = 0#1 := by
      apply eq_zero_of_ne_one
      rw [IntOp.cmpi_eq]; simp only [IntOp.addi, BitVec.add_zero]
      exact fun e => h ((ofNat32_eq_iff n m).mp e)
    rw [hw, if_neg h]
    show (((0#1 : BitVec 1).toNat : ℝ) : EReal) * _ = _
    simp

/-- The same with the zero written as the f32 zero word. -/
theorem refDiag_apply_word (b : Fin 4) (n m : Fin 4096) :
    refDiagE (ix3 b n m)
      = if n.val = m.val then Ideal.ofBits .f32 0x49742400#32 else Ideal.ofBits .f32 0x00000000#32 := by
  rw [refDiag_apply, Ideal.ofBits_zero_f32]

end Cert.ReferenceIdeal.RefRead
-- ==== Proof.Algebra.lean ====
/-
  The algebra joining the two spellings of a squared Euclidean distance in dimension three:
  the sum of squared coordinate differences, and |a|² + |b|² − 2·⟨a,b⟩. Both are read on the
  extended reals at finite (real) coordinates, where the identity is the real one.
-/
import Mathlib.Data.EReal.Basic
import Mathlib.Data.EReal.Operations
import Mathlib.Algebra.BigOperators.Fin
import Mathlib.Tactic.Ring
import Mathlib.Tactic.NormNum

noncomputable section

namespace Cert.ReferenceIdeal.RefRead

open scoped BigOperators

/-- The sum of three squared differences of reals, as an extended real. -/
def sq3 (a0 a1 a2 b0 b1 b2 : ℝ) : EReal :=
  (((a0 : EReal) - (b0 : EReal)) * ((a0 : EReal) - (b0 : EReal))
      + ((a1 : EReal) - (b1 : EReal)) * ((a1 : EReal) - (b1 : EReal)))
    + ((a2 : EReal) - (b2 : EReal)) * ((a2 : EReal) - (b2 : EReal))

/-- The expanded form at real coordinates, every sum written out. -/
theorem sq3_eq_expanded (a0 a1 a2 b0 b1 b2 : ℝ) :
    sq3 a0 a1 a2 b0 b1 b2
      = ((0 + ((a0 : EReal) * a0 + (a1 : EReal) * a1 + (a2 : EReal) * a2))
          + (0 + ((b0 : EReal) * b0 + (b1 : EReal) * b1 + (b2 : EReal) * b2)))
        - 2 * ((a0 : EReal) * b0 + (a1 : EReal) * b1 + (a2 : EReal) * b2) := by
  unfold sq3
  have h2 : (2 : EReal) = ((2 : ℝ) : EReal) := by norm_cast
  have h0 : (0 : EReal) = ((0 : ℝ) : EReal) := by norm_cast
  rw [h2, h0]
  simp only [← EReal.coe_mul, ← EReal.coe_add, ← EReal.coe_sub]
  exact congrArg _ (by ring)

/-- The same over coordinate functions `Fin 3 → EReal` that are finite at each coordinate: the sum of
    squared differences is `(0 + Σ a·a) + (0 + Σ b·b) − 2 · Σ a·b`. -/
theorem sq3_fin (a b : Fin 3 → EReal) (ha : ∀ d, ∃ r : ℝ, a d = (r : EReal)) (hb : ∀ d, ∃ r : ℝ, b d = (r : EReal)) :
    ((a 0 - b 0) * (a 0 - b 0) + (a 1 - b 1) * (a 1 - b 1)) + (a 2 - b 2) * (a 2 - b 2)
      = ((0 + ∑ d : Fin 3, a d * a d) + (0 + ∑ d : Fin 3, b d * b d)) - 2 * ∑ d : Fin 3, a d * b d := by
  obtain ⟨a0, h0⟩ := ha 0
  obtain ⟨a1, h1⟩ := ha 1
  obtain ⟨a2, h2⟩ := ha 2
  obtain ⟨b0, g0⟩ := hb 0
  obtain ⟨b1, g1⟩ := hb 1
  obtain ⟨b2, g2⟩ := hb 2
  rw [Fin.sum_univ_three, Fin.sum_univ_three, Fin.sum_univ_three, h0, h1, h2, g0, g1, g2]
  exact sq3_eq_expanded a0 a1 a2 b0 b1 b2

end Cert.ReferenceIdeal.RefRead
-- ==== Proof.Eqs.lean ====
/-
  The three array equations joining the kernel's minimum arrays to the reference's, at finite inputs: the sum of
  three squared coordinate differences is the expanded |x|² + |y|² − 2·⟨x,y⟩ at real coordinates, so the infima over a
  row or a column of the two distance tables agree, with or without the diagonal penalty.
-/
import proofs.«113848_j55319178772943_2_alg».proof.Proof.RowVal0
import proofs.«113848_j55319178772943_2_alg».proof.Proof.RowVal1
import proofs.«113848_j55319178772943_2_alg».proof.Proof.RefRead
import proofs.«113848_j55319178772943_2_alg».proof.Proof.Algebra

noncomputable section

namespace Cert.Bridge

open Idealize.ShloMosaic Idealize.ShloMosaic.ValueIdx
open Cert.ReferenceIdeal Cert.ReferenceIdeal.Facts₀ Cert.ReferenceIdeal.RefRead
open Cert.KernelIdeal.Hand (rowG rowAt selfG selfAt)

variable [Cert.ReferenceIdeal.Facts₀]

/-- At finite coordinates the kernel's squared distance of row `n` of `X` and row `m` of `Y` is the reference's distance
    term at `(b, n, m)`. -/
theorem dist_eq (X Y : S4x4096x3.Idx → EReal) (hX : ∀ i, ∃ r : ℝ, X i = (r : EReal)) (hY : ∀ i, ∃ r : ℝ, Y i = (r : EReal))
    (b : Fin 4) (n m : Fin 4096) :
    Cert.KernelIdeal.PayRead.sq3 (X (ix3 b n 0)) (X (ix3 b n 1)) (X (ix3 b n 2)) (Y (ix3 b m 0)) (Y (ix3 b m 1)) (Y (ix3 b m 2))
      = refDistE X Y (ix3 b n m) := by
  rw [refDist_apply]
  unfold Cert.KernelIdeal.PayRead.sq3
  exact sq3_fin (fun d => X (ix3 b n d)) (fun d => Y (ix3 b m d)) (fun d => hX _) (fun d => hY _)

/-- The kernel's row-minimum array is the reference's minimum of its distance term over the last axis. -/
theorem E1 (X Y : S4x4096x3.Idx → EReal) (hX : ∀ i, ∃ r : ℝ, X i = (r : EReal)) (hY : ∀ i, ∃ r : ℝ, Y i = (r : EReal)) :
    rowG X Y
      = Host.reduce FloatOps.minimumf (refDistE X Y) (constant (F := Ideal) S_ .f32 0x7F800000#32)
          reducesTo_S4x4096x4096_S4x4096_d2 h_S_ := by
  funext j
  obtain ⟨b, n, rfl⟩ : ∃ (b : Fin 4) (n : Fin 4096), j = ix2 b n := ⟨j 0, j 1, eq_ix2 j⟩
  rw [rowMin_apply]
  show rowAt X Y b n = _
  unfold rowAt
  exact iInf_congr fun m => dist_eq X Y hX hY b n m

/-- The column minimum — at `(b, m)` the infimum over ALL rows `n` of the kernel's squared distance — is the reference's
    minimum of its distance term over the middle axis. -/
theorem E2 (X Y : S4x4096x3.Idx → EReal) (hX : ∀ i, ∃ r : ℝ, X i = (r : EReal)) (hY : ∀ i, ∃ r : ℝ, Y i = (r : EReal)) :
    (fun j : S4x4096.Idx => ⨅ n : Fin 4096,
        Cert.KernelIdeal.PayRead.sq3 (X (ix3 (j 0) n 0)) (X (ix3 (j 0) n 1)) (X (ix3 (j 0) n 2))
          (Y (ix3 (j 0) (j 1) 0)) (Y (ix3 (j 0) (j 1) 1)) (Y (ix3 (j 0) (j 1) 2)))
      = Host.reduce FloatOps.minimumf (refDistE X Y) (constant (F := Ideal) S_ .f32 0x7F800000#32)
          reducesTo_S4x4096x4096_S4x4096_d1 h_S_ := by
  funext j
  obtain ⟨b, m, rfl⟩ : ∃ (b : Fin 4) (m : Fin 4096), j = ix2 b m := ⟨j 0, j 1, eq_ix2 j⟩
  rw [colMin_apply]
  exact iInf_congr fun n => dist_eq X Y hX hY b n m

/-- The second kernel's array is the reference's minimum, over the last axis, of its distance term of the cloud with
    itself plus its diagonal term. -/
theorem E3 (X : S4x4096x3.Idx → EReal) (hX : ∀ i, ∃ r : ℝ, X i = (r : EReal)) :
    selfG X
      = Host.reduce FloatOps.minimumf (addf (refDistE X X) refDiagE) (constant (F := Ideal) S_ .f32 0x7F800000#32)
          reducesTo_S4x4096x4096_S4x4096_d2 h_S_ := by
  funext j
  obtain ⟨b, n, rfl⟩ : ∃ (b : Fin 4) (n : Fin 4096), j = ix2 b n := ⟨j 0, j 1, eq_ix2 j⟩
  rw [rowMin_apply]
  show selfAt X b n = _
  unfold selfAt
  refine iInf_congr fun m => ?_
  rw [addf_apply, refDiag_apply_word, dist_eq X X hX hX b n m]

end Cert.Bridge

end
-- ==== Proof.Finite.lean ====
/-
  From the precondition "every input entry has absolute value below +∞" to "every entry of the two
  position arrays is a real number", at the ideal (extended-real) values.
-/
import proofs.«113848_j55319178772943_2_alg».proof.Pre_finite_inputs
import Idealize.ShloMosaic.Lib.ValueIdx
import Idealize.ShloMosaic.PureOps.Ideal.Laws
import Idealize.ShloMosaic.Lib.ReduceAll

noncomputable section

namespace Cert.ReferenceIdeal.RefRead

open Idealize.ShloMosaic Idealize.ShloMosaic.ValueIdx

/-- The scalar shape has one index. -/
instance subsingleton_scalar_idx : Subsingleton (⟨0, ![]⟩ : Shape).Idx := ⟨fun a b => funext fun d => d.elim0⟩

/-- An extended real whose absolute value is strictly below +∞ is a real number. -/
theorem exists_real_of_abs_lt_inf (x : Ideal .f32)
    (h : FloatOps.cmpf .olt (FloatOps.hostAbsf x) (Ideal.ofBits .f32 0x7F800000#32) = 1#1) : ∃ r : ℝ, x = (r : EReal) := by
  have htop : Ideal.ofBits .f32 0x7F800000#32 = (⊤ : EReal) := by simp [Ideal.ofBits, Ideal.ieee]
  rw [Ideal.cmpf_def, Ideal.hostAbsf_def, Ideal.absf_def, htop] at h
  induction x using EReal.rec with
  | bot => exact absurd h (by simp [Ideal.cmp])
  | top => exact absurd h (by simp [Ideal.cmp])
  | coe r => exact ⟨r, rfl⟩

variable [Cert.Pre_finite_inputs.Facts]

/-- Under the precondition, every entry of the first and of the third argument (the two position arrays) is a real. -/
theorem finite_of_pre (a0 : FVec Ideal Cert.Pre_finite_inputs.S4x4096x3 .f32) (a1 : FVec Ideal Cert.Pre_finite_inputs.S4x4096 .f32)
    (a2 : FVec Ideal Cert.Pre_finite_inputs.S4x4096x3 .f32) (a3 : FVec Ideal Cert.Pre_finite_inputs.S4x4096 .f32)
    (a4 a5 : FVec Ideal Cert.Pre_finite_inputs.S4x512 .f32)
    (h : Cert.Pre_finite_inputs.fn (F := Ideal) a0 a1 a2 a3 a4 a5 = fun _ => 1#1) :
    (∀ idx, ∃ r : ℝ, a0 idx = (r : EReal)) ∧ (∀ idx, ∃ r : ℝ, a2 idx = (r : EReal)) := by
  have h0 := congrFun h ix0
  dsimp only [Cert.Pre_finite_inputs.fn, Cert.Pre_finite_inputs.fn_part1, andi] at h0
  obtain ⟨hX5, _⟩ := IntOp.andi_eq_one.1 h0
  obtain ⟨hX4, _⟩ := IntOp.andi_eq_one.1 hX5
  obtain ⟨hX3, _⟩ := IntOp.andi_eq_one.1 hX4
  obtain ⟨hX2, hR2⟩ := IntOp.andi_eq_one.1 hX3
  obtain ⟨hR0, _⟩ := IntOp.andi_eq_one.1 hX2
  refine ⟨fun idx => exists_real_of_abs_lt_inf (a0 idx) ?_, fun idx => exists_real_of_abs_lt_inf (a2 idx) ?_⟩
  · exact Host.reduce_andi_all _ _ _ _ _ hR0 idx
  · exact Host.reduce_andi_all _ _ _ _ _ hR2 idx

end Cert.ReferenceIdeal.RefRead
-- ==== Proof.RefVal.lean ====
/-
  The reference's straight line of host operations evaluated: its result is the weighted total of the
  three minima of the pairwise squared distances (cross distances along either point axis, penalised
  self distances along the second), of the latent statistics and of the size arrays. The line is cut
  into four consecutive stretches, each evaluated on its own from any contents, and the stretches
  are composed.
-/
import proofs.«113848_j55319178772943_2_alg».proof.Proof.RefTerms
import Idealize.ShloMosaic.Lib.StableHlo.Run

set_option maxRecDepth 16384

noncomputable section

namespace Cert.ReferenceIdeal.HandRun

open Cert.ReferenceIdeal Cert.ReferenceIdeal.Gen Idealize.ShloMosaic Idealize.ShloMosaic.TcCoe Idealize.SL.Sem Idealize.ShloMosaic.StableHlo

variable {F : FTy → Type} [FloatOps F]

/-- Contents after two lines run one after the other: the second line's from the first's. -/
theorem after_append (l₁ l₂ : List (HloOp τ sig (Elt F))) (V : Valuation τ sig (Elt F)) :
    StableHlo.after (l₁ ++ l₂) V = StableHlo.after l₂ (StableHlo.after l₁ V) := by
  induction l₁ generalizing V with
  | nil => rfl
  | cons op l ih => exact ih (op.result V)

/-! ## The four stretches -/

/-- The cross distances and their minima along either axis, with the mean of the first. -/
abbrev ops1 : List (HloOp τ sig (Elt F)) :=
  [ StableHlo.binary main_arg0 main_arg0 main_v0 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst (constant S_ .f32 0x00000000#32),
    StableHlo.binary main_v0 main_cst main_v1 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_arg2 main_arg2 main_v2 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_0 (constant S_ .f32 0x00000000#32),
    StableHlo.binary main_v2 main_cst_0 main_v3 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_arg0 main_arg2 main_v4 ((fun l r => Host.dotGeneral dot_S4x4096x3_S4x4096x3_S4x4096x4096_2_2_1_1_0_0 none l r) : (⟨S4x4096x3, .f32⟩ : BufTy).Contents (Elt F) → (⟨S4x4096x3, .f32⟩ : BufTy).Contents (Elt F) → (⟨S4x4096x4096, .f32⟩ : BufTy).Contents (Elt F)),
    StableHlo.unary main_v1 main_v5 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v3 main_v6 (broadcastInDim S4x1x4096 ![0, 2] bcast_S4x4096_S4x1x4096_0_2 : (⟨S4x4096, .f32⟩ : BufTy).Contents (Elt F) → (⟨S4x1x4096, .f32⟩ : BufTy).Contents (Elt F)),
    StableHlo.unary main_v5 main_v7 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.unary main_v6 main_v8 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    StableHlo.binary main_v7 main_v8 main_v9 (addf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_1 (constant S_ .f32 0x40000000#32),
    StableHlo.unary main_cst_1 main_v10 (broadcastInDim S4x4096x4096 ![] bcast_S_S4x4096x4096 : (⟨S_, .f32⟩ : BufTy).Contents (Elt F) → (⟨S4x4096x4096, .f32⟩ : BufTy).Contents (Elt F)),
    StableHlo.binary main_v10 main_v4 main_v11 (mulf : (⟨S4x4096x4096, .f32⟩ : BufTy).Contents (Elt F) → (⟨S4x4096x4096, .f32⟩ : BufTy).Contents (Elt F) → (⟨S4x4096x4096, .f32⟩ : BufTy).Contents (Elt F)),
    StableHlo.binary main_v9 main_v11 main_v12 (subf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_2 (constant S_ .f32 0x7F800000#32),
    StableHlo.binary main_v12 main_cst_2 main_v13 ((fun x v => Host.reduce FloatOps.minimumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)),
    StableHlo.nullary main_cst_3 (constant S_ .f32 0x00000000#32),
    StableHlo.binary main_v13 main_cst_3 main_v14 ((fun x v => Host.reduceAdd x v reducesTo_S4x4096_S4_d1 h_S_) : (⟨S4x4096, .f32⟩ : BufTy).Contents (Elt F) → (⟨S_, .f32⟩ : BufTy).Contents (Elt F) → (⟨S4, .f32⟩ : BufTy).Contents (Elt F)),
    StableHlo.nullary main_cst_4 (constant S_ .f32 0x45800000#32),
    StableHlo.unary main_cst_4 main_v15 (broadcastInDim S4 ![] bcast_S_S4 : (⟨S_, .f32⟩ : BufTy).Contents (Elt F) → (⟨S4, .f32⟩ : BufTy).Contents (Elt F)),
    StableHlo.binary main_v14 main_v15 main_v16 (Host.divf : (⟨S4, .f32⟩ : BufTy).Contents (Elt F) → (⟨S4, .f32⟩ : BufTy).Contents (Elt F) → (⟨S4, .f32⟩ : BufTy).Contents (Elt F)),
    StableHlo.nullary main_cst_5 (constant S_ .f32 0x7F800000#32),
    StableHlo.binary main_v12 main_cst_5 main_v17 ((fun x v => Host.reduce FloatOps.minimumf x v reducesTo_S4x4096x4096_S4x4096_d1 h_S_) : (⟨S4x4096x4096, .f32⟩ : BufTy).Contents (Elt F) → (⟨S_, .f32⟩ : BufTy).Contents (Elt F) → (⟨S4x4096, .f32⟩ : BufTy).Contents (Elt F)) ]

/-- The mean of the second minima, the batch mean of both, and the regulariser over the latent statistics. -/
abbrev ops2 : List (HloOp τ sig (Elt F)) :=
  [ StableHlo.nullary main_cst_6 (constant S_ .f32 0x00000000#32),
    StableHlo.binary main_v17 main_cst_6 main_v18 ((fun x v => Host.reduceAdd x v reducesTo_S4x4096_S4_d1 h_S_) : (⟨S4x4096, .f32⟩ : BufTy).Contents (Elt F) → (⟨S_, .f32⟩ : BufTy).Contents (Elt F) → (⟨S4, .f32⟩ : BufTy).Contents (Elt F)),
    StableHlo.nullary main_cst_7 (constant S_ .f32 0x45800000#32),
    StableHlo.unary main_cst_7 main_v19 (broadcastInDim S4 ![] bcast_S_S4 : (⟨S_, .f32⟩ : BufTy).Contents (Elt F) → (⟨S4, .f32⟩ : BufTy).Contents (Elt F)),
    StableHlo.binary main_v18 main_v19 main_v20 (Host.divf : (⟨S4, .f32⟩ : BufTy).Contents (Elt F) → (⟨S4, .f32⟩ : BufTy).Contents (Elt F) → (⟨S4, .f32⟩ : BufTy).Contents (Elt F)),
    StableHlo.binary main_v16 main_v20 main_v21 (addf : (⟨S4, .f32⟩ : BufTy).Contents (Elt F) → (⟨S4, .f32⟩ : BufTy).Contents (Elt F) → (⟨S4, .f32⟩ : BufTy).Contents (Elt F)),
    StableHlo.nullary main_cst_8 (constant S_ .f32 0x00000000#32),
    StableHlo.binary main_v21 main_cst_8 main_v22 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_9 (constant S_ .f32 0x40800000#32),
    StableHlo.binary main_v22 main_cst_9 main_v23 (Host.divf : (⟨S_, .f32⟩ : BufTy).Contents (Elt F) → (⟨S_, .f32⟩ : BufTy).Contents (Elt F) → (⟨S_, .f32⟩ : BufTy).Contents (Elt F)),
    StableHlo.nullary main_cst_10 (constant S_ .f32 0x3F800000#32),
    StableHlo.unary main_cst_10 main_v24 (broadcastInDim S4x512 ![] bcast_S_S4x512 : (⟨S_, .f32⟩ : BufTy).Contents (Elt F) → (⟨S4x512, .f32⟩ : BufTy).Contents (Elt F)),
    StableHlo.binary main_v24 main_arg5 main_v25 (addf : (⟨S4x512, .f32⟩ : BufTy).Contents (Elt F) → (⟨S4x512, .f32⟩ : BufTy).Contents (Elt F) → (⟨S4x512, .f32⟩ : BufTy).Contents (Elt F)),
    StableHlo.binary main_arg4 main_arg4 main_v26 (mulf : (⟨S4x512, .f32⟩ : BufTy).Contents (Elt F) → (⟨S4x512, .f32⟩ : BufTy).Contents (Elt F) → (⟨S4x512, .f32⟩ : BufTy).Contents (Elt F)),
    StableHlo.binary main_v25 main_v26 main_v27 (subf : (⟨S4x512, .f32⟩ : BufTy).Contents (Elt F) → (⟨S4x512, .f32⟩ : BufTy).Contents (Elt F) → (⟨S4x512, .f32⟩ : BufTy).Contents (Elt F)),
    StableHlo.unary main_arg5 main_v28 (Host.exp : (⟨S4x512, .f32⟩ : BufTy).Contents (Elt F) → (⟨S4x512, .f32⟩ : BufTy).Contents (Elt F)),
    StableHlo.binary main_v27 main_v28 main_v29 (subf : (⟨S4x512, .f32⟩ : BufTy).Contents (Elt F) → (⟨S4x512, .f32⟩ : BufTy).Contents (Elt F) → (⟨S4x512, .f32⟩ : BufTy).Contents (Elt F)),
    StableHlo.nullary main_cst_11 (constant S_ .f32 0x00000000#32),
    StableHlo.binary main_v29 main_cst_11 main_v30 ((fun x v => Host.reduceAdd x v reducesTo_S4x512_S_d0_1 h_S_) : (⟨S4x512, .f32⟩ : BufTy).Contents (Elt F) → (⟨S_, .f32⟩ : BufTy).Contents (Elt F) → (⟨S_, .f32⟩ : BufTy).Contents (Elt F)),
    StableHlo.nullary main_cst_12 (constant S_ .f32 0x45000000#32),
    StableHlo.binary main_v30 main_cst_12 main_v31 (Host.divf : (⟨S_, .f32⟩ : BufTy).Contents (Elt F) → (⟨S_, .f32⟩ : BufTy).Contents (Elt F) → (⟨S_, .f32⟩ : BufTy).Contents (Elt F)),
    StableHlo.nullary main_cst_13 (constant S_ .f32 0xBF000000#32),
    StableHlo.binary main_cst_13 main_v31 main_v32 (mulf : (⟨S_, .f32⟩ : BufTy).Contents (Elt F) → (⟨S_, .f32⟩ : BufTy).Contents (Elt F) → (⟨S_, .f32⟩ : BufTy).Contents (Elt F)) ]

/-- The self distances with the diagonal penalty and their minima. -/
abbrev ops3 : List (HloOp τ sig (Elt F)) :=
  [ StableHlo.binary main_arg0 main_arg0 main_v33 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_14 (constant S_ .f32 0x00000000#32),
    StableHlo.binary main_v33 main_cst_14 main_v34 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_arg0 main_arg0 main_v35 (mulf : (⟨S4x4096x3, .f32⟩ : BufTy).Contents (Elt F) → (⟨S4x4096x3, .f32⟩ : BufTy).Contents (Elt F) → (⟨S4x4096x3, .f32⟩ : BufTy).Contents (Elt F)),
    StableHlo.nullary main_cst_15 (constant S_ .f32 0x00000000#32),
    StableHlo.binary main_v35 main_cst_15 main_v36 ((fun x v => Host.reduceAdd x v reducesTo_S4x4096x3_S4x4096_d2 h_S_) : (⟨S4x4096x3, .f32⟩ : BufTy).Contents (Elt F) → (⟨S_, .f32⟩ : BufTy).Contents (Elt F) → (⟨S4x4096, .f32⟩ : BufTy).Contents (Elt F)),
    StableHlo.binary main_arg0 main_arg0 main_v37 ((fun l r => Host.dotGeneral dot_S4x4096x3_S4x4096x3_S4x4096x4096_2_2_1_1_0_0 none l r) : (⟨S4x4096x3, .f32⟩ : BufTy).Contents (Elt F) → (⟨S4x4096x3, .f32⟩ : BufTy).Contents (Elt F) → (⟨S4x4096x4096, .f32⟩ : BufTy).Contents (Elt F)),
    StableHlo.unary main_v34 main_v38 (broadcastInDim S4x4096x1 ![0, 1] bcast_S4x4096_S4x4096x1_0_1 : (⟨S4x4096, .f32⟩ : BufTy).Contents (Elt F) → (⟨S4x4096x1, .f32⟩ : BufTy).Contents (Elt F)),
    StableHlo.unary main_v36 main_v39 (broadcastInDim S4x1x4096 ![0, 2] bcast_S4x4096_S4x1x4096_0_2 : (⟨S4x4096, .f32⟩ : BufTy).Contents (Elt F) → (⟨S4x1x4096, .f32⟩ : BufTy).Contents (Elt F)),
    StableHlo.unary main_v38 main_v40 (broadcastInDim S4x4096x4096 ![0, 1, 2] bcast_S4x4096x1_S4x4096x4096_0_1_2 : (⟨S4x4096x1, .f32⟩ : BufTy).Contents (Elt F) → (⟨S4x4096x4096, .f32⟩ : BufTy).Contents (Elt F)),
    StableHlo.unary main_v39 main_v41 (broadcastInDim S4x4096x4096 ![0, 1, 2] bcast_S4x1x4096_S4x4096x4096_0_1_2 : (⟨S4x1x4096, .f32⟩ : BufTy).Contents (Elt F) → (⟨S4x4096x4096, .f32⟩ : BufTy).Contents (Elt F)),
    StableHlo.binary main_v40 main_v41 main_v42 (addf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_16 (constant S_ .f32 0x40000000#32),
    StableHlo.unary main_cst_16 main_v43 (broadcastInDim S4x4096x4096 ![] bcast_S_S4x4096x4096 : (⟨S_, .f32⟩ : BufTy).Contents (Elt F) → (⟨S4x4096x4096, .f32⟩ : BufTy).Contents (Elt F)),
    StableHlo.binary main_v43 main_v37 main_v44 (mulf : (⟨S4x4096x4096, .f32⟩ : BufTy).Contents (Elt F) → (⟨S4x4096x4096, .f32⟩ : BufTy).Contents (Elt F) → (⟨S4x4096x4096, .f32⟩ : BufTy).Contents (Elt F)),
    StableHlo.binary main_v42 main_v44 main_v45 (subf : (⟨S4x4096x4096, .f32⟩ : BufTy).Contents (Elt F) → (⟨S4x4096x4096, .f32⟩ : BufTy).Contents (Elt F) → (⟨S4x4096x4096, .f32⟩ : BufTy).Contents (Elt F)),
    StableHlo.nullary main_v46 (iotaInDim S4096x4096 32 0),
    StableHlo.nullary main_v47 (iotaInDim S4096x4096 32 1),
    StableHlo.nullary main_c (constantI S_ 32 0#32),
    StableHlo.unary main_c main_v48 (broadcastInDim S4096x4096 ![] bcast_S_S4096x4096 : (⟨S_, .i32⟩ : BufTy).Contents (Elt F) → (⟨S4096x4096, .i32⟩ : BufTy).Contents (Elt F)),
    StableHlo.binary main_v46 main_v48 main_v49 (addi : (⟨S4096x4096, .i32⟩ : BufTy).Contents (Elt F) → (⟨S4096x4096, .i32⟩ : BufTy).Contents (Elt F) → (⟨S4096x4096, .i32⟩ : BufTy).Contents (Elt F)),
    StableHlo.binary main_v49 main_v47 main_v50 (cmpi .eq : (⟨S4096x4096, .i32⟩ : BufTy).Contents (Elt F) → (⟨S4096x4096, .i32⟩ : BufTy).Contents (Elt F) → (⟨S4096x4096, .i1⟩ : BufTy).Contents (Elt F)),
    StableHlo.unary main_v50 main_v51 (uitofp .f32 : (⟨S4096x4096, .i1⟩ : BufTy).Contents (Elt F) → (⟨S4096x4096, .f32⟩ : BufTy).Contents (Elt F)),
    StableHlo.unary main_v51 main_v52 (broadcastInDim S1x4096x4096 ![1, 2] bcast_S4096x4096_S1x4096x4096_1_2 : (⟨S4096x4096, .f32⟩ : BufTy).Contents (Elt F) → (⟨S1x4096x4096, .f32⟩ : BufTy).Contents (Elt F)),
    StableHlo.nullary main_cst_17 (constant S_ .f32 0x49742400#32),
    StableHlo.unary main_cst_17 main_v53 (broadcastInDim S1x4096x4096 ![] bcast_S_S1x4096x4096 : (⟨S_, .f32⟩ : BufTy).Contents (Elt F) → (⟨S1x4096x4096, .f32⟩ : BufTy).Contents (Elt F)),
    StableHlo.binary main_v52 main_v53 main_v54 (mulf : (⟨S1x4096x4096, .f32⟩ : BufTy).Contents (Elt F) → (⟨S1x4096x4096, .f32⟩ : BufTy).Contents (Elt F) → (⟨S1x4096x4096, .f32⟩ : BufTy).Contents (Elt F)),
    StableHlo.unary main_v54 main_v55 (broadcastInDim S4x4096x4096 ![0, 1, 2] bcast_S1x4096x4096_S4x4096x4096_0_1_2 : (⟨S1x4096x4096, .f32⟩ : BufTy).Contents (Elt F) → (⟨S4x4096x4096, .f32⟩ : BufTy).Contents (Elt F)),
    StableHlo.binary main_v45 main_v55 main_v56 (addf : (⟨S4x4096x4096, .f32⟩ : BufTy).Contents (Elt F) → (⟨S4x4096x4096, .f32⟩ : BufTy).Contents (Elt F) → (⟨S4x4096x4096, .f32⟩ : BufTy).Contents (Elt F)),
    StableHlo.nullary main_cst_18 (constant S_ .f32 0x7F800000#32),
    StableHlo.binary main_v56 main_cst_18 main_v57 ((fun x v => Host.reduce FloatOps.minimumf x v reducesTo_S4x4096x4096_S4x4096_d2 h_S_) : (⟨S4x4096x4096, .f32⟩ : BufTy).Contents (Elt F) → (⟨S_, .f32⟩ : BufTy).Contents (Elt F) → (⟨S4x4096, .f32⟩ : BufTy).Contents (Elt F)) ]

/-- The standard deviation of the self minima, the size term and the weighted total. -/
abbrev ops4 : List (HloOp τ sig (Elt F)) :=
  [ StableHlo.nullary main_c_19 (constantI S_ 32 1#32),
    StableHlo.TRef.nullary main_call0_call0.cst (constant S_ .f32 0x00000000#32),
    StableHlo.TRef.binary (.of main_v57 : StableHlo.TRef sig ⟨S4x4096, .f32⟩) main_call0_call0.cst main_call0_call0.v0 (fun x v => Host.reduceAdd x v reducesTo_S4x4096_S4_d1 h_S_),
    StableHlo.TRef.unary main_call0_call0.v0 main_call0_call0.v1 (broadcastInDim S4x1 ![0] bcast_S4_S4x1_0),
    StableHlo.TRef.nullary main_call0_call0.cst_0 (constant S_ .f32 0x45800000#32),
    StableHlo.TRef.unary main_call0_call0.cst_0 main_call0_call0.v2 (broadcastInDim S4x1 ![] bcast_S_S4x1),
    StableHlo.TRef.binary main_call0_call0.v1 main_call0_call0.v2 main_call0_call0.v3 Host.divf,
    StableHlo.TRef.unary main_call0_call0.v3 main_call0_call0.v4 (broadcastInDim S4x4096 ![0, 1] bcast_S4x1_S4x4096_0_1),
    StableHlo.TRef.binary (.of main_v57 : StableHlo.TRef sig ⟨S4x4096, .f32⟩) main_call0_call0.v4 main_call0_call0.v5 subf,
    StableHlo.TRef.binary main_call0_call0.v5 main_call0_call0.v5 main_call0_call0.v6 mulf,
    StableHlo.TRef.unary (.of main_c_19 : StableHlo.TRef sig ⟨S_, .i32⟩) main_call0_call0.v7 (sitofp .f32),
    StableHlo.TRef.nullary main_call0_call0.cst_1 (constant S_ .f32 0x45800000#32),
    StableHlo.TRef.binary main_call0_call0.cst_1 main_call0_call0.v7 main_call0_call0.v8 subf,
    StableHlo.TRef.nullary main_call0_call0.cst_2 (constant S_ .f32 0x00000000#32),
    StableHlo.TRef.binary main_call0_call0.v6 main_call0_call0.cst_2 main_call0_call0.v9 (fun x v => Host.reduceAdd x v reducesTo_S4x4096_S4_d1 h_S_),
    StableHlo.TRef.unary main_call0_call0.v8 main_call0_call0.v10 (broadcastInDim S4 ![] bcast_S_S4),
    StableHlo.TRef.binary main_call0_call0.v9 main_call0_call0.v10 main_call0_call0.v11 Host.divf,
    StableHlo.TRef.nullary main_call0_call0.cst_3 (constant S_ .f32 0x00000000#32),
    StableHlo.TRef.binary main_call0_call0.v8 main_call0_call0.cst_3 main_call0_call0.v12 (cmpf .ogt),
    StableHlo.TRef.nullary main_call0_call0.cst_4 (constant S_ .f32 0x7FC00000#32),
    StableHlo.TRef.unary main_call0_call0.cst_4 main_call0_call0_call0.v0 id,
    StableHlo.TRef.unary main_call0_call0_call0.v0 main_call0_call0_call0.v1 (broadcastInDim S4 ![] bcast_S_S4),
    StableHlo.TRef.ternary main_call0_call0.v12 main_call0_call0.v11 main_call0_call0_call0.v1 main_call0_call0_call0.v2 (fun p a b => select (broadcastInDim S4 ![] bcast_S_S4 p) a b),
    StableHlo.TRef.unary main_call0.call0.call0.v2 main_call0.v1 Host.sqrt,
    StableHlo.nullary main_cst_20 (constant S_ .f32 0x00000000#32),
    StableHlo.binary main_v58 main_cst_20 main_v59 ((fun x v => Host.reduceAdd x v reducesTo_S4_S_d0 h_S_) : (⟨S4, .f32⟩ : BufTy).Contents (Elt F) → (⟨S_, .f32⟩ : BufTy).Contents (Elt F) → (⟨S_, .f32⟩ : BufTy).Contents (Elt F)),
    StableHlo.nullary main_cst_21 (constant S_ .f32 0x40800000#32),
    StableHlo.binary main_v59 main_cst_21 main_v60 (Host.divf : (⟨S_, .f32⟩ : BufTy).Contents (Elt F) → (⟨S_, .f32⟩ : BufTy).Contents (Elt F) → (⟨S_, .f32⟩ : BufTy).Contents (Elt F)),
    StableHlo.binary main_arg1 main_arg3 main_v61 (subf : (⟨S4x4096, .f32⟩ : BufTy).Contents (Elt F) → (⟨S4x4096, .f32⟩ : BufTy).Contents (Elt F) → (⟨S4x4096, .f32⟩ : BufTy).Contents (Elt F)),
    StableHlo.binary main_v61 main_v61 main_v62 (mulf : (⟨S4x4096, .f32⟩ : BufTy).Contents (Elt F) → (⟨S4x4096, .f32⟩ : BufTy).Contents (Elt F) → (⟨S4x4096, .f32⟩ : BufTy).Contents (Elt F)),
    StableHlo.nullary main_cst_22 (constant S_ .f32 0x00000000#32),
    StableHlo.binary main_v62 main_cst_22 main_v63 ((fun x v => Host.reduceAdd x v reducesTo_S4x4096_S_d0_1 h_S_) : (⟨S4x4096, .f32⟩ : BufTy).Contents (Elt F) → (⟨S_, .f32⟩ : BufTy).Contents (Elt F) → (⟨S_, .f32⟩ : BufTy).Contents (Elt F)),
    StableHlo.nullary main_cst_23 (constant S_ .f32 0x46800000#32),
    StableHlo.binary main_v63 main_cst_23 main_v64 (Host.divf : (⟨S_, .f32⟩ : BufTy).Contents (Elt F) → (⟨S_, .f32⟩ : BufTy).Contents (Elt F) → (⟨S_, .f32⟩ : BufTy).Contents (Elt F)),
    StableHlo.nullary main_cst_24 (constant S_ .f32 0x3A83126F#32),
    StableHlo.binary main_cst_24 main_v32 main_v65 (mulf : (⟨S_, .f32⟩ : BufTy).Contents (Elt F) → (⟨S_, .f32⟩ : BufTy).Contents (Elt F) → (⟨S_, .f32⟩ : BufTy).Contents (Elt F)),
    StableHlo.binary main_v23 main_v65 main_v66 (addf : (⟨S_, .f32⟩ : BufTy).Contents (Elt F) → (⟨S_, .f32⟩ : BufTy).Contents (Elt F) → (⟨S_, .f32⟩ : BufTy).Contents (Elt F)),
    StableHlo.nullary main_cst_25 (constant S_ .f32 0x3DCCCCCD#32),
    StableHlo.binary main_cst_25 main_v60 main_v67 (mulf : (⟨S_, .f32⟩ : BufTy).Contents (Elt F) → (⟨S_, .f32⟩ : BufTy).Contents (Elt F) → (⟨S_, .f32⟩ : BufTy).Contents (Elt F)),
    StableHlo.binary main_v66 main_v67 main_v68 (addf : (⟨S_, .f32⟩ : BufTy).Contents (Elt F) → (⟨S_, .f32⟩ : BufTy).Contents (Elt F) → (⟨S_, .f32⟩ : BufTy).Contents (Elt F)),
    StableHlo.nullary main_cst_26 (constant S_ .f32 0x3D4CCCCD#32),
    StableHlo.binary main_cst_26 main_v64 main_v69 (mulf : (⟨S_, .f32⟩ : BufTy).Contents (Elt F) → (⟨S_, .f32⟩ : BufTy).Contents (Elt F) → (⟨S_, .f32⟩ : BufTy).Contents (Elt F)),
    StableHlo.binary main_v68 main_v69 main_v70 (addf : (⟨S_, .f32⟩ : BufTy).Contents (Elt F) → (⟨S_, .f32⟩ : BufTy).Contents (Elt F) → (⟨S_, .f32⟩ : BufTy).Contents (Elt F)) ]

set_option maxHeartbeats 4000000 in
theorem ops_split : (ops : List (HloOp τ sig (Elt F))) = ops1 ++ (ops2 ++ (ops3 ++ ops4)) := rfl

/-! ## What each stretch computes, as terms of what it reads -/

/-- The per-batch mean of the first minima. -/
def mean16 (p2t : (⟨S4x4096, .f32⟩ : BufTy).Contents (Elt F)) : (⟨S4, .f32⟩ : BufTy).Contents (Elt F) :=
  let cst_3 : FVec F S_ .f32 := constant (F := F) S_ .f32 0x00000000#32
  let v14 : FVec F S4 .f32 := Host.reduceAdd p2t cst_3 reducesTo_S4x4096_S4_d1 h_S_
  let cst_4 : FVec F S_ .f32 := constant (F := F) S_ .f32 0x45800000#32
  let v15 : FVec F S4 .f32 := broadcastInDim S4 ![] bcast_S_S4 cst_4
  let v16 : FVec F S4 .f32 := Host.divf v14 v15
  v16

/-- The batch mean of the two per-batch means. -/
def mean23 (v16 : (⟨S4, .f32⟩ : BufTy).Contents (Elt F)) (t2p : (⟨S4x4096, .f32⟩ : BufTy).Contents (Elt F)) : (⟨S_, .f32⟩ : BufTy).Contents (Elt F) :=
  let cst_6 : FVec F S_ .f32 := constant (F := F) S_ .f32 0x00000000#32
  let v18 : FVec F S4 .f32 := Host.reduceAdd t2p cst_6 reducesTo_S4x4096_S4_d1 h_S_
  let cst_7 : FVec F S_ .f32 := constant (F := F) S_ .f32 0x45800000#32
  let v19 : FVec F S4 .f32 := broadcastInDim S4 ![] bcast_S_S4 cst_7
  let v20 : FVec F S4 .f32 := Host.divf v18 v19
  let v21 : FVec F S4 .f32 := addf v16 v20
  let cst_8 : FVec F S_ .f32 := constant (F := F) S_ .f32 0x00000000#32
  let v22 : FVec F S_ .f32 := Host.reduceAdd v21 cst_8 reducesTo_S4_S_d0 h_S_
  let cst_9 : FVec F S_ .f32 := constant (F := F) S_ .f32 0x40800000#32
  let v23 : FVec F S_ .f32 := Host.divf v22 cst_9
  v23

/-- The regulariser over the latent statistics. -/
def reg32 (a4 a5 : (⟨S4x512, .f32⟩ : BufTy).Contents (Elt F)) : (⟨S_, .f32⟩ : BufTy).Contents (Elt F) :=
  let cst_10 : FVec F S_ .f32 := constant (F := F) S_ .f32 0x3F800000#32
  let v24 : FVec F S4x512 .f32 := broadcastInDim S4x512 ![] bcast_S_S4x512 cst_10
  let v25 : FVec F S4x512 .f32 := addf v24 a5
  let v26 : FVec F S4x512 .f32 := mulf a4 a4
  let v27 : FVec F S4x512 .f32 := subf v25 v26
  let v28 : FVec F S4x512 .f32 := Host.exp a5
  let v29 : FVec F S4x512 .f32 := subf v27 v28
  let cst_11 : FVec F S_ .f32 := constant (F := F) S_ .f32 0x00000000#32
  let v30 : FVec F S_ .f32 := Host.reduceAdd v29 cst_11 reducesTo_S4x512_S_d0_1 h_S_
  let cst_12 : FVec F S_ .f32 := constant (F := F) S_ .f32 0x45000000#32
  let v31 : FVec F S_ .f32 := Host.divf v30 cst_12
  let cst_13 : FVec F S_ .f32 := constant (F := F) S_ .f32 0xBF000000#32
  let v32 : FVec F S_ .f32 := mulf cst_13 v31
  v32

/-- The standard deviation term, the size term and the weighted total. -/
def total70 (self : (⟨S4x4096, .f32⟩ : BufTy).Contents (Elt F)) (v23 v32 : (⟨S_, .f32⟩ : BufTy).Contents (Elt F)) (a1 a3 : (⟨S4x4096, .f32⟩ : BufTy).Contents (Elt F)) : (⟨S_, .f32⟩ : BufTy).Contents (Elt F) :=
  let c_19 : IVec S_ 32 := constantI S_ 32 1#32
  let w_cst : FVec F S_ .f32 := constant (F := F) S_ .f32 0x00000000#32
  let w0 : FVec F S4 .f32 := Host.reduceAdd self w_cst reducesTo_S4x4096_S4_d1 h_S_
  let w1 : FVec F S4x1 .f32 := broadcastInDim S4x1 ![0] bcast_S4_S4x1_0 w0
  let w_cst_0 : FVec F S_ .f32 := constant (F := F) S_ .f32 0x45800000#32
  let w2 : FVec F S4x1 .f32 := broadcastInDim S4x1 ![] bcast_S_S4x1 w_cst_0
  let w3 : FVec F S4x1 .f32 := Host.divf w1 w2
  let w4 : FVec F S4x4096 .f32 := broadcastInDim S4x4096 ![0, 1] bcast_S4x1_S4x4096_0_1 w3
  let w5 : FVec F S4x4096 .f32 := subf self w4
  let w6 : FVec F S4x4096 .f32 := mulf w5 w5
  let w7 : FVec F S_ .f32 := sitofp .f32 c_19
  let w_cst_1 : FVec F S_ .f32 := constant (F := F) S_ .f32 0x45800000#32
  let w8 : FVec F S_ .f32 := subf w_cst_1 w7
  let w_cst_2 : FVec F S_ .f32 := constant (F := F) S_ .f32 0x00000000#32
  let w9 : FVec F S4 .f32 := Host.reduceAdd w6 w_cst_2 reducesTo_S4x4096_S4_d1 h_S_
  let w10 : FVec F S4 .f32 := broadcastInDim S4 ![] bcast_S_S4 w8
  let w11 : FVec F S4 .f32 := Host.divf w9 w10
  let w_cst_3 : FVec F S_ .f32 := constant (F := F) S_ .f32 0x00000000#32
  let w12 : IVec S_ 1 := cmpf .ogt w8 w_cst_3
  let w_cst_4 : FVec F S_ .f32 := constant (F := F) S_ .f32 0x7FC00000#32
  let u0 : FVec F S_ .f32 := id w_cst_4
  let u1 : FVec F S4 .f32 := broadcastInDim S4 ![] bcast_S_S4 u0
  let u2 : FVec F S4 .f32 := select (broadcastInDim S4 ![] bcast_S_S4 w12) w11 u1
  let v58 : FVec F S4 .f32 := Host.sqrt u2
  let cst_20 : FVec F S_ .f32 := constant (F := F) S_ .f32 0x00000000#32
  let v59 : FVec F S_ .f32 := Host.reduceAdd v58 cst_20 reducesTo_S4_S_d0 h_S_
  let cst_21 : FVec F S_ .f32 := constant (F := F) S_ .f32 0x40800000#32
  let v60 : FVec F S_ .f32 := Host.divf v59 cst_21
  let v61 : FVec F S4x4096 .f32 := subf a1 a3
  let v62 : FVec F S4x4096 .f32 := mulf v61 v61
  let cst_22 : FVec F S_ .f32 := constant (F := F) S_ .f32 0x00000000#32
  let v63 : FVec F S_ .f32 := Host.reduceAdd v62 cst_22 reducesTo_S4x4096_S_d0_1 h_S_
  let cst_23 : FVec F S_ .f32 := constant (F := F) S_ .f32 0x46800000#32
  let v64 : FVec F S_ .f32 := Host.divf v63 cst_23
  let cst_24 : FVec F S_ .f32 := constant (F := F) S_ .f32 0x3A83126F#32
  let v65 : FVec F S_ .f32 := mulf cst_24 v32
  let v66 : FVec F S_ .f32 := addf v23 v65
  let cst_25 : FVec F S_ .f32 := constant (F := F) S_ .f32 0x3DCCCCCD#32
  let v67 : FVec F S_ .f32 := mulf cst_25 v60
  let v68 : FVec F S_ .f32 := addf v66 v67
  let cst_26 : FVec F S_ .f32 := constant (F := F) S_ .f32 0x3D4CCCCD#32
  let v69 : FVec F S_ .f32 := mulf cst_26 v64
  addf v68 v69

/-- Everything downstream of the three minima is those four pieces composed. -/
theorem refTail_eq (p2t t2p self a1 a3 : (⟨S4x4096, .f32⟩ : BufTy).Contents (Elt F)) (a4 a5 : (⟨S4x512, .f32⟩ : BufTy).Contents (Elt F)) :
    refTail p2t t2p self a1 a3 a4 a5 = total70 self (mean23 (mean16 p2t) t2p) (reg32 a4 a5) a1 a3 := rfl

/-! ## The first stretch -/

section Stage1
variable (W : Valuation τ sig (Elt F))

theorem s1_v17 : StableHlo.after ops1 W (Proc.devRef .tc main_v17)
    = Host.reduce FloatOps.minimumf (refDist (W (Proc.devRef .tc main_arg0)) (W (Proc.devRef .tc main_arg2))) (constant (F := F) S_ .f32 0x7F800000#32) reducesTo_S4x4096x4096_S4x4096_d1 h_S_ := by
  after_results_simp
  rfl

theorem s1_v16 : StableHlo.after ops1 W (Proc.devRef .tc main_v16)
    = mean16 (Host.reduce FloatOps.minimumf (refDist (W (Proc.devRef .tc main_arg0)) (W (Proc.devRef .tc main_arg2))) (constant (F := F) S_ .f32 0x7F800000#32) reducesTo_S4x4096x4096_S4x4096_d2 h_S_) := by
  after_results_simp
  rfl

theorem s1_keep_arg0 : StableHlo.after ops1 W (Proc.devRef .tc main_arg0) = W (Proc.devRef .tc main_arg0) := by
  after_results_simp

theorem s1_keep_arg1 : StableHlo.after ops1 W (Proc.devRef .tc main_arg1) = W (Proc.devRef .tc main_arg1) := by
  after_results_simp

theorem s1_keep_arg3 : StableHlo.after ops1 W (Proc.devRef .tc main_arg3) = W (Proc.devRef .tc main_arg3) := by
  after_results_simp

theorem s1_keep_arg4 : StableHlo.after ops1 W (Proc.devRef .tc main_arg4) = W (Proc.devRef .tc main_arg4) := by
  after_results_simp

theorem s1_keep_arg5 : StableHlo.after ops1 W (Proc.devRef .tc main_arg5) = W (Proc.devRef .tc main_arg5) := by
  after_results_simp

end Stage1

/-! ## The second stretch -/

section Stage2
variable (W : Valuation τ sig (Elt F))

theorem s2_v23 : StableHlo.after ops2 W (Proc.devRef .tc main_v23)
    = mean23 (W (Proc.devRef .tc main_v16)) (W (Proc.devRef .tc main_v17)) := by
  after_results_simp
  rfl

theorem s2_v32 : StableHlo.after ops2 W (Proc.devRef .tc main_v32)
    = reg32 (W (Proc.devRef .tc main_arg4)) (W (Proc.devRef .tc main_arg5)) := by
  after_results_simp
  rfl

theorem s2_keep_arg0 : StableHlo.after ops2 W (Proc.devRef .tc main_arg0) = W (Proc.devRef .tc main_arg0) := by
  after_results_simp

theorem s2_keep_arg1 : StableHlo.after ops2 W (Proc.devRef .tc main_arg1) = W (Proc.devRef .tc main_arg1) := by
  after_results_simp

theorem s2_keep_arg3 : StableHlo.after ops2 W (Proc.devRef .tc main_arg3) = W (Proc.devRef .tc main_arg3) := by
  after_results_simp

end Stage2

/-! ## The third stretch -/

section Stage3
variable (W : Valuation τ sig (Elt F))

theorem s3_v57 : StableHlo.after ops3 W (Proc.devRef .tc main_v57)
    = Host.reduce FloatOps.minimumf (addf (refDist (W (Proc.devRef .tc main_arg0)) (W (Proc.devRef .tc main_arg0))) refDiag) (constant (F := F) S_ .f32 0x7F800000#32) reducesTo_S4x4096x4096_S4x4096_d2 h_S_ := by
  after_results_simp
  rfl

theorem s3_keep_v23 : StableHlo.after ops3 W (Proc.devRef .tc main_v23) = W (Proc.devRef .tc main_v23) := by
  after_results_simp

theorem s3_keep_v32 : StableHlo.after ops3 W (Proc.devRef .tc main_v32) = W (Proc.devRef .tc main_v32) := by
  after_results_simp

theorem s3_keep_arg1 : StableHlo.after ops3 W (Proc.devRef .tc main_arg1) = W (Proc.devRef .tc main_arg1) := by
  after_results_simp

theorem s3_keep_arg3 : StableHlo.after ops3 W (Proc.devRef .tc main_arg3) = W (Proc.devRef .tc main_arg3) := by
  after_results_simp

end Stage3

/-! ## The fourth stretch -/

section Stage4
variable (W : Valuation τ sig (Elt F))

theorem s4_v70 : StableHlo.after ops4 W (Proc.devRef .tc main_v70)
    = total70 (W (Proc.devRef .tc main_v57)) (W (Proc.devRef .tc main_v23)) (W (Proc.devRef .tc main_v32)) (W (Proc.devRef .tc main_arg1)) (W (Proc.devRef .tc main_arg3)) := by
  after_results_simp
  rfl

end Stage4

/-! ## The whole line -/

/-- The reference's result: the weighted total over the three minima of the distance tables of the arguments. -/
theorem ref_val (V : Valuation τ sig (Elt F)) :
    StableHlo.after ops V (Proc.devRef .tc main_v70)
      = refTail
          (Host.reduce FloatOps.minimumf (refDist (V (Proc.devRef .tc main_arg0)) (V (Proc.devRef .tc main_arg2))) (constant (F := F) S_ .f32 0x7F800000#32) reducesTo_S4x4096x4096_S4x4096_d2 h_S_)
          (Host.reduce FloatOps.minimumf (refDist (V (Proc.devRef .tc main_arg0)) (V (Proc.devRef .tc main_arg2))) (constant (F := F) S_ .f32 0x7F800000#32) reducesTo_S4x4096x4096_S4x4096_d1 h_S_)
          (Host.reduce FloatOps.minimumf (addf (refDist (V (Proc.devRef .tc main_arg0)) (V (Proc.devRef .tc main_arg0))) refDiag) (constant (F := F) S_ .f32 0x7F800000#32) reducesTo_S4x4096x4096_S4x4096_d2 h_S_)
          (V (Proc.devRef .tc main_arg1)) (V (Proc.devRef .tc main_arg3)) (V (Proc.devRef .tc main_arg4)) (V (Proc.devRef .tc main_arg5)) := by
  rw [ops_split, after_append, after_append, after_append, refTail_eq, s4_v70,
    s3_v57, s3_keep_v23, s3_keep_v32, s3_keep_arg1, s3_keep_arg3,
    s2_v23, s2_v32, s2_keep_arg0, s2_keep_arg1, s2_keep_arg3,
    s1_v16, s1_v17, s1_keep_arg0, s1_keep_arg1, s1_keep_arg3, s1_keep_arg4, s1_keep_arg5]

end Cert.ReferenceIdeal.HandRun

end
-- ==== Proof.Bridge.lean ====
/-
  The two idealized programs compute one function of the arguments. The kernel program ends with the
  weighted total of: the means of the row minimum and of the column minimum of the squared distances
  between the two point clouds, the Kullback-Leibler term, the mean spread of the self-distances'
  row minimum (the diagonal raised by a constant), and the mean squared difference of the two sizing
  arrays. The reference ends with the same total of the same quantities, its distances spelled
  |x|² + |y|² − 2·⟨x,y⟩; at finite inputs the two spellings agree entry by entry, so the minima
  agree, and the totals are one term of them.
-/
import proofs.«113848_j55319178772943_2_alg».proof.Defs
import proofs.«113848_j55319178772943_2_alg».proof.Proof.Run
import proofs.«113848_j55319178772943_2_alg».proof.Proof.KVal
import proofs.«113848_j55319178772943_2_alg».proof.Proof.Eqs
import proofs.«113848_j55319178772943_2_alg».proof.Proof.Finite
import proofs.«113848_j55319178772943_2_alg».proof.Proof.RefRun
import proofs.«113848_j55319178772943_2_alg».proof.Proof.RefVal

noncomputable section

namespace Cert.Bridge

open Idealize.ShloMosaic Idealize.ShloMosaic.TcCoe Idealize.SL.Sem

/-- The two transcriptions of the reference's distance table are one term. -/
theorem refDist_eq (x y : FVec Ideal Cert.ReferenceIdeal.S4x4096x3 .f32) :
    Cert.ReferenceIdeal.HandRun.refDist (F := Ideal) x y = Cert.ReferenceIdeal.RefRead.refDistE x y := rfl
/-- The two transcriptions of the diagonal penalty are one term. -/
theorem refDiag_eq :
    Cert.ReferenceIdeal.HandRun.refDiag (F := Ideal) = Cert.ReferenceIdeal.RefRead.refDiagE := rfl

theorem algebraic : Cert.algebraic_KernelIdeal_ReferenceIdeal := by
  intro m ρ m' ρ' hpre hagree
  refine ⟨fun c => Cert.KernelIdeal.Hand.W6 m c (Proc.devRef .tc Cert.KernelIdeal.main_v37), ?_, ?_⟩
  · exact (θ_run Cert.KernelIdeal.defs _ _).mono (fun r h c =>
      ⟨h c _ (Cert.KernelIdeal.Hand.mem_uc Cert.KernelIdeal.main_v37 (by decide)),
       (h c _ (Cert.KernelIdeal.Hand.mem_uc Cert.KernelIdeal.main_arg0 (by decide))).trans (Cert.KernelIdeal.Hand.W6_main_arg0 m c),
       (h c _ (Cert.KernelIdeal.Hand.mem_uc Cert.KernelIdeal.main_arg1 (by decide))).trans (Cert.KernelIdeal.Hand.W6_main_arg1 m c),
       (h c _ (Cert.KernelIdeal.Hand.mem_uc Cert.KernelIdeal.main_arg2 (by decide))).trans (Cert.KernelIdeal.Hand.W6_main_arg2 m c),
       (h c _ (Cert.KernelIdeal.Hand.mem_uc Cert.KernelIdeal.main_arg3 (by decide))).trans (Cert.KernelIdeal.Hand.W6_main_arg3 m c),
       (h c _ (Cert.KernelIdeal.Hand.mem_uc Cert.KernelIdeal.main_arg4 (by decide))).trans (Cert.KernelIdeal.Hand.W6_main_arg4 m c),
       (h c _ (Cert.KernelIdeal.Hand.mem_uc Cert.KernelIdeal.main_arg5 (by decide))).trans (Cert.KernelIdeal.Hand.W6_main_arg5 m c)⟩) (Cert.KernelIdeal.Hand.run_all (F := Ideal) m ρ)
  · refine (θ_run Cert.ReferenceIdeal.defs _ _).mono (fun r h c => ⟨(h c).1.trans ?_, (h c).2⟩)
      (Cert.ReferenceIdeal.HandRun.run_raw (F := Ideal) m' ρ')
    obtain ⟨hX, hY⟩ := Cert.ReferenceIdeal.RefRead.finite_of_pre _ _ _ _ _ _ (hpre c)
    rw [Cert.ReferenceIdeal.HandRun.ref_val]
    show Cert.ReferenceIdeal.HandRun.refTail (F := Ideal) _ _ _ _ _ _ _ = Cert.KernelIdeal.Hand.W6 m c (Proc.devRef .tc Cert.KernelIdeal.main_v37)
    rw [Cert.KernelIdeal.Hand.kernel_val m c, refDist_eq, refDist_eq, refDiag_eq]
    have e0 : StableHlo.launchContents m' c (Proc.devRef .tc Cert.ReferenceIdeal.main_arg0) = m ((c.tc : Thread Cert.KernelIdeal.nD Cert.KernelIdeal.τ).loc Cert.KernelIdeal.main_arg0) := (hagree c).1
    have e1 : StableHlo.launchContents m' c (Proc.devRef .tc Cert.ReferenceIdeal.main_arg1) = m ((c.tc : Thread Cert.KernelIdeal.nD Cert.KernelIdeal.τ).loc Cert.KernelIdeal.main_arg1) := (hagree c).2.1
    have e2 : StableHlo.launchContents m' c (Proc.devRef .tc Cert.ReferenceIdeal.main_arg2) = m ((c.tc : Thread Cert.KernelIdeal.nD Cert.KernelIdeal.τ).loc Cert.KernelIdeal.main_arg2) := (hagree c).2.2.1
    have e3 : StableHlo.launchContents m' c (Proc.devRef .tc Cert.ReferenceIdeal.main_arg3) = m ((c.tc : Thread Cert.KernelIdeal.nD Cert.KernelIdeal.τ).loc Cert.KernelIdeal.main_arg3) := (hagree c).2.2.2.1
    have e4 : StableHlo.launchContents m' c (Proc.devRef .tc Cert.ReferenceIdeal.main_arg4) = m ((c.tc : Thread Cert.KernelIdeal.nD Cert.KernelIdeal.τ).loc Cert.KernelIdeal.main_arg4) := (hagree c).2.2.2.2.1
    have e5 : StableHlo.launchContents m' c (Proc.devRef .tc Cert.ReferenceIdeal.main_arg5) = m ((c.tc : Thread Cert.KernelIdeal.nD Cert.KernelIdeal.τ).loc Cert.KernelIdeal.main_arg5) := (hagree c).2.2.2.2.2
    rw [e0, e1, e2, e3, e4, e5]
    have q1 := Cert.Bridge.E1 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) hX hY
    have q2 : Cert.KernelIdeal.Hand.colAll (m ((c.tc : Thread Cert.KernelIdeal.nD Cert.KernelIdeal.τ).loc Cert.KernelIdeal.main_arg0)) (m ((c.tc : Thread Cert.KernelIdeal.nD Cert.KernelIdeal.τ).loc Cert.KernelIdeal.main_arg2)) = _ :=
      Cert.Bridge.E2 (m ((c.tc : Thread Cert.KernelIdeal.nD Cert.KernelIdeal.τ).loc Cert.KernelIdeal.main_arg0)) (m ((c.tc : Thread Cert.KernelIdeal.nD Cert.KernelIdeal.τ).loc Cert.KernelIdeal.main_arg2)) hX hY
    have q3 := Cert.Bridge.E3 (m ((c.tc : Thread Cert.KernelIdeal.nD Cert.KernelIdeal.τ).loc Cert.KernelIdeal.main_arg0)) hX
    rw [q1, q2, q3]

end Cert.Bridge

end
-- ==== Proof.lean ====
/-
  A mesh-generation loss: the bidirectional chamfer distance between two clouds of 4096 points in
  three dimensions (batch of four), a Kullback-Leibler term, the spread of the nearest-neighbour
  distances within the first cloud, and a mean squared difference of two sizing arrays, in one
  weighted total.

  The kernel program computes the chamfer part with one pass over the pairwise squared distances
  Σ_d (x_d − y_d)²: a grid of 2 × 16 tiles of 128 rows, each tile reduced to its row minimum, and a
  running column minimum kept across the 16 tiles of each half and joined by an elementwise minimum
  afterwards; a second grid of 32 tiles reduces the first cloud's self-distances, the diagonal raised
  by a constant, to the row minimum. The reference spells the squared distances |x|² + |y|² − 2·⟨x,y⟩
  and reduces the whole tables. On the extended reals, at finite inputs, the two spellings agree entry
  by entry, the minimum of minima over a partition is the minimum over the whole, and everything
  downstream of the three minimum arrays is one term on both sides.

  The three frames: each program terminates from any memory, faults nowhere and leaves its argument
  arrays as launched. For the kernel program this is the run of its two regions and the host lines
  between and after them, with every buffer's contents named at each boundary; the second region
  reads one array through two windows, which hold it at the two halves of the full share. The
  idealization pass rewrote nothing, so the sanctioned-idealization conjunct is trivial.
-/
import proofs.«113848_j55319178772943_2_alg».proof.Defs
import proofs.«113848_j55319178772943_2_alg».proof.Proof.Gen.Kernel
import proofs.«113848_j55319178772943_2_alg».proof.Proof.Gen.KernelIdeal
import proofs.«113848_j55319178772943_2_alg».proof.Proof.Gen.ReferenceIdeal
import proofs.«113848_j55319178772943_2_alg».proof.Proof.Gen.Pre_finite_inputs
import proofs.«113848_j55319178772943_2_alg».proof.Proof.RunK
import proofs.«113848_j55319178772943_2_alg».proof.Proof.Run
import proofs.«113848_j55319178772943_2_alg».proof.Proof.RefRun
import proofs.«113848_j55319178772943_2_alg».proof.Proof.Bridge
import Idealize.ShloMosaic.Adequacy
import Idealize.ShloMosaic.Init

noncomputable section

namespace Cert.Proof

open Idealize.ShloMosaic Idealize.SL.Sem

theorem claim : Cert.Claim := ⟨Cert.Kernel.Gen.facts, Cert.KernelIdeal.Gen.facts, Cert.ReferenceIdeal.Gen.facts, Cert.Pre_finite_inputs.Gen.facts,
  fun m ρ _ => Cert.Kernel.Hand.frame m ρ,
  fun m ρ _ => Cert.KernelIdeal.Hand.frame m ρ,
  Cert.ReferenceIdeal.HandRun.frame_ri,
  trivial,
  Cert.Bridge.algebraic⟩

end Cert.Proof

end
